-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S16x384 : Shape := ⟨2, ![16, 384]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S16x384 : S_.BroadcastsInDim S16x384 (![] : Fin 0 → Fin S16x384.rank)
  reducesTo_S16x384_S_d0_1 : S16x384.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S128 .f32) (main_arg8 : FVec F S16x384 .f32) (main_arg9 : FVec F S16 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S16x384 .f32 := Host.absf main_arg8
  let main_cst_14 : FVec F S_ .f32 := constant S_ .f32 0x7F800000#32
  let main_v40 : FVec F S16x384 .f32 := broadcastInDim S16x384 ![] bcast_S_S16x384 main_cst_14
  let main_v41 : IVec S16x384 1 := cmpf .olt main_v39 main_v40
  let main_c_15 : IVec S_ 1 := constantI S_ 1 1#1
  let main_v42 : IVec S_ 1 := (fun x v => Host.reduce IntOp.andi x v reducesTo_S16x384_S_d0_1 h_S_) main_v41 main_c_15
  let main_v43 : IVec S_ 1 := andi main_v38 main_v42
  let main_v44 : FVec F S16 .f32 := Host.absf main_arg9
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  main_v48

def fn_part1 {F : FTy → Type} [FloatOps F] (main_arg4 : FVec F S128x128 .f32) (main_arg5 : FVec F S128 .f32) (main_arg6 : FVec F S128x128 .f32) (main_arg7 : FVec F S128 .f32) (main_arg8 : FVec F S16x384 .f32) (main_arg9 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S16x384 .f32) (main_arg9 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S16x384 : Shape := ⟨2, ![16, 384]⟩
abbrev S16 : Shape := ⟨1, ![16]⟩
abbrev S384x16 : Shape := ⟨2, ![384, 16]⟩
abbrev S128x16 : Shape := ⟨2, ![128, 16]⟩
abbrev S1x128x16 : Shape := ⟨3, ![1, 128, 16]⟩
abbrev S2x128x16 : Shape := ⟨3, ![2, 128, 16]⟩
abbrev S1x128 : Shape := ⟨2, ![1, 128]⟩
abbrev S1x1x128 : Shape := ⟨3, ![1, 1, 128]⟩
abbrev S2x1x128 : Shape := ⟨3, ![2, 1, 128]⟩
abbrev S1x16 : Shape := ⟨2, ![1, 16]⟩
abbrev S10000x16 : Shape := ⟨2, ![10000, 16]⟩
abbrev S400x10000 : Shape := ⟨2, ![400, 10000]⟩
abbrev S400x128 : Shape := ⟨2, ![400, 128]⟩
abbrev S400x16 : Shape := ⟨2, ![400, 16]⟩
abbrev S2x10000x16 : Shape := ⟨3, ![2, 10000, 16]⟩
abbrev S1000x10000 : Shape := ⟨2, ![1000, 10000]⟩
abbrev S1000x16 : Shape := ⟨2, ![1000, 16]⟩
abbrev S1x1000x16 : Shape := ⟨3, ![1, 1000, 16]⟩
abbrev S1000x128 : Shape := ⟨2, ![1000, 128]⟩
abbrev S1000 : Shape := ⟨1, ![1000]⟩
abbrev S1000x1 : Shape := ⟨2, ![1000, 1]⟩
abbrev S1x10000x16 : Shape := ⟨3, ![1, 10000, 16]⟩

abbrev nBuf : Space → Nat
  | .hbm => 35
  | .vmem => 29
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S16x384, .f32⟩
  | .hbm, ⟨9, _⟩ => ⟨S16, .f32⟩
  | .hbm, ⟨10, _⟩ => ⟨S128x128, .bf16⟩
  | .hbm, ⟨11, _⟩ => ⟨S128x128, .bf16⟩
  | .hbm, ⟨12, _⟩ => ⟨S128x128, .bf16⟩
  | .hbm, ⟨13, _⟩ => ⟨S384x16, .f32⟩
  | .hbm, ⟨14, _⟩ => ⟨S128x16, .f32⟩
  | .hbm, ⟨15, _⟩ => ⟨S128x16, .bf16⟩
  | .hbm, ⟨16, _⟩ => ⟨S128x16, .f32⟩
  | .hbm, ⟨17, _⟩ => ⟨S128x16, .f32⟩
  | .hbm, ⟨18, _⟩ => ⟨S1x128x16, .f32⟩
  | .hbm, ⟨19, _⟩ => ⟨S1x128x16, .f32⟩
  | .hbm, ⟨20, _⟩ => ⟨S2x128x16, .f32⟩
  | .hbm, ⟨21, _⟩ => ⟨S2x128x16, .bf16⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S1x1x128, .f32⟩
  | .hbm, ⟨26, _⟩ => ⟨S1x1x128, .f32⟩
  | .hbm, ⟨27, _⟩ => ⟨S2x1x128, .f32⟩
  | .hbm, ⟨28, _⟩ => ⟨S1x16, .f32⟩
  | .hbm, ⟨29, _⟩ => ⟨S10000x10000, .bf16⟩
  | .hbm, ⟨30, _⟩ => ⟨S10000x128, .bf16⟩
  | .hbm, ⟨31, _⟩ => ⟨S10000x16, .f32⟩
  | .hbm, ⟨32, _⟩ => ⟨S2x10000x16, .f32⟩
  | .hbm, ⟨33, _⟩ => ⟨S1x10000x16, .f32⟩
  | .hbm, ⟨34, _⟩ => ⟨S10000x16, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x128, .bf16⟩
  | .local _ .vmem, ⟨4, _⟩ => ⟨S1x128, .f32⟩
  | .local _ .vmem, ⟨5, _⟩ => ⟨S128x128, .bf16⟩
  | .local _ .vmem, ⟨6, _⟩ => ⟨S128x16, .bf16⟩
  | .local _ .vmem, ⟨7, _⟩ => ⟨S400x10000, .bf16⟩
  | .local _ .vmem, ⟨8, _⟩ => ⟨S400x10000, .bf16⟩
  | .local _ .vmem, ⟨9, _⟩ => ⟨S400x128, .bf16⟩
  | .local _ .vmem, ⟨10, _⟩ => ⟨S400x128, .bf16⟩
  | .local _ .vmem, ⟨11, _⟩ => ⟨S400x16, .f32⟩
  | .local _ .vmem, ⟨12, _⟩ => ⟨S400x16, .f32⟩
  | .local _ .vmem, ⟨13, _⟩ => ⟨S10000x128, .bf16⟩
  | .local _ .vmem, ⟨14, _⟩ => ⟨S1000x10000, .bf16⟩
  | .local _ .vmem, ⟨15, _⟩ => ⟨S1000x10000, .bf16⟩
  | .local _ .vmem, ⟨16, _⟩ => ⟨S10000x128, .bf16⟩
  | .local _ .vmem, ⟨17, _⟩ => ⟨S1000x16, .f32⟩
  | .local _ .vmem, ⟨18, _⟩ => ⟨S1000x16, .f32⟩
  | .local _ .vmem, ⟨19, _⟩ => ⟨S1x1x128, .f32⟩
  | .local _ .vmem, ⟨20, _⟩ => ⟨S1x1x128, .f32⟩
  | .local _ .vmem, ⟨21, _⟩ => ⟨S128x128, .bf16⟩
  | .local _ .vmem, ⟨22, _⟩ => ⟨S1x128x16, .bf16⟩
  | .local _ .vmem, ⟨23, _⟩ => ⟨S1x128x16, .bf16⟩
  | .local _ .vmem, ⟨24, _⟩ => ⟨S1x16, .f32⟩
  | .local _ .vmem, ⟨25, _⟩ => ⟨S1x1000x16, .f32⟩
  | .local _ .vmem, ⟨26, _⟩ => ⟨S1x1000x16, .f32⟩
  | .local _ .vmem, ⟨27, _⟩ => ⟨S10000x128, .bf16⟩
  | .local _ .vmem, ⟨28, _⟩ => ⟨S10000x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19_0 : Ref sig .tc := ⟨.hbm, 29, rfl⟩
abbrev main_v19_1 : Ref sig .tc := ⟨.hbm, 30, rfl⟩
abbrev main_v19_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg7_1 : Ref sig .tc := ⟨.vmem, 26, rfl⟩
abbrev cc1_scratch0 : Ref sig .tc := ⟨.vmem, 27, rfl⟩
abbrev cc1_scratch1 : Ref sig .tc := ⟨.vmem, 28, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem5_0 : DmaSem sig := 21
abbrev cc1_sem5_1 : DmaSem sig := 22
abbrev cc1_sem6_0 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := ⟨1, ![26], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x16 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x10000 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S400x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S400x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![2, 10], ![false, false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k1_off1 (i : grid1.Coords) : Fin 2 → Nat :=
  let arg1 : BitVec 32 := BitVec.ofNat 32 (i 1).val
  let c1000_i32 : BitVec 32 := 1000#32
  let v22 : BitVec 32 := Scalar.muli arg1 c1000_i32
  let v23 : Index := Scalar.indexCast v22
  let c0_12 : Index := 0#32
  ![v23.toNat, 0]
def k1_off2 (i : grid1.Coords) : Fin 2 → Nat :=
  let arg1 : BitVec 32 := BitVec.ofNat 32 (i 1).val
  let c1000_i32_17 : BitVec 32 := 1000#32
  let v30 : BitVec 32 := Scalar.muli arg1 c1000_i32_17
  let v31 : Index := Scalar.indexCast v30
  let c0_18 : Index := 0#32
  ![v31.toNat, 0]
def k1_cond2 (i : grid1.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k1_off3 (i : grid1.Coords) : Fin 2 → Nat :=
  let arg1 : BitVec 32 := BitVec.ofNat 32 (i 1).val
  let c1000_i32 : BitVec 32 := 1000#32
  let v22 : BitVec 32 := Scalar.muli arg1 c1000_i32
  let v23 : Index := Scalar.indexCast v22
  let c0_15 : Index := 0#32
  ![v23.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1000x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x128x16 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 1 → Memref sig .tc .vmem S1x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x1000x16 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

class Facts₀ : Prop where
  bitsLt_bf16_f32 : FTy.bits .bf16 < FTy.bits .f32
  transposes_S16x384_S384x16_1_0 : S16x384.Transposes [1, 0] S384x16
  slices_S384x16_S128x16_0_0 : S384x16.Slices ![0, 0] S128x16
  slices_S384x16_S128x16_128_0 : S384x16.Slices ![128, 0] S128x16
  slices_S384x16_S128x16_256_0 : S384x16.Slices ![256, 0] S128x16
  bcast_S128x16_S1x128x16_1_2 : S128x16.BroadcastsInDim S1x128x16 (![1, 2] : Fin 2 → Fin S1x128x16.rank)
  concatenates_S1x128x16_S1x128x16_S2x128x16_d0 : Shape.Concatenates [S1x128x16, S1x128x16] S2x128x16 0
  shapeCasts_S128_S1x128 : S128.ShapeCasts S1x128
  bcast_S1x128_S1x1x128_1_2 : S1x128.BroadcastsInDim S1x1x128 (![1, 2] : Fin 2 → Fin S1x1x128.rank)
  concatenates_S1x1x128_S1x1x128_S2x1x128_d0 : Shape.Concatenates [S1x1x128, S1x1x128] S2x1x128 0
  shapeCasts_S16_S1x16 : S16.ShapeCasts S1x16
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  packedbf16_S400x10000_S400x10000_0_0 : (Rect.unit (s := S400x10000) ![0, 0] S400x10000.size inb_S400x10000_S400x10000_0_0).PackedRows (EltTy.packing .bf16)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  packedbf16_S400x128_S400x128_0_0 : (Rect.unit (s := S400x128) ![0, 0] S400x128.size inb_S400x128_S400x128_0_0).PackedRows (EltTy.packing .bf16)
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S400x16_S400x16_0_0 : ∀ a, (![0, 0] : Fin 2 → Nat) a + S400x16.size a ≤ S400x16.size a
  h_S400x16 : 0 < S400x16.numel
  inb_S1000x10000_S1000x10000_0_0 : ∀ a, (![0, 0] : Fin 2 → Nat) a + S1000x10000.size a ≤ S1000x10000.size a
  h_S1000x10000 : 0 < S1000x10000.numel
  shapeCasts_S1000x10000_S1000x10000 : S1000x10000.ShapeCasts S1000x10000
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  broadcasts_S1x128_S1000x128 : S1x128.Broadcasts S1000x128
  h_S1000x128 : 0 < S1000x128.numel
  shapeCasts_S1000x128_S1000x128 : S1000x128.ShapeCasts S1000x128
  inb_S1x128x16_S1x128x16_0_0_0 : ∀ a, (![0, 0, 0] : Fin 3 → Nat) a + S1x128x16.size a ≤ S1x128x16.size a
  h_S1x128x16 : 0 < S1x128x16.numel
  shapeCasts_S1x128x16_S128x16 : S1x128x16.ShapeCasts S128x16
  h_S1000x16 : 0 < S1000x16.numel
  shapeCasts_S1000x16_S1000x16 : S1000x16.ShapeCasts S1000x16
  inb_S1000x16_S1000x16_0_0 : ∀ a, (![0, 0] : Fin 2 → Nat) a + S1000x16.size a ≤ S1000x16.size a
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S1000x16 : S1x16.Broadcasts S1000x16
  reduces_S1000x16_S1000 : S1000x16.Reduces [1] S1000
  shapeCasts_S1000_S1000x1 : S1000.ShapeCasts S1000x1
  broadcasts_S1000x1_S1000x16 : S1000x1.Broadcasts S1000x16
  inb_S1x1000x16_S1x1000x16_0_0_0 : ∀ a, (![0, 0, 0] : Fin 3 → Nat) a + S1x1000x16.size a ≤ S1x1000x16.size a
  h_S1x1000x16 : 0 < S1x1000x16.numel
  shapeCasts_S1x1000x16_S1000x16 : S1x1000x16.ShapeCasts S1000x16
  shapeCasts_S1000x16_S1x1000x16 : S1000x16.ShapeCasts S1x1000x16
  slices_S2x10000x16_S1x10000x16_1_0_0 : S2x10000x16.Slices ![1, 0, 0] S1x10000x16
  shapeCasts_S1x10000x16_S10000x16 : S1x10000x16.ShapeCasts S10000x16
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  dot_S400x128_S128x16_S400x16_1_0_0_1_n_n_wf : DotDims.WF S400x128 S128x16 S400x16 [1] [0] [0] [1] [] []
  dot_S1000x10000_S10000x128_S1000x128_1_0_0_1_n_n_wf : DotDims.WF S1000x10000 S10000x128 S1000x128 [1] [0] [0] [1] [] []
  dot_S1000x128_S128x128_S1000x128_1_0_0_1_n_n_wf : DotDims.WF S1000x128 S128x128 S1000x128 [1] [0] [0] [1] [] []
  dot_S1000x128_S128x16_S1000x16_1_0_0_1_n_n_wf : DotDims.WF S1000x128 S128x16 S1000x16 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x16.size a ≤ S128x16.size a
  hwx0_5 : ∀ i : grid0.Coords, EltTy.bits .bf16 = 32 ∨ (Rect.block (s := S128x16) S128x16.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x10000.size a ≤ S10000x10000.size a
  hwx0_6 : ∀ i : grid0.Coords, EltTy.bits .bf16 = 32 ∨ (Rect.block (s := S10000x10000) S400x10000.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x128.size a ≤ S10000x128.size a
  hwx0_7 : ∀ i : grid0.Coords, EltTy.bits .bf16 = 32 ∨ (Rect.block (s := S10000x128) S400x128.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S400x16.size a ≤ S10000x16.size a
  hwx0_8 : ∀ i : grid0.Coords, EltTy.bits .f32 = 32 ∨ (Rect.block (s := S10000x16) S400x16.size (cc0_transform_8 i) (hinb0_8 i)).WholeWords (EltTy.packing .f32)
  hrank1 : 0 < grid1.rank
  k1_off1_inb : ∀ i : grid1.Coords, ∀ (k1_h1 : k1_cond1 i = 1#1), ∀ a, (k1_off1 i) a + S1000x128.size a ≤ S10000x128.size a
  k1_off1_packedbf16 : ∀ i : grid1.Coords, ∀ (k1_h1 : k1_cond1 i = 1#1), (Rect.unit (s := S10000x128) (k1_off1 i) S1000x128.size (k1_off1_inb i k1_h1)).PackedRows (EltTy.packing .bf16)
  k1_off2_inb : ∀ i : grid1.Coords, ∀ (k1_h1 : k1_cond1 i = 1#1), ∀ a, (k1_off2 i) a + S1000x16.size a ≤ S10000x16.size a
  k1_off3_inb : ∀ i : grid1.Coords, ∀ (k1_h2 : k1_cond2 i = 1#1), ∀ a, (k1_off3 i) a + S1000x16.size a ≤ S10000x16.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x10000.size a ≤ S10000x10000.size a
  hwx1_0 : ∀ i : grid1.Coords, EltTy.bits .bf16 = 32 ∨ (Rect.block (s := S10000x10000) S1000x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x16.size a ≤ S10000x16.size a
  hwx1_2 : ∀ i : grid1.Coords, EltTy.bits .f32 = 32 ∨ (Rect.block (s := S10000x16) S1000x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x128.size a ≤ S2x1x128.size a
  hwx1_3 : ∀ i : grid1.Coords, EltTy.bits .f32 = 32 ∨ (Rect.block (s := S2x1x128) S1x1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x128x16.size a ≤ S2x128x16.size a
  hwx1_5 : ∀ i : grid1.Coords, EltTy.bits .bf16 = 32 ∨ (Rect.block (s := S2x128x16) S1x128x16.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x16.size a ≤ S1x16.size a
  hwx1_6 : ∀ i : grid1.Coords, EltTy.bits .f32 = 32 ∨ (Rect.block (s := S1x16) S1x16.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1000x16.size a ≤ S2x10000x16.size a
  hwx1_7 : ∀ i : grid1.Coords, EltTy.bits .f32 = 32 ∨ (Rect.block (s := S2x10000x16) S1x1000x16.size (cc1_transform_7 i) (hinb1_7 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S400x128_S128x16_S400x16_1_0_0_1_n_n : DotDims S400x128 S128x16 S400x16 where
  lhsContracting := [1]
  rhsContracting := [0]
  lhsNonContracting := [0]
  rhsNonContracting := [1]
  lhsBatch := []
  rhsBatch := []
  wf := dot_S400x128_S128x16_S400x16_1_0_0_1_n_n_wf
def dot_S1000x10000_S10000x128_S1000x128_1_0_0_1_n_n : DotDims S1000x10000 S10000x128 S1000x128 where
  lhsContracting := [1]
  rhsContracting := [0]
  lhsNonContracting := [0]
  rhsNonContracting := [1]
  lhsBatch := []
  rhsBatch := []
  wf := dot_S1000x10000_S10000x128_S1000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x16_S1000x16_1_0_0_1_n_n : DotDims S1000x128 S128x16 S1000x16 where
  lhsContracting := [1]
  rhsContracting := [0]
  lhsNonContracting := [0]
  rhsNonContracting := [1]
  lhsBatch := []
  rhsBatch := []
  wf := dot_S1000x128_S128x16_S1000x16_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S128x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19_0) S400x10000.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v19_1) S400x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v19_2) S400x16.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | 8 => fun i => !(k0_cond2 i == 1#1) | ⟨_ + 9, h⟩ => absurd h (Nat.not_lt.2 (Nat.le_add_left _ _))

abbrev win1_0 : Pipeline.Window sig grid1 :=
  Pipeline.Window.ofSpec (Memref.whole main_v19_0) S1000x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19_1) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19_2) S1000x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x1x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S1x128x16.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v18) S1x16.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v20) S1x1000x16.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S16x384 : Shape := ⟨2, ![16, 384]⟩
abbrev S16 : Shape := ⟨1, ![16]⟩
abbrev S1x128 : Shape := ⟨2, ![1, 128]⟩
abbrev S_ : Shape := ⟨0, ![]⟩
abbrev S10000x384 : Shape := ⟨2, ![10000, 384]⟩
abbrev S384x16 : Shape := ⟨2, ![384, 16]⟩
abbrev S10000x16 : Shape := ⟨2, ![10000, 16]⟩
abbrev S1x16 : Shape := ⟨2, ![1, 16]⟩
abbrev S10000 : Shape := ⟨1, ![10000]⟩
abbrev S10000x1 : Shape := ⟨2, ![10000, 1]⟩

abbrev nBuf : Space → Nat
  | .hbm => 55
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S16x384, .f32⟩
  | .hbm, ⟨9, _⟩ => ⟨S16, .f32⟩
  | .hbm, ⟨10, _⟩ => ⟨S10000x128, .f32⟩
  | .hbm, ⟨11, _⟩ => ⟨S10000x128, .f32⟩
  | .hbm, ⟨12, _⟩ => ⟨S1x128, .f32⟩
  | .hbm, ⟨13, _⟩ => ⟨S10000x128, .f32⟩
  | .hbm, ⟨14, _⟩ => ⟨S10000x128, .f32⟩
  | .hbm, ⟨15, _⟩ => ⟨S_, .f32⟩
  | .hbm, ⟨16, _⟩ => ⟨S10000x128, .f32⟩
  | .hbm, ⟨17, _⟩ => ⟨S10000x128, .f32⟩
  | .hbm, ⟨18, _⟩ => ⟨S10000x128, .f32⟩
  | .hbm, ⟨19, _⟩ => ⟨S10000x128, .f32⟩
  | .hbm, ⟨20, _⟩ => ⟨S1x128, .f32⟩
  | .hbm, ⟨21, _⟩ => ⟨S10000x128, .f32⟩
  | .hbm, ⟨22, _⟩ => ⟨S10000x128, .f32⟩
  | .hbm, ⟨23, _⟩ => ⟨S_, .f32⟩
  | .hbm, ⟨24, _⟩ => ⟨S10000x128, .f32⟩
  | .hbm, ⟨25, _⟩ => ⟨S10000x128, .f32⟩
  | .hbm, ⟨26, _⟩ => ⟨S10000x128, .f32⟩
  | .hbm, ⟨27, _⟩ => ⟨S10000x128, .f32⟩
  | .hbm, ⟨28, _⟩ => ⟨S1x128, .f32⟩
  | .hbm, ⟨29, _⟩ => ⟨S10000x128, .f32⟩
  | .hbm, ⟨30, _⟩ => ⟨S10000x128, .f32⟩
  | .hbm, ⟨31, _⟩ => ⟨S_, .f32⟩
  | .hbm, ⟨32, _⟩ => ⟨S10000x128, .f32⟩
  | .hbm, ⟨33, _⟩ => ⟨S10000x128, .f32⟩
  | .hbm, ⟨34, _⟩ => ⟨S10000x384, .f32⟩
  | .hbm, ⟨35, _⟩ => ⟨S384x16, .f32⟩
  | .hbm, ⟨36, _⟩ => ⟨S10000x16, .f32⟩
  | .hbm, ⟨37, _⟩ => ⟨S1x16, .f32⟩
  | .hbm, ⟨38, _⟩ => ⟨S10000x16, .f32⟩
  | .hbm, ⟨39, _⟩ => ⟨S10000x16, .f32⟩
  | .hbm, ⟨40, _⟩ => ⟨S_, .f32⟩
  | .hbm, ⟨41, _⟩ => ⟨S10000, .f32⟩
  | .hbm, ⟨42, _⟩ => ⟨S_, .f32⟩
  | .hbm, ⟨43, _⟩ => ⟨S10000, .f32⟩
  | .hbm, ⟨44, _⟩ => ⟨S10000, .f32⟩
  | .hbm, ⟨45, _⟩ => ⟨S10000x1, .f32⟩
  | .hbm, ⟨46, _⟩ => ⟨S10000x16, .f32⟩
  | .hbm, ⟨47, _⟩ => ⟨S10000x16, .f32⟩
  | .hbm, ⟨48, _⟩ => ⟨S10000x16, .f32⟩
  | .hbm, ⟨49, _⟩ => ⟨S_, .f32⟩
  | .hbm, ⟨50, _⟩ => ⟨S10000, .f32⟩
  | .hbm, ⟨51, _⟩ => ⟨S10000x1, .f32⟩
  | .hbm, ⟨52, _⟩ => ⟨S10000x1, .f32⟩
  | .hbm, ⟨53, _⟩ => ⟨S10000x16, .f32⟩
  | .hbm, ⟨54, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call1_cst : Ref sig .tc := ⟨.hbm, 23, rfl⟩
abbrev main_call1_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call2_cst : Ref sig .tc := ⟨.hbm, 31, rfl⟩
abbrev main_call2_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call3_cst : Ref sig .tc := ⟨.hbm, 40, rfl⟩
abbrev main_call3_v0 : Ref sig .tc := ⟨.hbm, 41, rfl⟩
abbrev main_call3_cst_0 : Ref sig .tc := ⟨.hbm, 42, rfl⟩
abbrev main_call3_v1 : Ref sig .tc := ⟨.hbm, 43, rfl⟩
abbrev main_call3_v2 : Ref sig .tc := ⟨.hbm, 44, rfl⟩
abbrev main_call3_v3 : Ref sig .tc := ⟨.hbm, 45, rfl⟩
abbrev main_call3_v4 : Ref sig .tc := ⟨.hbm, 46, rfl⟩
abbrev main_call3_v5 : Ref sig .tc := ⟨.hbm, 47, rfl⟩
abbrev main_call3_v6 : Ref sig .tc := ⟨.hbm, 48, rfl⟩
abbrev main_call3_cst_1 : Ref sig .tc := ⟨.hbm, 49, rfl⟩
abbrev main_call3_v7 : Ref sig .tc := ⟨.hbm, 50, rfl⟩
abbrev main_call3_v8 : Ref sig .tc := ⟨.hbm, 51, rfl⟩
abbrev main_call3_v9 : Ref sig .tc := ⟨.hbm, 52, rfl⟩
abbrev main_call3_v10 : Ref sig .tc := ⟨.hbm, 53, rfl⟩
abbrev main_v24 : Ref sig .tc := ⟨.hbm, 54, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  concatenates_S10000x128_S10000x128_S10000x128_S10000x384_d1 : Shape.Concatenates [S10000x128, S10000x128, S10000x128] S10000x384 1
  transposes_S16x384_S384x16_1_0 : S16x384.Transposes [1, 0] S384x16
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  reducesTo_S10000x16_S10000_d1 : S10000x16.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x16_0_1 : S10000x1.BroadcastsInDim S10000x16 (![0, 1] : Fin 2 → Fin S10000x16.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x384_S384x16_S10000x16_1_0_0_1_n_n_wf : DotDims.WF S10000x384 S384x16 S10000x16 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x384_S384x16_S10000x16_1_0_0_1_n_n : DotDims S10000x384 S384x16 S10000x16 where
  lhsContracting := [1]
  rhsContracting := [0]
  lhsNonContracting := [0]
  rhsNonContracting := [1]
  lhsBatch := []
  rhsBatch := []
  wf := dot_S10000x384_S384x16_S10000x16_1_0_0_1_n_n_wf

class Facts : Prop extends Facts₀ where

variable [Facts]
-- ==== Proof.FKernel.R0RunA.lean ====
import proofs.«166769_g37641093382870_cont_sun_c4_266_19_alg».proof.Proof.Gen.Kernel.Launch
import proofs.«166769_g37641093382870_cont_sun_c4_266_19_alg».proof.Proof.Gen.Kernel.Skeleton
import proofs.«166769_g37641093382870_cont_sun_c4_266_19_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hnd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

/-! ## Region 0: the branch conditions of the body, decided over the grid -/

/-- The first branch (the support matrix is computed) is taken exactly at the grid's first point. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- The second branch (a row block of the adjacency is consumed) is taken at every later point. -/
abbrev cond0_1 (i : grid0.Coords) : Prop := k0_cond2 i = 1#1
theorem hcond0_1 : ∀ t : Fin cfg0.N, cond0_1 (grid0.coords t) ↔ t.val ≠ 0 :=
  (by decide +kernel : ∀ t : Fin grid0.N, cond0_1 (grid0.coords t) ↔ t.val ≠ 0)

set_option maxHeartbeats 1000000 in
/-- The body at the first point: it loads the features and the first weight matrix and stores their product into the
    scratch; the pieces the scratch ends with are found by the run. -/
noncomputable def run0_A (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S128x16 .bf16) (harg6 : arg6.IsWhole) (arg7 : Memref sig .tc .vmem S400x10000 .bf16) (harg7 : arg7.IsWhole) (arg8 : Memref sig .tc .vmem S400x128 .bf16) (harg8 : arg8.IsWhole) (arg9 : Memref sig .tc .vmem S400x16 .f32) (harg9 : arg9.IsWhole) (arg10 : Memref sig .tc .vmem S10000x128 .bf16) (harg10 : arg10.IsWhole) (hc0 : cond0_0 i) (hc1 : ¬cond0_1 i)
    (x0 : Vec F S10000x128 .f32) (x2 : Vec F S128x128 .bf16) :
    { LS0 : List (View.Piece (Elt F) S10000x128 .bf16) //
      ∀ (E : Set ℕ) (K : PUnit → sProp 𝕄),
        iprop(owns (c : Thread nD τ) arg1 fullShare x0 ∗ owns (c : Thread nD τ) arg3 fullShare x2 ∗ (∃ d, owns (c : Thread nD τ) arg10 fullShare d)
            ∗ (iprop(owns (c : Thread nD τ) arg1 fullShare x0 ∗ owns (c : Thread nD τ) arg3 fullShare x2 ∗ (∃ f, arg10.view.loc (c : Thread nD τ) ↦[arg10.view.set]{fullShare} arg10.view.writes (Elt F) f LS0)) -∗ K ⟨⟩))
          ⊢ wp frame (wpE (defs₀ (F := F)) Variants.none c none) E (cc0__call_a_kernel i arg1 harg1 arg2 harg2 arg3 harg3 arg4 harg4 arg5 harg5 arg6 harg6 arg7 harg7 arg8 harg8 arg9 harg9 arg10 harg10) K } := by
  refine ⟨?_, fun E K => ?run⟩
  case run =>
    simp only [cc0__call_a_kernel_eq_skeleton]; unfold cc0__call_a_kernel_skel
    unfold owns
    iintro ⟨⟨%f0, %hf0, H0⟩, ⟨%f2, %hf2, H2⟩, ⟨%ds, %fs, %hfs, HS⟩, Hk⟩
    obtain rfl := harg1.eq_unread hf0; obtain rfl := harg3.eq_unread hf2; obtain rfl := harg10.eq_unread hfs
    sl_exec (disch := first | exact hc0 | exact hc1)
    sl_step
    iapply Hk
    isplitl [H0]
    · iexists _; isplitr; · ipureintro; exact harg1.read_unread _
      iexact H0
    isplitl [H2]
    · iexists _; isplitr; · ipureintro; exact harg3.read_unread _
      iexact H2
    iexists _; iexact HS

end Cert.Kernel.Hnd

end
-- ==== Proof.FKernel.R0RunB.lean ====
import proofs.«166769_g37641093382870_cont_sun_c4_266_19_alg».proof.Proof.FKernel.R0RunA

set_option maxRecDepth 16384

noncomputable section

namespace Cert.Kernel.Hnd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The body at a later point: it loads a row block of the adjacency, the scratch, the bias and the two weight
    blocks, and stores the converted block, the next support rows and the head's partial product; the pieces each
    output ends with are found by the run. -/
noncomputable def run0_B (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S128x16 .bf16) (harg6 : arg6.IsWhole) (arg7 : Memref sig .tc .vmem S400x10000 .bf16) (harg7 : arg7.IsWhole) (arg8 : Memref sig .tc .vmem S400x128 .bf16) (harg8 : arg8.IsWhole) (arg9 : Memref sig .tc .vmem S400x16 .f32) (harg9 : arg9.IsWhole) (arg10 : Memref sig .tc .vmem S10000x128 .bf16) (harg10 : arg10.IsWhole) (hc0 : ¬cond0_0 i) (hc1 : cond0_1 i)
    (x1 : Vec F S400x10000 .f32) (x3 : Vec F S1x128 .f32) (x4 : Vec F S128x128 .bf16) (x5 : Vec F S128x16 .bf16) (xs : Vec F S10000x128 .bf16) :
    Σ' (L6 : List (View.Piece (Elt F) S400x10000 .bf16)) (L7 : List (View.Piece (Elt F) S400x128 .bf16)), { L8 : List (View.Piece (Elt F) S400x16 .f32) //
      ∀ (E : Set ℕ) (K : PUnit → sProp 𝕄),
        iprop(owns (c : Thread nD τ) arg2 fullShare x1 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ (∃ d, owns (c : Thread nD τ) arg9 fullShare d)
            ∗ owns (c : Thread nD τ) arg10 fullShare xs
            ∗ (iprop(owns (c : Thread nD τ) arg2 fullShare x1 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f L8)
                ∗ owns (c : Thread nD τ) arg10 fullShare xs) -∗ K ⟨⟩))
          ⊢ wp frame (wpE (defs₀ (F := F)) Variants.none c none) E (cc0__call_a_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__call_a_kernel_eq_skeleton]; unfold cc0__call_a_kernel_skel
    unfold owns
    iintro ⟨⟨%f1, %hf1, H1⟩, ⟨%f3, %hf3, H3⟩, ⟨%f4, %hf4, H4⟩, ⟨%f5, %hf5, H5⟩, ⟨%d6, %f6, %hf6, H6⟩, ⟨%d7, %f7, %hf7, H7⟩, ⟨%d8, %f8, %hf8, H8⟩, ⟨%fs, %hfs, HS⟩, Hk⟩
    obtain rfl := harg2.eq_unread hf1; obtain rfl := harg4.eq_unread hf3; obtain rfl := harg5.eq_unread hf4; obtain rfl := harg6.eq_unread hf5
    obtain rfl := harg7.eq_unread hf6; obtain rfl := harg8.eq_unread hf7; obtain rfl := harg9.eq_unread hf8; obtain rfl := harg10.eq_unread hfs
    sl_exec (disch := first | exact hc0 | exact hc1)
    sl_step
    iapply Hk
    isplitl [H1]
    · iexists _; isplitr; · ipureintro; exact harg2.read_unread _
      iexact H1
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    iexists _; isplitr; · ipureintro; exact harg10.read_unread _
    iexact HS

end Cert.Kernel.Hnd

end
-- ==== Proof.FKernel.R0Vals.lean ====
import proofs.«166769_g37641093382870_cont_sun_c4_266_19_alg».proof.Proof.FKernel.R0RunB
import Idealize.ShloMosaic.Lib.Pipeline.Value

set_option maxRecDepth 16384

noncomputable section

namespace Cert.Kernel.Hnd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

/-! ## Region 0: what the found pieces read back as

Every store of the body goes through the whole-shape rectangle at zero offsets, and every load too: the piece a run
finds is the payload of the loaded contents, and reading the buffer back after the store gives that payload. -/

theorem hz2 : (![0, 0] : Fin 2 → ℕ) = fun _ => 0 := by funext a; fin_cases a <;> rfl

/-- Reading a buffer back after ONE store through the whole-shape rectangle at zero offsets gives the stored payload
    (stated over an abstract shape: nothing here looks at an extent). -/
theorem read_writes_unit_zero {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → (Elt F) e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩),
    View.canon_unit_zero h]

/-- After the first point the scratch reads as the product of the features and the first weight matrix. -/
theorem run0_A_read (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S128x16 .bf16) (harg6 : arg6.IsWhole) (arg7 : Memref sig .tc .vmem S400x10000 .bf16) (harg7 : arg7.IsWhole) (arg8 : Memref sig .tc .vmem S400x128 .bf16) (harg8 : arg8.IsWhole) (arg9 : Memref sig .tc .vmem S400x16 .f32) (harg9 : arg9.IsWhole) (arg10 : Memref sig .tc .vmem S10000x128 .bf16) (harg10 : arg10.IsWhole) (hc0 : cond0_0 i) (hc1 : ¬cond0_1 i)
    (x0 : Vec F S10000x128 .f32) (x2 : Vec F S128x128 .bf16) (f : arg10.view.ty.Contents (Elt F)) :
    arg10.view.read (Elt F) (arg10.view.writes (Elt F) f (run0_A c i arg1 harg1 arg2 harg2 arg3 harg3 arg4 harg4 arg5 harg5 arg6 harg6 arg7 harg7 arg8 harg8 arg9 harg9 arg10 harg10 hc0 hc1 x0 x2).1) = k0_pay1 x0 x2 := by
  unfold run0_A; dsimp only
  rw [read_writes_unit_zero (S := S10000x128) _ _ hz2]
  simp only [View.readAt_eq_ld, Memref.IsWhole.read_unread, View.ld_unit_zero (S := S10000x128) hz2, View.ld_unit_zero (S := S128x128) hz2]

/-- After a later point the first output window reads as the converted adjacency block, -/
theorem run0_B_read6 (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S128x16 .bf16) (harg6 : arg6.IsWhole) (arg7 : Memref sig .tc .vmem S400x10000 .bf16) (harg7 : arg7.IsWhole) (arg8 : Memref sig .tc .vmem S400x128 .bf16) (harg8 : arg8.IsWhole) (arg9 : Memref sig .tc .vmem S400x16 .f32) (harg9 : arg9.IsWhole) (arg10 : Memref sig .tc .vmem S10000x128 .bf16) (harg10 : arg10.IsWhole) (hc0 : ¬cond0_0 i) (hc1 : cond0_1 i)
    (x1 : Vec F S400x10000 .f32) (x3 : Vec F S1x128 .f32) (x4 : Vec F S128x128 .bf16) (x5 : Vec F S128x16 .bf16) (xs : Vec F S10000x128 .bf16)
    (f : arg7.view.ty.Contents (Elt F)) :
    arg7.view.read (Elt F) (arg7.view.writes (Elt F) f (run0_B c i arg1 harg1 arg2 harg2 arg3 harg3 arg4 harg4 arg5 harg5 arg6 harg6 arg7 harg7 arg8 harg8 arg9 harg9 arg10 harg10 hc0 hc1 x1 x3 x4 x5 xs).1) = k0_pay2 x1 := by
  unfold run0_B; dsimp only
  rw [read_writes_unit_zero (S := S400x10000) _ _ hz2]
  simp only [View.readAt_eq_ld, Memref.IsWhole.read_unread, View.ld_unit_zero (S := S400x10000) hz2]

/-- the second as the next layer's support rows, -/
theorem run0_B_read7 (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S128x16 .bf16) (harg6 : arg6.IsWhole) (arg7 : Memref sig .tc .vmem S400x10000 .bf16) (harg7 : arg7.IsWhole) (arg8 : Memref sig .tc .vmem S400x128 .bf16) (harg8 : arg8.IsWhole) (arg9 : Memref sig .tc .vmem S400x16 .f32) (harg9 : arg9.IsWhole) (arg10 : Memref sig .tc .vmem S10000x128 .bf16) (harg10 : arg10.IsWhole) (hc0 : ¬cond0_0 i) (hc1 : cond0_1 i)
    (x1 : Vec F S400x10000 .f32) (x3 : Vec F S1x128 .f32) (x4 : Vec F S128x128 .bf16) (x5 : Vec F S128x16 .bf16) (xs : Vec F S10000x128 .bf16)
    (f : arg8.view.ty.Contents (Elt F)) :
    arg8.view.read (Elt F) (arg8.view.writes (Elt F) f (run0_B c i arg1 harg1 arg2 harg2 arg3 harg3 arg4 harg4 arg5 harg5 arg6 harg6 arg7 harg7 arg8 harg8 arg9 harg9 arg10 harg10 hc0 hc1 x1 x3 x4 x5 xs).2.1) = k0_pay4 x1 xs x3 x4 := by
  unfold run0_B; dsimp only
  rw [read_writes_unit_zero (S := S400x128) _ _ hz2]
  simp only [View.readAt_eq_ld, Memref.IsWhole.read_unread, View.ld_unit_zero (S := S400x10000) hz2, View.ld_unit_zero (S := S10000x128) hz2,
    View.ld_unit_zero (S := S1x128) hz2, View.ld_unit_zero (S := S128x128) hz2]

/-- the third as the head's first partial product. -/
theorem run0_B_read8 (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S128x16 .bf16) (harg6 : arg6.IsWhole) (arg7 : Memref sig .tc .vmem S400x10000 .bf16) (harg7 : arg7.IsWhole) (arg8 : Memref sig .tc .vmem S400x128 .bf16) (harg8 : arg8.IsWhole) (arg9 : Memref sig .tc .vmem S400x16 .f32) (harg9 : arg9.IsWhole) (arg10 : Memref sig .tc .vmem S10000x128 .bf16) (harg10 : arg10.IsWhole) (hc0 : ¬cond0_0 i) (hc1 : cond0_1 i)
    (x1 : Vec F S400x10000 .f32) (x3 : Vec F S1x128 .f32) (x4 : Vec F S128x128 .bf16) (x5 : Vec F S128x16 .bf16) (xs : Vec F S10000x128 .bf16)
    (f : arg9.view.ty.Contents (Elt F)) :
    arg9.view.read (Elt F) (arg9.view.writes (Elt F) f (run0_B c i arg1 harg1 arg2 harg2 arg3 harg3 arg4 harg4 arg5 harg5 arg6 harg6 arg7 harg7 arg8 harg8 arg9 harg9 arg10 harg10 hc0 hc1 x1 x3 x4 x5 xs).2.2.1) = k0_pay5 x1 xs x3 x5 := by
  unfold run0_B; dsimp only
  rw [read_writes_unit_zero (S := S400x16) _ _ hz2]
  simp only [View.readAt_eq_ld, Memref.IsWhole.read_unread, View.ld_unit_zero (S := S400x10000) hz2, View.ld_unit_zero (S := S10000x128) hz2,
    View.ld_unit_zero (S := S1x128) hz2, View.ld_unit_zero (S := S128x16) hz2]

end Cert.Kernel.Hnd

end
-- ==== Proof.FKernel.R0Frame.lean ====
import proofs.«166769_g37641093382870_cont_sun_c4_266_19_alg».proof.Proof.FKernel.R0Vals

set_option maxRecDepth 16384

noncomputable section

namespace Cert.Kernel.Hnd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

/-! # Region 0 (the first pallas_call), at the contents `V` its arrays hold when it is entered

The proof data name what every staging buffer holds after the body at every point: an input window its block; an
output window, at every point but the first, the payload of the point's input blocks and of the scratch; the scratch,
from the first point on, the product of the features and the first weight matrix. At the first point the three output
windows are idle and are not written back. -/

section R0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The staging memrefs and the scratch -/

abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S400x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x16 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S400x10000 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S400x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S400x16 .f32 := win0_8.stage (cfg0.slots t 8)
abbrev hs0_8 (t : Fin cfg0.N) : (ms0_8 t).IsWhole := hstage0_8 ((cfg0.slots t 8).cast nbuf0_8)
abbrev scM0 : Memref sig .tc .vmem S10000x128 .bf16 := Memref.whole cc0_scratch0

/-- The grid's first point. -/
abbrev t0_0 : Fin cfg0.N := ⟨0, by rw [show cfg0.N = 26 from N_0]; omega⟩

/-! ## Where the output windows are idle -/

theorem idleAt0_6 : ∀ t : Fin cfg0.N, t.val = 0 → cfg0.idle 6 (grid0.coords t) = true := by decide +kernel
theorem idleAt0_7 : ∀ t : Fin cfg0.N, t.val = 0 → cfg0.idle 7 (grid0.coords t) = true := by decide +kernel
theorem idleAt0_8 : ∀ t : Fin cfg0.N, t.val = 0 → cfg0.idle 8 (grid0.coords t) = true := by decide +kernel
theorem noFlush0_6 : ∀ t : Fin cfg0.N, t.val = 0 → (cfg0.win 6).flush t = false := by decide +kernel
theorem noFlush0_7 : ∀ t : Fin cfg0.N, t.val = 0 → (cfg0.win 7).flush t = false := by decide +kernel
theorem noFlush0_8 : ∀ t : Fin cfg0.N, t.val = 0 → (cfg0.win 8).flush t = false := by decide +kernel
theorem liveAt0_6 : ∀ t : Fin cfg0.N, t.val ≠ 0 → cfg0.idle 6 (grid0.coords t) = false := by decide +kernel
theorem liveAt0_7 : ∀ t : Fin cfg0.N, t.val ≠ 0 → cfg0.idle 7 (grid0.coords t) = false := by decide +kernel
theorem liveAt0_8 : ∀ t : Fin cfg0.N, t.val ≠ 0 → cfg0.idle 8 (grid0.coords t) = false := by decide +kernel

/-! ## What the scratch and the output windows hold -/

/-- The support matrix of the first layer: features times the first weight matrix, as the first point leaves it
    in the scratch. -/
def S0 (c : Dev nD) : Vec F S10000x128 .bf16 := k0_pay1 (iblk0 V c 0 t0_0) (iblk0 V c 2 t0_0)

/-- The converted adjacency block, -/
def out0_6 (c : Dev nD) (t : Fin cfg0.N) : Vec F S400x10000 .bf16 := k0_pay2 (iblk0 V c 1 t)
/-- the next layer's support rows, -/
def out0_7 (c : Dev nD) (t : Fin cfg0.N) : Vec F S400x128 .bf16 := k0_pay4 (iblk0 V c 1 t) (S0 V c) (iblk0 V c 3 t) (iblk0 V c 4 t)
/-- and the head's first partial product, of a later point's blocks. -/
def out0_8 (c : Dev nD) (t : Fin cfg0.N) : Vec F S400x16 .f32 := k0_pay5 (iblk0 V c 1 t) (S0 V c) (iblk0 V c 3 t) (iblk0 V c 5 t)

/-- The scoped rest split at the call's own scratch. -/
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

/-- What rides beside the scratch in the invariant: every other scoped buffer that is no staging buffer of this call. -/
abbrev rest0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA; rw [scopedRest0_split]; simp only [scM0, owns_whole]; try rfl

/-- The invariant between points: before the first the class's; afterwards the scratch at the support matrix. -/
def Phi0 (c : Dev nD) : ℕ → sProp 𝕄
  | 0 => Pipeline.ΦA spec0 c
  | _ + 1 => iprop(iprop(owns (c : Thread nD τ) scM0 fullShare (S0 V c) ∗ rest0 c) ∗ (∃ r, prngReg c r))

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 V c t
    | ⟨7, _⟩ => out0_7 V c t
    | ⟨8, _⟩ => out0_8 V c t
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 V c t := by dsimp only [dat0]
theorem after0_7 (c : Dev nD) (t : Fin cfg0.N) : (dat0 V c).after 7 t = out0_7 V c t := by dsimp only [dat0]
theorem after0_8 (c : Dev nD) (t : Fin cfg0.N) : (dat0 V c).after 8 t = out0_8 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

theorem liveIn0 : ∀ (w : Fin cfg0.W) (t : Fin cfg0.N), w.val < 6 → cfg0.idle w (grid0.coords t) = false := by decide +kernel

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = Phi0 V c (t.val + 1) from rfl, show (dat0 V c).Φ t.castSucc = Phi0 V c t.val from rfl]
  rw [show (dat0 V c).leavesExact 0 t = owns (c : Thread nD τ) (ms0_0 t) fullShare ((dat0 V c).after 0 t) from by
    unfold Dat.leavesExact; rw [liveIn0 0 t (by decide)], after0_0]
  rw [show (dat0 V c).leavesExact 1 t = owns (c : Thread nD τ) (ms0_1 t) fullShare ((dat0 V c).after 1 t) from by
    unfold Dat.leavesExact; rw [liveIn0 1 t (by decide)], after0_1]
  rw [show (dat0 V c).leavesExact 2 t = owns (c : Thread nD τ) (ms0_2 t) fullShare ((dat0 V c).after 2 t) from by
    unfold Dat.leavesExact; rw [liveIn0 2 t (by decide)], after0_2]
  rw [show (dat0 V c).leavesExact 3 t = owns (c : Thread nD τ) (ms0_3 t) fullShare ((dat0 V c).after 3 t) from by
    unfold Dat.leavesExact; rw [liveIn0 3 t (by decide)], after0_3]
  rw [show (dat0 V c).leavesExact 4 t = owns (c : Thread nD τ) (ms0_4 t) fullShare ((dat0 V c).after 4 t) from by
    unfold Dat.leavesExact; rw [liveIn0 4 t (by decide)], after0_4]
  rw [show (dat0 V c).leavesExact 5 t = owns (c : Thread nD τ) (ms0_5 t) fullShare ((dat0 V c).after 5 t) from by
    unfold Dat.leavesExact; rw [liveIn0 5 t (by decide)], after0_5]
  by_cases hz : t.val = 0
  · have hc0 : cond0_0 (grid0.coords t) := (hcond0_0 t).mpr hz
    have hc1 : ¬cond0_1 (grid0.coords t) := fun h => (hcond0_1 t).mp h hz
    have ht : t = t0_0 := Fin.ext hz
    rw [Dat.leavesExact_idle (dat0 V c) 6 t (idleAt0_6 t hz) (noFlush0_6 t hz),
      Dat.leavesExact_idle (dat0 V c) 7 t (idleAt0_7 t hz) (noFlush0_7 t hz),
      Dat.leavesExact_idle (dat0 V c) 8 t (idleAt0_8 t hz) (noFlush0_8 t hz)]
    rw [show Phi0 V c t.val = Pipeline.ΦA spec0 c from by rw [hz]; rfl, PhiA0_eq]
    rw [show Phi0 V c (t.val + 1) = iprop(iprop(owns (c : Thread nD τ) scM0 fullShare (S0 V c) ∗ rest0 c) ∗ (∃ r, prngReg c r)) from rfl]
    iintro ⟨⟨⟨HS, Hrest⟩, Hg⟩, Ho, ⟨%d0, H0⟩, ⟨%d1, H1⟩, ⟨%d2, H2⟩, ⟨%d3, H3⟩, ⟨%d4, H4⟩, ⟨%d5, H5⟩, H6, H7, H8⟩
    iapply ((run0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _) hc0 hc1 (iblk0 V c 0 t) (iblk0 V c 2 t)).2 Set.univ _)
    isplitl [H0]; · iexact H0
    isplitl [H2]; · iexact H2
    isplitl [HS]; · iexact HS
    iintro ⟨H0, H2, ⟨%fs, HS⟩⟩
    isplitl [HS Hrest Hg]
    · isplitl [HS Hrest]
      · isplitl [HS]
        · unfold owns; iexists _; isplitr
          swap; · iexact HS
          ipureintro
          rw [run0_A_read, ht]; rfl
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hc0 : ¬cond0_0 (grid0.coords t) := fun h => hz ((hcond0_0 t).mp h)
    have hc1 : cond0_1 (grid0.coords t) := (hcond0_1 t).mpr hz
    rw [show (dat0 V c).leavesExact 6 t = owns (c : Thread nD τ) (ms0_6 t) fullShare ((dat0 V c).after 6 t) from by
      unfold Dat.leavesExact; rw [liveAt0_6 t hz], after0_6]
    rw [show (dat0 V c).leavesExact 7 t = owns (c : Thread nD τ) (ms0_7 t) fullShare ((dat0 V c).after 7 t) from by
      unfold Dat.leavesExact; rw [liveAt0_7 t hz], after0_7]
    rw [show (dat0 V c).leavesExact 8 t = owns (c : Thread nD τ) (ms0_8 t) fullShare ((dat0 V c).after 8 t) from by
      unfold Dat.leavesExact; rw [liveAt0_8 t hz], after0_8]
    obtain ⟨n, hn⟩ : ∃ n, t.val = n + 1 := Nat.exists_eq_succ_of_ne_zero hz
    rw [show Phi0 V c t.val = iprop(iprop(owns (c : Thread nD τ) scM0 fullShare (S0 V c) ∗ rest0 c) ∗ (∃ r, prngReg c r)) from by rw [hn]; rfl]
    rw [show Phi0 V c (t.val + 1) = iprop(iprop(owns (c : Thread nD τ) scM0 fullShare (S0 V c) ∗ rest0 c) ∗ (∃ r, prngReg c r)) from rfl]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((run0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _) hc0 hc1 (iblk0 V c 1 t) (iblk0 V c 3 t) (iblk0 V c 4 t) (iblk0 V c 5 t) (S0 V c)).2.2.2 Set.univ _)
    isplitl [H1]; · iexact H1
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS]; · iexact HS
    iintro ⟨H1, H3, H4, H5, ⟨%f6, H6⟩, ⟨%f7, H7⟩, ⟨%f8, H8⟩, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; rw [run0_B_read6]; rfl
    isplitl [H7]
    · unfold owns; iexists _; isplitr
      swap; · iexact H7
      ipureintro; rw [run0_B_read7]; rfl
    unfold owns; iexists _; isplitr
    swap; · iexact H8
    ipureintro; rw [run0_B_read8]; rfl

/-- The library's body obligation, at every point. -/
theorem body_obligation0 (c : Dev nD) : BodyObligation (dat0 (F := F) V c) (defs₀ (F := F)) Variants.none () Set.univ := fun t => by
  rw [bigSep_W0, bigSep_W0]
  exact sound_body0 V c t

end R0

end Cert.Kernel.Hnd

end
-- ==== Proof.FKernel.R1RunA.lean ====
import proofs.«166769_g37641093382870_cont_sun_c4_266_19_alg».proof.Proof.Gen.Kernel.Launch
import proofs.«166769_g37641093382870_cont_sun_c4_266_19_alg».proof.Proof.Gen.Kernel.Skeleton
import proofs.«166769_g37641093382870_cont_sun_c4_266_19_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hnd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

/-! ## Region 1: the branch conditions of the body, decided over the grid -/

/-- The first branch (layer two, kept in scratch) is taken in the first pass over the row blocks. -/
abbrev cond1_0 (i : grid1.Coords) : Prop := k1_cond1 i = 1#1
theorem hcond1_0 : ∀ t : Fin cfg1.N, cond1_0 (grid1.coords t) ↔ t.val < 10 :=
  (by decide +kernel : ∀ t : Fin grid1.N, cond1_0 (grid1.coords t) ↔ t.val < 10)

/-- The second branch (layer three and the finale) is taken in the second pass. -/
abbrev cond1_1 (i : grid1.Coords) : Prop := k1_cond2 i = 1#1
theorem hcond1_1 : ∀ t : Fin cfg1.N, cond1_1 (grid1.coords t) ↔ 10 ≤ t.val :=
  (by decide +kernel : ∀ t : Fin grid1.N, cond1_1 (grid1.coords t) ↔ 10 ≤ t.val)

set_option maxHeartbeats 2000000 in
/-- The body in the first pass: it loads a row block of the converted adjacency, the support matrix, the bias and the
    weights, and stores one row slab into each of the two scratch buffers; the pieces are found by the run. -/
noncomputable def run1_A (c : Dev nD) (i : grid1.Coords) (arg2 : Memref sig .tc .vmem S1000x10000 .bf16) (harg2 : arg2.IsWhole) (arg3 : Memref sig .tc .vmem S10000x128 .bf16) (harg3 : arg3.IsWhole) (arg4 : Memref sig .tc .vmem S1000x16 .f32) (harg4 : arg4.IsWhole) (arg5 : Memref sig .tc .vmem S1x1x128 .f32) (harg5 : arg5.IsWhole) (arg6 : Memref sig .tc .vmem S128x128 .bf16) (harg6 : arg6.IsWhole) (arg7 : Memref sig .tc .vmem S1x128x16 .bf16) (harg7 : arg7.IsWhole) (arg8 : Memref sig .tc .vmem S1x16 .f32) (harg8 : arg8.IsWhole) (arg9 : Memref sig .tc .vmem S1x1000x16 .f32) (harg9 : arg9.IsWhole) (arg10 : Memref sig .tc .vmem S10000x128 .bf16) (harg10 : arg10.IsWhole) (arg11 : Memref sig .tc .vmem S10000x16 .f32) (harg11 : arg11.IsWhole) (hc0 : cond1_0 i) (hc1 : ¬cond1_1 i)
    (x0 : Vec F S1000x10000 .bf16) (x1 : Vec F S10000x128 .bf16) (x3 : Vec F S1x1x128 .f32) (x4 : Vec F S128x128 .bf16) (x5 : Vec F S1x128x16 .bf16)
    (xs10 : Vec F S10000x128 .bf16) (xs11 : Vec F S10000x16 .f32) :
    Σ' (L10 : List (View.Piece (Elt F) S10000x128 .bf16)), { L11 : List (View.Piece (Elt F) S10000x16 .f32) //
      ∀ (E : Set ℕ) (K : PUnit → sProp 𝕄),
        iprop(owns (c : Thread nD τ) arg2 fullShare x0 ∗ owns (c : Thread nD τ) arg3 fullShare x1 ∗ owns (c : Thread nD τ) arg5 fullShare x3 ∗ owns (c : Thread nD τ) arg6 fullShare x4 ∗ owns (c : Thread nD τ) arg7 fullShare x5
            ∗ owns (c : Thread nD τ) arg10 fullShare xs10 ∗ owns (c : Thread nD τ) arg11 fullShare xs11
            ∗ (iprop(owns (c : Thread nD τ) arg2 fullShare x0 ∗ owns (c : Thread nD τ) arg3 fullShare x1 ∗ owns (c : Thread nD τ) arg5 fullShare x3 ∗ owns (c : Thread nD τ) arg6 fullShare x4 ∗ owns (c : Thread nD τ) arg7 fullShare x5
                ∗ (arg10.view.loc (c : Thread nD τ) ↦[arg10.view.set]{fullShare} arg10.view.writes (Elt F) (harg10.unread xs10) L10)
                ∗ (arg11.view.loc (c : Thread nD τ) ↦[arg11.view.set]{fullShare} arg11.view.writes (Elt F) (harg11.unread xs11) L11)) -∗ K ⟨⟩))
          ⊢ wp frame (wpE (defs₀ (F := F)) Variants.none c none) E (cc1__call_b_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc1__call_b_kernel_eq_skeleton]; unfold cc1__call_b_kernel_skel
    unfold owns
    iintro ⟨⟨%f0, %hf0, H0⟩, ⟨%f1, %hf1, H1⟩, ⟨%f3, %hf3, H3⟩, ⟨%f4, %hf4, H4⟩, ⟨%f5, %hf5, H5⟩, ⟨%fs10, %hfs10, HS10⟩, ⟨%fs11, %hfs11, HS11⟩, Hk⟩
    obtain rfl := harg2.eq_unread hf0; obtain rfl := harg3.eq_unread hf1; obtain rfl := harg5.eq_unread hf3; obtain rfl := harg6.eq_unread hf4
    obtain rfl := harg7.eq_unread hf5; obtain rfl := harg10.eq_unread hfs10; obtain rfl := harg11.eq_unread hfs11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS10]; · iexact HS10
    iexact HS11

end Cert.Kernel.Hnd

end
-- ==== Proof.FKernel.R1RunB.lean ====
import proofs.«166769_g37641093382870_cont_sun_c4_266_19_alg».proof.Proof.FKernel.R1RunA

set_option maxRecDepth 16384

noncomputable section

namespace Cert.Kernel.Hnd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The body in the second pass: it loads a row block of the converted adjacency, both scratch buffers (one whole, one
    row slab), the head's earlier partial product, the bias and the weights, and stores the block's log-softmax into the
    output window; the pieces are found by the run. -/
noncomputable def run1_B (c : Dev nD) (i : grid1.Coords) (arg2 : Memref sig .tc .vmem S1000x10000 .bf16) (harg2 : arg2.IsWhole) (arg3 : Memref sig .tc .vmem S10000x128 .bf16) (harg3 : arg3.IsWhole) (arg4 : Memref sig .tc .vmem S1000x16 .f32) (harg4 : arg4.IsWhole) (arg5 : Memref sig .tc .vmem S1x1x128 .f32) (harg5 : arg5.IsWhole) (arg6 : Memref sig .tc .vmem S128x128 .bf16) (harg6 : arg6.IsWhole) (arg7 : Memref sig .tc .vmem S1x128x16 .bf16) (harg7 : arg7.IsWhole) (arg8 : Memref sig .tc .vmem S1x16 .f32) (harg8 : arg8.IsWhole) (arg9 : Memref sig .tc .vmem S1x1000x16 .f32) (harg9 : arg9.IsWhole) (arg10 : Memref sig .tc .vmem S10000x128 .bf16) (harg10 : arg10.IsWhole) (arg11 : Memref sig .tc .vmem S10000x16 .f32) (harg11 : arg11.IsWhole) (hc0 : ¬cond1_0 i) (hc1 : cond1_1 i)
    (x0 : Vec F S1000x10000 .bf16) (x2 : Vec F S1000x16 .f32) (x3 : Vec F S1x1x128 .f32) (x5 : Vec F S1x128x16 .bf16) (x6 : Vec F S1x16 .f32)
    (xs10 : Vec F S10000x128 .bf16) (xs11 : Vec F S10000x16 .f32) :
    { L9 : List (View.Piece (Elt F) S1x1000x16 .f32) //
      ∀ (E : Set ℕ) (K : PUnit → sProp 𝕄),
        iprop(owns (c : Thread nD τ) arg2 fullShare x0 ∗ owns (c : Thread nD τ) arg4 fullShare x2 ∗ owns (c : Thread nD τ) arg5 fullShare x3 ∗ owns (c : Thread nD τ) arg7 fullShare x5 ∗ owns (c : Thread nD τ) arg8 fullShare x6
            ∗ (∃ d, owns (c : Thread nD τ) arg9 fullShare d)
            ∗ owns (c : Thread nD τ) arg10 fullShare xs10 ∗ owns (c : Thread nD τ) arg11 fullShare xs11
            ∗ (iprop(owns (c : Thread nD τ) arg2 fullShare x0 ∗ owns (c : Thread nD τ) arg4 fullShare x2 ∗ owns (c : Thread nD τ) arg5 fullShare x3 ∗ owns (c : Thread nD τ) arg7 fullShare x5 ∗ owns (c : Thread nD τ) arg8 fullShare x6
                ∗ (∃ f, arg9.view.loc (c : Thread nD τ) ↦[arg9.view.set]{fullShare} arg9.view.writes (Elt F) f L9)
                ∗ owns (c : Thread nD τ) arg10 fullShare xs10 ∗ owns (c : Thread nD τ) arg11 fullShare xs11) -∗ K ⟨⟩))
          ⊢ wp frame (wpE (defs₀ (F := F)) Variants.none c none) E (cc1__call_b_kernel i arg2 harg2 arg3 harg3 arg4 harg4 arg5 harg5 arg6 harg6 arg7 harg7 arg8 harg8 arg9 harg9 arg10 harg10 arg11 harg11) K } := by
  refine ⟨?_, fun E K => ?run⟩
  case run =>
    simp only [cc1__call_b_kernel_eq_skeleton]; unfold cc1__call_b_kernel_skel
    simp only [k1_part1_eq_skeleton]
    unfold owns
    iintro ⟨⟨%f0, %hf0, H0⟩, ⟨%f2, %hf2, H2⟩, ⟨%f3, %hf3, H3⟩, ⟨%f5, %hf5, H5⟩, ⟨%f6, %hf6, H6⟩, ⟨%d9, %f9, %hf9, H9⟩, ⟨%fs10, %hfs10, HS10⟩, ⟨%fs11, %hfs11, HS11⟩, Hk⟩
    obtain rfl := harg2.eq_unread hf0; obtain rfl := harg4.eq_unread hf2; obtain rfl := harg5.eq_unread hf3
    obtain rfl := harg7.eq_unread hf5; obtain rfl := harg8.eq_unread hf6; obtain rfl := harg9.eq_unread hf9
    obtain rfl := harg10.eq_unread hfs10; obtain rfl := harg11.eq_unread hfs11
    sl_exec (disch := first | exact hc0 | exact hc1)
    sl_step
    iapply Hk
    isplitl [H0]
    · iexists _; isplitr; · ipureintro; exact harg2.read_unread _
      iexact H0
    isplitl [H2]
    · iexists _; isplitr; · ipureintro; exact harg4.read_unread _
      iexact H2
    isplitl [H3]
    · iexists _; isplitr; · ipureintro; exact harg5.read_unread _
      iexact H3
    isplitl [H5]
    · iexists _; isplitr; · ipureintro; exact harg7.read_unread _
      iexact H5
    isplitl [H6]
    · iexists _; isplitr; · ipureintro; exact harg8.read_unread _
      iexact H6
    isplitl [H9]; · iexists _; iexact H9
    isplitl [HS10]
    · iexists _; isplitr; · ipureintro; exact harg10.read_unread _
      iexact HS10
    iexists _; isplitr; · ipureintro; exact harg11.read_unread _
    iexact HS11

end Cert.Kernel.Hnd

end
-- ==== Proof.FKernel.R1Vals.lean ====
import proofs.«166769_g37641093382870_cont_sun_c4_266_19_alg».proof.Proof.FKernel.R1RunB
import proofs.«166769_g37641093382870_cont_sun_c4_266_19_alg».proof.Proof.FKernel.R0Vals

set_option maxRecDepth 16384

noncomputable section

namespace Cert.Kernel.Hnd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

/-! ## Region 1: the pieces the runs found, with the loaded contents read back -/

theorem hz3 : (![0, 0, 0] : Fin 3 → ℕ) = fun _ => 0 := by funext a; fin_cases a <;> rfl

/-- In the first pass the body stores, into the first scratch, ONE row slab at the block's offset: the next layer's
    support rows of this block. -/
theorem run1_A_L10 (c : Dev nD) (i : grid1.Coords) (arg2 : Memref sig .tc .vmem S1000x10000 .bf16) (harg2 : arg2.IsWhole) (arg3 : Memref sig .tc .vmem S10000x128 .bf16) (harg3 : arg3.IsWhole) (arg4 : Memref sig .tc .vmem S1000x16 .f32) (harg4 : arg4.IsWhole) (arg5 : Memref sig .tc .vmem S1x1x128 .f32) (harg5 : arg5.IsWhole) (arg6 : Memref sig .tc .vmem S128x128 .bf16) (harg6 : arg6.IsWhole) (arg7 : Memref sig .tc .vmem S1x128x16 .bf16) (harg7 : arg7.IsWhole) (arg8 : Memref sig .tc .vmem S1x16 .f32) (harg8 : arg8.IsWhole) (arg9 : Memref sig .tc .vmem S1x1000x16 .f32) (harg9 : arg9.IsWhole) (arg10 : Memref sig .tc .vmem S10000x128 .bf16) (harg10 : arg10.IsWhole) (arg11 : Memref sig .tc .vmem S10000x16 .f32) (harg11 : arg11.IsWhole) (hc0 : cond1_0 i) (hc1 : ¬cond1_1 i)
    (x0 : Vec F S1000x10000 .bf16) (x1 : Vec F S10000x128 .bf16) (x3 : Vec F S1x1x128 .f32) (x4 : Vec F S128x128 .bf16) (x5 : Vec F S1x128x16 .bf16)
    (xs10 : Vec F S10000x128 .bf16) (xs11 : Vec F S10000x16 .f32) :
    (run1_A c i arg2 harg2 arg3 harg3 arg4 harg4 arg5 harg5 arg6 harg6 arg7 harg7 arg8 harg8 arg9 harg9 arg10 harg10 arg11 harg11 hc0 hc1 x0 x1 x3 x4 x5 xs10 xs11).1 = [(⟨Rect.unit (s := S10000x128) (k1_off1 i) S1000x128.size (k1_off1_inb i hc0), k1_pay2 x0 x1 x3 x4⟩ : View.Piece (Elt F) S10000x128 .bf16)] := by
  unfold run1_A; dsimp only
  simp only [View.readAt_eq_ld, Memref.IsWhole.read_unread, View.ld_unit_zero (S := S1000x10000) hz2, View.ld_unit_zero (S := S10000x128) hz2,
    View.ld_unit_zero (S := S1x1x128) hz3, View.ld_unit_zero (S := S128x128) hz2]

/-- and, into the second scratch, the head's partial product of this block's rows. -/
theorem run1_A_L11 (c : Dev nD) (i : grid1.Coords) (arg2 : Memref sig .tc .vmem S1000x10000 .bf16) (harg2 : arg2.IsWhole) (arg3 : Memref sig .tc .vmem S10000x128 .bf16) (harg3 : arg3.IsWhole) (arg4 : Memref sig .tc .vmem S1000x16 .f32) (harg4 : arg4.IsWhole) (arg5 : Memref sig .tc .vmem S1x1x128 .f32) (harg5 : arg5.IsWhole) (arg6 : Memref sig .tc .vmem S128x128 .bf16) (harg6 : arg6.IsWhole) (arg7 : Memref sig .tc .vmem S1x128x16 .bf16) (harg7 : arg7.IsWhole) (arg8 : Memref sig .tc .vmem S1x16 .f32) (harg8 : arg8.IsWhole) (arg9 : Memref sig .tc .vmem S1x1000x16 .f32) (harg9 : arg9.IsWhole) (arg10 : Memref sig .tc .vmem S10000x128 .bf16) (harg10 : arg10.IsWhole) (arg11 : Memref sig .tc .vmem S10000x16 .f32) (harg11 : arg11.IsWhole) (hc0 : cond1_0 i) (hc1 : ¬cond1_1 i)
    (x0 : Vec F S1000x10000 .bf16) (x1 : Vec F S10000x128 .bf16) (x3 : Vec F S1x1x128 .f32) (x4 : Vec F S128x128 .bf16) (x5 : Vec F S1x128x16 .bf16)
    (xs10 : Vec F S10000x128 .bf16) (xs11 : Vec F S10000x16 .f32) :
    (run1_A c i arg2 harg2 arg3 harg3 arg4 harg4 arg5 harg5 arg6 harg6 arg7 harg7 arg8 harg8 arg9 harg9 arg10 harg10 arg11 harg11 hc0 hc1 x0 x1 x3 x4 x5 xs10 xs11).2.1 = [(⟨Rect.unit (s := S10000x16) (k1_off2 i) S1000x16.size (k1_off2_inb i hc0), k1_pay3 x0 x1 x3 x5⟩ : View.Piece (Elt F) S10000x16 .f32)] := by
  unfold run1_A; dsimp only
  simp only [View.readAt_eq_ld, Memref.IsWhole.read_unread, View.ld_unit_zero (S := S1000x10000) hz2, View.ld_unit_zero (S := S10000x128) hz2,
    View.ld_unit_zero (S := S1x1x128) hz3, View.ld_unit_zero (S := S1x128x16) hz3]

/-- In the second pass the output window reads back as the block's log-softmax: the payload of the block's inputs, of
    the whole first scratch and of this block's slab of the second. -/
theorem run1_B_read9 (c : Dev nD) (i : grid1.Coords) (arg2 : Memref sig .tc .vmem S1000x10000 .bf16) (harg2 : arg2.IsWhole) (arg3 : Memref sig .tc .vmem S10000x128 .bf16) (harg3 : arg3.IsWhole) (arg4 : Memref sig .tc .vmem S1000x16 .f32) (harg4 : arg4.IsWhole) (arg5 : Memref sig .tc .vmem S1x1x128 .f32) (harg5 : arg5.IsWhole) (arg6 : Memref sig .tc .vmem S128x128 .bf16) (harg6 : arg6.IsWhole) (arg7 : Memref sig .tc .vmem S1x128x16 .bf16) (harg7 : arg7.IsWhole) (arg8 : Memref sig .tc .vmem S1x16 .f32) (harg8 : arg8.IsWhole) (arg9 : Memref sig .tc .vmem S1x1000x16 .f32) (harg9 : arg9.IsWhole) (arg10 : Memref sig .tc .vmem S10000x128 .bf16) (harg10 : arg10.IsWhole) (arg11 : Memref sig .tc .vmem S10000x16 .f32) (harg11 : arg11.IsWhole) (hc0 : ¬cond1_0 i) (hc1 : cond1_1 i)
    (x0 : Vec F S1000x10000 .bf16) (x2 : Vec F S1000x16 .f32) (x3 : Vec F S1x1x128 .f32) (x5 : Vec F S1x128x16 .bf16) (x6 : Vec F S1x16 .f32)
    (xs10 : Vec F S10000x128 .bf16) (xs11 : Vec F S10000x16 .f32) (f : arg9.view.ty.Contents (Elt F)) :
    arg9.view.read (Elt F) (arg9.view.writes (Elt F) f (run1_B c i arg2 harg2 arg3 harg3 arg4 harg4 arg5 harg5 arg6 harg6 arg7 harg7 arg8 harg8 arg9 harg9 arg10 harg10 arg11 harg11 hc0 hc1 x0 x2 x3 x5 x6 xs10 xs11).1)
      = k1_pay4 (k1_pay5 x0 xs10 x3 x5 x2 (View.ld xs11 (Rect.unit (s := S10000x16) (k1_off3 i) S1000x16.size (k1_off3_inb i hc1))) x6) := by
  unfold run1_B; dsimp only
  rw [read_writes_unit_zero (S := S1x1000x16) _ _ hz3]
  unfold run1_B.sl.r
  simp only [View.readAt_eq_ld, Memref.IsWhole.read_unread, View.ld_unit_zero (S := S1000x10000) hz2, View.ld_unit_zero (S := S10000x128) hz2,
    View.ld_unit_zero (S := S1x1x128) hz3, View.ld_unit_zero (S := S1x128x16) hz3, View.ld_unit_zero (S := S1000x16) hz2, View.ld_unit_zero (S := S1x16) hz2]

end Cert.Kernel.Hnd

end
-- ==== Proof.FKernel.R1Scratch.lean ====
import proofs.«166769_g37641093382870_cont_sun_c4_266_19_alg».proof.Proof.FKernel.R1Vals

set_option maxRecDepth 16384

noncomputable section

namespace Cert.Kernel.Hnd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

/-! # Region 1 (the second pallas_call): its blocks, and what its two scratch buffers hold

In the first pass over the ten row blocks the body stores, at block `j`, one slab of rows into each scratch: the third
layer's support rows and the head's second partial product. After the pass the ten slabs tile each scratch, whatever it
held before. -/

section R1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev ms1_0 (t : Fin cfg1.N) : Memref sig .tc .vmem S1000x10000 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10000x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1000x16 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128x16 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x16 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x1000x16 .f32 := win1_7.stage (cfg1.slots t 7)
abbrev hs1_7 (t : Fin cfg1.N) : (ms1_7 t).IsWhole := hstage1_7 ((cfg1.slots t 7).cast nbuf1_7)
abbrev scM1_0 : Memref sig .tc .vmem S10000x128 .bf16 := Memref.whole cc1_scratch0
abbrev scM1_1 : Memref sig .tc .vmem S10000x16 .f32 := Memref.whole cc1_scratch1
abbrev hsc1_0 : (scM1_0).IsWhole := Memref.isWhole_whole _
abbrev hsc1_1 : (scM1_1).IsWhole := Memref.isWhole_whole _

/-- Point `j` of the first pass. -/
abbrev tj (j : ℕ) (hj : j < 10) : Fin cfg1.N := ⟨j, by rw [show cfg1.N = 20 from N_1]; omega⟩

theorem tj_cond (j : ℕ) (hj : j < 10) : cond1_0 (grid1.coords (tj j hj)) := (hcond1_0 _).mpr hj

/-- The slab block `j` stores into the first scratch: the third layer's support rows of the block. -/
def piece10 (c : Dev nD) (j : ℕ) (hj : j < 10) : View.Piece (Elt F) S10000x128 .bf16 :=
  ⟨Rect.unit (s := S10000x128) (k1_off1 (grid1.coords (tj j hj))) S1000x128.size (k1_off1_inb _ (tj_cond j hj)),
    k1_pay2 (iblk1 V c 0 (tj j hj)) (iblk1 V c 1 (tj j hj)) (iblk1 V c 3 (tj j hj)) (iblk1 V c 4 (tj j hj))⟩

/-- The slab block `j` stores into the second scratch: the head's second partial product of the block's rows. -/
def piece11 (c : Dev nD) (j : ℕ) (hj : j < 10) : View.Piece (Elt F) S10000x16 .f32 :=
  ⟨Rect.unit (s := S10000x16) (k1_off2 (grid1.coords (tj j hj))) S1000x16.size (k1_off2_inb _ (tj_cond j hj)),
    k1_pay3 (iblk1 V c 0 (tj j hj)) (iblk1 V c 1 (tj j hj)) (iblk1 V c 3 (tj j hj)) (iblk1 V c 5 (tj j hj))⟩

/-- The slabs stored before point `k`, the last first. -/
def pieces10 (c : Dev nD) : ℕ → List (View.Piece (Elt F) S10000x128 .bf16)
  | 0 => []
  | k + 1 => if h : k < 10 then piece10 V c k h :: pieces10 c k else pieces10 c k
def pieces11 (c : Dev nD) : ℕ → List (View.Piece (Elt F) S10000x16 .f32)
  | 0 => []
  | k + 1 => if h : k < 10 then piece11 V c k h :: pieces11 c k else pieces11 c k

theorem pieces10_succ (c : Dev nD) (k : ℕ) (h : k < 10) : pieces10 V c (k + 1) = piece10 V c k h :: pieces10 V c k := by
  rw [pieces10, dif_pos h]
theorem pieces11_succ (c : Dev nD) (k : ℕ) (h : k < 10) : pieces11 V c (k + 1) = piece11 V c k h :: pieces11 V c k := by
  rw [pieces11, dif_pos h]
theorem pieces10_stable (c : Dev nD) (k : ℕ) (h : 10 ≤ k) : pieces10 V c (k + 1) = pieces10 V c k := by
  rw [pieces10, dif_neg (by omega)]
theorem pieces11_stable (c : Dev nD) (k : ℕ) (h : 10 ≤ k) : pieces11 V c (k + 1) = pieces11 V c k := by
  rw [pieces11, dif_neg (by omega)]

theorem pieces10_ten (c : Dev nD) : pieces10 V c 10 = [piece10 V c 9 (by omega), piece10 V c 8 (by omega), piece10 V c 7 (by omega), piece10 V c 6 (by omega), piece10 V c 5 (by omega), piece10 V c 4 (by omega), piece10 V c 3 (by omega), piece10 V c 2 (by omega), piece10 V c 1 (by omega), piece10 V c 0 (by omega)] :=
  ((pieces10_succ V c 9 (by omega)).trans (congrArg (List.cons _) ((pieces10_succ V c 8 (by omega)).trans (congrArg (List.cons _) ((pieces10_succ V c 7 (by omega)).trans (congrArg (List.cons _) ((pieces10_succ V c 6 (by omega)).trans (congrArg (List.cons _) ((pieces10_succ V c 5 (by omega)).trans (congrArg (List.cons _) ((pieces10_succ V c 4 (by omega)).trans (congrArg (List.cons _) ((pieces10_succ V c 3 (by omega)).trans (congrArg (List.cons _) ((pieces10_succ V c 2 (by omega)).trans (congrArg (List.cons _) ((pieces10_succ V c 1 (by omega)).trans (congrArg (List.cons _) ((pieces10_succ V c 0 (by omega)).trans (congrArg (List.cons _) (show pieces10 V c 0 = [] from rfl)))))))))))))))))))))
theorem pieces11_ten (c : Dev nD) : pieces11 V c 10 = [piece11 V c 9 (by omega), piece11 V c 8 (by omega), piece11 V c 7 (by omega), piece11 V c 6 (by omega), piece11 V c 5 (by omega), piece11 V c 4 (by omega), piece11 V c 3 (by omega), piece11 V c 2 (by omega), piece11 V c 1 (by omega), piece11 V c 0 (by omega)] :=
  ((pieces11_succ V c 9 (by omega)).trans (congrArg (List.cons _) ((pieces11_succ V c 8 (by omega)).trans (congrArg (List.cons _) ((pieces11_succ V c 7 (by omega)).trans (congrArg (List.cons _) ((pieces11_succ V c 6 (by omega)).trans (congrArg (List.cons _) ((pieces11_succ V c 5 (by omega)).trans (congrArg (List.cons _) ((pieces11_succ V c 4 (by omega)).trans (congrArg (List.cons _) ((pieces11_succ V c 3 (by omega)).trans (congrArg (List.cons _) ((pieces11_succ V c 2 (by omega)).trans (congrArg (List.cons _) ((pieces11_succ V c 1 (by omega)).trans (congrArg (List.cons _) ((pieces11_succ V c 0 (by omega)).trans (congrArg (List.cons _) (show pieces11 V c 0 = [] from rfl)))))))))))))))))))))

/-- After the first pass the ten slabs tile the first scratch, -/
theorem cover10 (c : Dev nD) (y : S10000x128.Idx) : ∃ p ∈ pieces10 V c 10, y ∈ p.1.set := by
  rw [pieces10_ten]
  exact View.cover_of_tiledL (s := S10000x128) _ S1000x128.size (by sl_kernel_rfl) y
/-- and the second. -/
theorem cover11 (c : Dev nD) (y : S10000x16.Idx) : ∃ p ∈ pieces11 V c 10, y ∈ p.1.set := by
  rw [pieces11_ten]
  exact View.cover_of_tiledL (s := S10000x16) _ S1000x16.size (by sl_kernel_rfl) y

/-- What the first scratch holds before point `k`, if it held `d` when the region was entered. -/
def acc10 (c : Dev nD) (d : Vec F S10000x128 .bf16) (k : ℕ) : Vec F S10000x128 .bf16 :=
  scM1_0.view.read (Elt F) (scM1_0.view.writes (Elt F) (hsc1_0.unread d) (pieces10 V c k))
/-- What the second scratch holds before point `k`, if it held `d` when the region was entered. -/
def acc11 (c : Dev nD) (d : Vec F S10000x16 .f32) (k : ℕ) : Vec F S10000x16 .f32 :=
  scM1_1.view.read (Elt F) (scM1_1.view.writes (Elt F) (hsc1_1.unread d) (pieces11 V c k))

theorem acc10_zero (c : Dev nD) (d : Vec F S10000x128 .bf16) : acc10 V c d 0 = d := by
  unfold acc10 pieces10; rw [View.writes_nil]; exact hsc1_0.read_unread d
theorem acc11_zero (c : Dev nD) (d : Vec F S10000x16 .f32) : acc11 V c d 0 = d := by
  unfold acc11 pieces11; rw [View.writes_nil]; exact hsc1_1.read_unread d

/-- One more slab stored over what the scratch held is the next contents. -/
theorem acc10_step (c : Dev nD) (d : Vec F S10000x128 .bf16) (k : ℕ) (h : k < 10) :
    scM1_0.view.read (Elt F) (scM1_0.view.writes (Elt F) (hsc1_0.unread (acc10 V c d k)) [piece10 V c k h]) = acc10 V c d (k + 1) := by
  unfold acc10; rw [Memref.IsWhole.unread_read, pieces10_succ V c k h]; rfl
theorem acc11_step (c : Dev nD) (d : Vec F S10000x16 .f32) (k : ℕ) (h : k < 10) :
    scM1_1.view.read (Elt F) (scM1_1.view.writes (Elt F) (hsc1_1.unread (acc11 V c d k)) [piece11 V c k h]) = acc11 V c d (k + 1) := by
  unfold acc11; rw [Memref.IsWhole.unread_read, pieces11_succ V c k h]; rfl

theorem acc10_stable (c : Dev nD) (d : Vec F S10000x128 .bf16) (k : ℕ) (h : 10 ≤ k) : acc10 V c d (k + 1) = acc10 V c d k := by
  unfold acc10; rw [pieces10_stable V c k h]
theorem acc11_stable (c : Dev nD) (d : Vec F S10000x16 .f32) (k : ℕ) (h : 10 ≤ k) : acc11 V c d (k + 1) = acc11 V c d k := by
  unfold acc11; rw [pieces11_stable V c k h]

theorem acc10_ge (c : Dev nD) (d : Vec F S10000x128 .bf16) : ∀ k, 10 ≤ k → acc10 V c d k = acc10 V c d 10 := by
  intro k hk
  induction k, hk using Nat.le_induction with
  | base => rfl
  | succ n hn ih => rw [acc10_stable V c d n hn, ih]
theorem acc11_ge (c : Dev nD) (d : Vec F S10000x16 .f32) : ∀ k, 10 ≤ k → acc11 V c d k = acc11 V c d 10 := by
  intro k hk
  induction k, hk using Nat.le_induction with
  | base => rfl
  | succ n hn ih => rw [acc11_stable V c d n hn, ih]

/-- The third layer's support matrix: what the first scratch holds after the first pass, -/
def S2 (c : Dev nD) : Vec F S10000x128 .bf16 := acc10 V c (fun _ => (Elt.inhabited F .bf16).default) 10
/-- and the head's second partial product: what the second scratch holds then. -/
def Z2 (c : Dev nD) : Vec F S10000x16 .f32 := acc11 V c (fun _ => (Elt.inhabited F .f32).default) 10

/-- After the first pass the scratch no longer depends on what it held at entry. -/
theorem acc10_ten (c : Dev nD) (d : Vec F S10000x128 .bf16) : acc10 V c d 10 = S2 V c := by
  unfold S2 acc10; exact View.read_writes_of_cover _ _ _ _ _ (cover10 V c)
theorem acc11_ten (c : Dev nD) (d : Vec F S10000x16 .f32) : acc11 V c d 10 = Z2 V c := by
  unfold Z2 acc11; exact View.read_writes_of_cover _ _ _ _ _ (cover11 V c)

end R1

end Cert.Kernel.Hnd

end
-- ==== Proof.FKernel.R1Frame.lean ====
import proofs.«166769_g37641093382870_cont_sun_c4_266_19_alg».proof.Proof.FKernel.R1Scratch

set_option maxRecDepth 16384

noncomputable section

namespace Cert.Kernel.Hnd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

/-! # Region 1: the proof data and the body obligation

The proof data constrain, rather than name, what the body leaves in a staging buffer: an input window's buffer is left
as found; the output window's buffer holds, after a point of the second pass, the block's log-softmax — and after a
point of the first pass, where the body stores nothing into it while the pipeline still writes it back, anything. -/

section R1

variable (V : (c : Dev nD) → (b : Ref sig .tc) → Buf (Elt F) ((c : Thread nD τ).loc b))

theorem finds1_0_of {c : Dev nD} (rd : RDat τ (Elt F) Unit ℕ (UR sig nD τ) ℕ cfg1 c) (hA : rd.A 0 = V c (Pipeline.arrRef spec1 0))
    (hkeep : ∀ t Y X, rd.after 0 t Y X → X = Y) (t : Fin cfg1.N) (Y) (h : rd.Finds 0 t Y) : Y = iblk1 V c 0 t := by
  obtain ⟨d, rfl⟩ := Pipeline.RDat.finds_in_eq_fetched rd 0 rfl (fun _ _ _ => rfl) hkeep t Y h
  unfold RDat.fetched RDat.blockOf iblk1; rw [hA]; try rfl
theorem finds1_1_of {c : Dev nD} (rd : RDat τ (Elt F) Unit ℕ (UR sig nD τ) ℕ cfg1 c) (hA : rd.A 1 = V c (Pipeline.arrRef spec1 1))
    (hkeep : ∀ t Y X, rd.after 1 t Y X → X = Y) (t : Fin cfg1.N) (Y) (h : rd.Finds 1 t Y) : Y = iblk1 V c 1 t := by
  obtain ⟨d, rfl⟩ := Pipeline.RDat.finds_in_eq_fetched rd 1 rfl (fun _ _ _ => rfl) hkeep t Y h
  unfold RDat.fetched RDat.blockOf iblk1; rw [hA]; try rfl
theorem finds1_2_of {c : Dev nD} (rd : RDat τ (Elt F) Unit ℕ (UR sig nD τ) ℕ cfg1 c) (hA : rd.A 2 = V c (Pipeline.arrRef spec1 2))
    (hkeep : ∀ t Y X, rd.after 2 t Y X → X = Y) (t : Fin cfg1.N) (Y) (h : rd.Finds 2 t Y) : Y = iblk1 V c 2 t := by
  obtain ⟨d, rfl⟩ := Pipeline.RDat.finds_in_eq_fetched rd 2 rfl (fun _ _ _ => rfl) hkeep t Y h
  unfold RDat.fetched RDat.blockOf iblk1; rw [hA]; try rfl
theorem finds1_3_of {c : Dev nD} (rd : RDat τ (Elt F) Unit ℕ (UR sig nD τ) ℕ cfg1 c) (hA : rd.A 3 = V c (Pipeline.arrRef spec1 3))
    (hkeep : ∀ t Y X, rd.after 3 t Y X → X = Y) (t : Fin cfg1.N) (Y) (h : rd.Finds 3 t Y) : Y = iblk1 V c 3 t := by
  obtain ⟨d, rfl⟩ := Pipeline.RDat.finds_in_eq_fetched rd 3 rfl (fun _ _ _ => rfl) hkeep t Y h
  unfold RDat.fetched RDat.blockOf iblk1; rw [hA]; try rfl
theorem finds1_4_of {c : Dev nD} (rd : RDat τ (Elt F) Unit ℕ (UR sig nD τ) ℕ cfg1 c) (hA : rd.A 4 = V c (Pipeline.arrRef spec1 4))
    (hkeep : ∀ t Y X, rd.after 4 t Y X → X = Y) (t : Fin cfg1.N) (Y) (h : rd.Finds 4 t Y) : Y = iblk1 V c 4 t := by
  obtain ⟨d, rfl⟩ := Pipeline.RDat.finds_in_eq_fetched rd 4 rfl (fun _ _ _ => rfl) hkeep t Y h
  unfold RDat.fetched RDat.blockOf iblk1; rw [hA]; try rfl
theorem finds1_5_of {c : Dev nD} (rd : RDat τ (Elt F) Unit ℕ (UR sig nD τ) ℕ cfg1 c) (hA : rd.A 5 = V c (Pipeline.arrRef spec1 5))
    (hkeep : ∀ t Y X, rd.after 5 t Y X → X = Y) (t : Fin cfg1.N) (Y) (h : rd.Finds 5 t Y) : Y = iblk1 V c 5 t := by
  obtain ⟨d, rfl⟩ := Pipeline.RDat.finds_in_eq_fetched rd 5 rfl (fun _ _ _ => rfl) hkeep t Y h
  unfold RDat.fetched RDat.blockOf iblk1; rw [hA]; try rfl
theorem finds1_6_of {c : Dev nD} (rd : RDat τ (Elt F) Unit ℕ (UR sig nD τ) ℕ cfg1 c) (hA : rd.A 6 = V c (Pipeline.arrRef spec1 6))
    (hkeep : ∀ t Y X, rd.after 6 t Y X → X = Y) (t : Fin cfg1.N) (Y) (h : rd.Finds 6 t Y) : Y = iblk1 V c 6 t := by
  obtain ⟨d, rfl⟩ := Pipeline.RDat.finds_in_eq_fetched rd 6 rfl (fun _ _ _ => rfl) hkeep t Y h
  unfold RDat.fetched RDat.blockOf iblk1; rw [hA]; try rfl

/-- The output window's block after a point of the second pass: the log-softmax of the block's rows of the head's sum. -/
def out1_7 (c : Dev nD) (t : Fin cfg1.N) (h : 10 ≤ t.val) : Vec F S1x1000x16 .f32 :=
  k1_pay4 (k1_pay5 (iblk1 V c 0 t) (S2 V c) (iblk1 V c 3 t) (iblk1 V c 5 t) (iblk1 V c 2 t)
    (View.ld (Z2 V c) (Rect.unit (s := S10000x16) (k1_off3 (grid1.coords t)) S1000x16.size (k1_off3_inb _ ((hcond1_1 t).mpr h)))) (iblk1 V c 6 t))

theorem scopedRest1_split (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f)
            ∗ (∃ f : Buf (Elt F) ((c : Thread nD τ).loc cc1_scratch1), ((c : Thread nD τ).loc cc1_scratch1) ↦{fullShare} f))
          ∗ Pipeline.scopedRestBut (Ix := Unit) (Name := ℕ) (U := UR sig nD τ) (Lvl := ℕ) (Val := Elt F) spec1 c [cc1_scratch0, cc1_scratch1]) :=
  Pipeline.scopedRest_split_of_list spec1 c [cc1_scratch0, cc1_scratch1] (by decide) (by decide)

abbrev rest1 (c : Dev nD) : sProp 𝕄 :=
  Pipeline.scopedRestBut (Ix := Unit) (Name := ℕ) (U := UR sig nD τ) (Lvl := ℕ) (Val := Elt F) spec1 c [cc1_scratch0, cc1_scratch1]

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ rest1 c) ∗ (∃ r, prngReg c r)) := by
  unfold Pipeline.ΦA; rw [scopedRest1_split]; simp only [scM1_0, scM1_1, owns_whole]; try rfl

/-- The invariant before point `n`: each scratch at what the slabs stored so far make of what it held at entry. -/
def Phi1 (c : Dev nD) (n : ℕ) : sProp 𝕄 :=
  iprop(iprop(iprop((∃ d, owns (c : Thread nD τ) scM1_0 fullShare (acc10 V c d n)) ∗ (∃ d, owns (c : Thread nD τ) scM1_1 fullShare (acc11 V c d n))) ∗ rest1 c) ∗ (∃ r, prngReg c r))

def rdat1 (c : Dev nD) : RDat τ (Elt F) Unit ℕ (UR sig nD τ) ℕ cfg1 c where
  A w := V c (Pipeline.arrRef spec1 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => X = Y
    | ⟨7, _⟩ => ∀ h : 10 ≤ t.val, X = out1_7 V c t h
  Φ t := Phi1 V c t.val
  q _ := fullShare
  owed _ := 0

theorem A_eq1 (c : Dev nD) (w : Fin cfg1.W) : (rdat1 V c).A w = V c (Pipeline.arrRef spec1 w) := by
  dsimp only [rdat1]

theorem after1_0 (c : Dev nD) (t : Fin cfg1.N) (Y X) : (rdat1 V c).after 0 t Y X = (X = Y) := by dsimp only [rdat1]
theorem after1_1 (c : Dev nD) (t : Fin cfg1.N) (Y X) : (rdat1 V c).after 1 t Y X = (X = Y) := by dsimp only [rdat1]
theorem after1_2 (c : Dev nD) (t : Fin cfg1.N) (Y X) : (rdat1 V c).after 2 t Y X = (X = Y) := by dsimp only [rdat1]
theorem after1_3 (c : Dev nD) (t : Fin cfg1.N) (Y X) : (rdat1 V c).after 3 t Y X = (X = Y) := by dsimp only [rdat1]
theorem after1_4 (c : Dev nD) (t : Fin cfg1.N) (Y X) : (rdat1 V c).after 4 t Y X = (X = Y) := by dsimp only [rdat1]
theorem after1_5 (c : Dev nD) (t : Fin cfg1.N) (Y X) : (rdat1 V c).after 5 t Y X = (X = Y) := by dsimp only [rdat1]
theorem after1_6 (c : Dev nD) (t : Fin cfg1.N) (Y X) : (rdat1 V c).after 6 t Y X = (X = Y) := by dsimp only [rdat1]
theorem after1_7 (c : Dev nD) (t : Fin cfg1.N) (Y X) : (rdat1 V c).after 7 t Y X = (∀ h : 10 ≤ t.val, X = out1_7 V c t h) := by dsimp only [rdat1]

theorem finds1_0 (c : Dev nD) (t : Fin cfg1.N) (Y) (h : (rdat1 V c).Finds 0 t Y) : Y = iblk1 V c 0 t :=
  finds1_0_of V (rdat1 V c) (A_eq1 V c 0) (fun t Y X h => by rw [after1_0] at h; exact h) t Y h
theorem finds1_1 (c : Dev nD) (t : Fin cfg1.N) (Y) (h : (rdat1 V c).Finds 1 t Y) : Y = iblk1 V c 1 t :=
  finds1_1_of V (rdat1 V c) (A_eq1 V c 1) (fun t Y X h => by rw [after1_1] at h; exact h) t Y h
theorem finds1_2 (c : Dev nD) (t : Fin cfg1.N) (Y) (h : (rdat1 V c).Finds 2 t Y) : Y = iblk1 V c 2 t :=
  finds1_2_of V (rdat1 V c) (A_eq1 V c 2) (fun t Y X h => by rw [after1_2] at h; exact h) t Y h
theorem finds1_3 (c : Dev nD) (t : Fin cfg1.N) (Y) (h : (rdat1 V c).Finds 3 t Y) : Y = iblk1 V c 3 t :=
  finds1_3_of V (rdat1 V c) (A_eq1 V c 3) (fun t Y X h => by rw [after1_3] at h; exact h) t Y h
theorem finds1_4 (c : Dev nD) (t : Fin cfg1.N) (Y) (h : (rdat1 V c).Finds 4 t Y) : Y = iblk1 V c 4 t :=
  finds1_4_of V (rdat1 V c) (A_eq1 V c 4) (fun t Y X h => by rw [after1_4] at h; exact h) t Y h
theorem finds1_5 (c : Dev nD) (t : Fin cfg1.N) (Y) (h : (rdat1 V c).Finds 5 t Y) : Y = iblk1 V c 5 t :=
  finds1_5_of V (rdat1 V c) (A_eq1 V c 5) (fun t Y X h => by rw [after1_5] at h; exact h) t Y h
theorem finds1_6 (c : Dev nD) (t : Fin cfg1.N) (Y) (h : (rdat1 V c).Finds 6 t Y) : Y = iblk1 V c 6 t :=
  finds1_6_of V (rdat1 V c) (A_eq1 V c 6) (fun t Y X h => by rw [after1_6] at h; exact h) t Y h

/-! ## The body obligation -/

def bodyPre1 (c : Dev nD) (t : Fin cfg1.N) (Y : (w : Fin cfg1.W) → (cfg1.win w).block.Idx → Elt F (cfg1.win w).elt) : sProp 𝕄 :=
  iprop((rdat1 V c).Φ t.castSucc ∗ (rdat1 V c).owesAt () t.castSucc
    ∗ owns (c : Thread nD τ) (ms1_0 t) fullShare (Y 0)
    ∗ owns (c : Thread nD τ) (ms1_1 t) fullShare (Y 1)
    ∗ owns (c : Thread nD τ) (ms1_2 t) fullShare (Y 2)
    ∗ owns (c : Thread nD τ) (ms1_3 t) fullShare (Y 3)
    ∗ owns (c : Thread nD τ) (ms1_4 t) fullShare (Y 4)
    ∗ owns (c : Thread nD τ) (ms1_5 t) fullShare (Y 5)
    ∗ owns (c : Thread nD τ) (ms1_6 t) fullShare (Y 6)
    ∗ owns (c : Thread nD τ) (ms1_7 t) fullShare (Y 7))

def bodyPost1 (c : Dev nD) (t : Fin cfg1.N) (Y : (w : Fin cfg1.W) → (cfg1.win w).block.Idx → Elt F (cfg1.win w).elt) : sProp 𝕄 :=
  iprop((rdat1 V c).Φ t.succ ∗ (rdat1 V c).owesAt () t.succ
    ∗ (∃ X, ⌜(rdat1 V c).after 0 t (Y 0) X⌝ ∗ owns (c : Thread nD τ) (ms1_0 t) fullShare X)
    ∗ (∃ X, ⌜(rdat1 V c).after 1 t (Y 1) X⌝ ∗ owns (c : Thread nD τ) (ms1_1 t) fullShare X)
    ∗ (∃ X, ⌜(rdat1 V c).after 2 t (Y 2) X⌝ ∗ owns (c : Thread nD τ) (ms1_2 t) fullShare X)
    ∗ (∃ X, ⌜(rdat1 V c).after 3 t (Y 3) X⌝ ∗ owns (c : Thread nD τ) (ms1_3 t) fullShare X)
    ∗ (∃ X, ⌜(rdat1 V c).after 4 t (Y 4) X⌝ ∗ owns (c : Thread nD τ) (ms1_4 t) fullShare X)
    ∗ (∃ X, ⌜(rdat1 V c).after 5 t (Y 5) X⌝ ∗ owns (c : Thread nD τ) (ms1_5 t) fullShare X)
    ∗ (∃ X, ⌜(rdat1 V c).after 6 t (Y 6) X⌝ ∗ owns (c : Thread nD τ) (ms1_6 t) fullShare X)
    ∗ (∃ X, ⌜(rdat1 V c).after 7 t (Y 7) X⌝ ∗ owns (c : Thread nD τ) (ms1_7 t) fullShare X))

set_option maxHeartbeats 4000000 in
theorem sound_body1 (c : Dev nD) (t : Fin cfg1.N) (Y : (w : Fin cfg1.W) → (cfg1.win w).block.Idx → Elt F (cfg1.win w).elt)
    (hY : ∀ w, (rdat1 V c).Finds w t (Y w)) :
    bodyPre1 V c t Y ⊢ wp frame (wpE (defs₀ (F := F)) Variants.none c none) Set.univ (bodyAt1 t) (fun _ => bodyPost1 V c t Y) := by
  unfold bodyPre1 bodyPost1 bodyAt1
  rw [finds1_0 V c t _ (hY 0), finds1_1 V c t _ (hY 1), finds1_2 V c t _ (hY 2), finds1_3 V c t _ (hY 3), finds1_4 V c t _ (hY 4),
    finds1_5 V c t _ (hY 5), finds1_6 V c t _ (hY 6)]
  simp only [after1_0, after1_1, after1_2, after1_3, after1_4, after1_5, after1_6, after1_7]
  rw [show (rdat1 V c).owesAt () t.succ = (rdat1 V c).owesAt () t.castSucc from rfl]
  rw [show (rdat1 V c).Φ t.succ = Phi1 V c (t.val + 1) from rfl, show (rdat1 V c).Φ t.castSucc = Phi1 V c t.val from rfl]
  unfold Phi1
  by_cases hlt : t.val < 10
  · have hc0 : cond1_0 (grid1.coords t) := (hcond1_0 t).mpr hlt
    have hc1 : ¬cond1_1 (grid1.coords t) := fun h => by have := (hcond1_1 t).mp h; omega
    have ht : t = tj t.val hlt := Fin.ext rfl
    iintro ⟨⟨⟨⟨⟨%d10, HS10⟩, ⟨%d11, HS11⟩⟩, Hrest⟩, Hg⟩, Ho, H0, H1, H2, H3, H4, H5, H6, H7⟩
    iapply ((run1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 hsc1_0 scM1_1 hsc1_1 hc0 hc1 (iblk1 V c 0 t) (iblk1 V c 1 t) (iblk1 V c 3 t) (iblk1 V c 4 t) (iblk1 V c 5 t) (acc10 V c d10 t.val) (acc11 V c d11 t.val)).2.2 Set.univ _)
    isplitl [H0]; · iexact H0
    isplitl [H1]; · iexact H1
    isplitl [H3]; · iexact H3
    isplitl [H4]; · iexact H4
    isplitl [H5]; · iexact H5
    isplitl [HS10]; · iexact HS10
    isplitl [HS11]; · iexact HS11
    iintro ⟨H0, H1, H3, H4, H5, HS10, HS11⟩
    isplitl [HS10 HS11 Hrest Hg]
    · isplitl [HS10 HS11 Hrest]
      · isplitl [HS10 HS11]
        · isplitl [HS10]
          · iexists d10; unfold owns; iexists _; isplitr
            swap; · iexact HS10
            ipureintro
            rw [run1_A_L10]
            exact acc10_step V c d10 t.val hlt
          · iexists d11; unfold owns; iexists _; isplitr
            swap; · iexact HS11
            ipureintro
            rw [run1_A_L11]
            exact acc11_step V c d11 t.val hlt
        iexact Hrest
      iexact Hg
    isplitl [Ho]; · iexact Ho
    isplitl [H0]; · iexists _; isplitr; · ipureintro; rfl
                    iexact H0
    isplitl [H1]; · iexists _; isplitr; · ipureintro; rfl
                    iexact H1
    isplitl [H2]; · iexists _; isplitr; · ipureintro; rfl
                    iexact H2
    isplitl [H3]; · iexists _; isplitr; · ipureintro; rfl
                    iexact H3
    isplitl [H4]; · iexists _; isplitr; · ipureintro; rfl
                    iexact H4
    isplitl [H5]; · iexists _; isplitr; · ipureintro; rfl
                    iexact H5
    isplitl [H6]; · iexists _; isplitr; · ipureintro; rfl
                    iexact H6
    iexists (Y 7); isplitr; · ipureintro; intro h; omega
    iexact H7
  · have hge : 10 ≤ t.val := by omega
    have hc0 : ¬cond1_0 (grid1.coords t) := fun h => hlt ((hcond1_0 t).mp h)
    have hc1 : cond1_1 (grid1.coords t) := (hcond1_1 t).mpr hge
    iintro ⟨⟨⟨⟨⟨%d10, HS10⟩, ⟨%d11, HS11⟩⟩, Hrest⟩, Hg⟩, Ho, H0, H1, H2, H3, H4, H5, H6, H7⟩
    iapply ((run1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 hsc1_0 scM1_1 hsc1_1 hc0 hc1 (iblk1 V c 0 t) (iblk1 V c 2 t) (iblk1 V c 3 t) (iblk1 V c 5 t) (iblk1 V c 6 t) (acc10 V c d10 t.val) (acc11 V c d11 t.val)).2 Set.univ _)
    isplitl [H0]; · iexact H0
    isplitl [H2]; · iexact H2
    isplitl [H3]; · iexact H3
    isplitl [H5]; · iexact H5
    isplitl [H6]; · iexact H6
    isplitl [H7]; · iexists _; iexact H7
    isplitl [HS10]; · iexact HS10
    isplitl [HS11]; · iexact HS11
    iintro ⟨H0, H2, H3, H5, H6, ⟨%f9, H9⟩, HS10, HS11⟩
    isplitl [HS10 HS11 Hrest Hg]
    · isplitl [HS10 HS11 Hrest]
      · isplitl [HS10 HS11]
        · isplitl [HS10]
          · iexists d10; rw [acc10_stable V c d10 t.val hge]; iexact HS10
          · iexists d11; rw [acc11_stable V c d11 t.val hge]; iexact HS11
        iexact Hrest
      iexact Hg
    isplitl [Ho]; · iexact Ho
    isplitl [H0]; · iexists _; isplitr; · ipureintro; rfl
                    iexact H0
    isplitl [H1]; · iexists _; isplitr; · ipureintro; rfl
                    iexact H1
    isplitl [H2]; · iexists _; isplitr; · ipureintro; rfl
                    iexact H2
    isplitl [H3]; · iexists _; isplitr; · ipureintro; rfl
                    iexact H3
    isplitl [H4]; · iexists _; isplitr; · ipureintro; rfl
                    iexact H4
    isplitl [H5]; · iexists _; isplitr; · ipureintro; rfl
                    iexact H5
    isplitl [H6]; · iexists _; isplitr; · ipureintro; rfl
                    iexact H6
    iexists _; isplitr
    swap
    · unfold owns; iexists _; isplitr
      swap; · iexact H9
      ipureintro; rfl
    ipureintro
    intro h
    rw [run1_B_read9, acc10_ge V c d10 t.val hge, acc11_ge V c d11 t.val hge, acc10_ten, acc11_ten]
    rfl

/-- The library's body obligation over relational proof data, at every point. -/
theorem body_obligation1 (c : Dev nD) : (rdat1 (F := F) V c).BodyObligation (defs₀ (F := F)) Variants.none () Set.univ := fun t Y hY => by
  rw [bigSep_W1, bigSep_W1]
  exact sound_body1 V c t Y hY

end R1

end Cert.Kernel.Hnd

end
-- ==== Proof.FKernel.Run.lean ====
import proofs.«166769_g37641093382870_cont_sun_c4_266_19_alg».proof.Proof.FKernel.R0Frame
import proofs.«166769_g37641093382870_cont_sun_c4_266_19_alg».proof.Proof.FKernel.R1Frame
import Idealize.ShloMosaic.Lib.Pipeline.RegionsLoop
import Idealize.ShloMosaic.Lib.Pipeline.Regions

set_option maxRecDepth 16384

noncomputable section

namespace Cert.Kernel.Hnd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

/-! # The run of @main: a host stretch, the two regions, a host stretch

The buffer contents at every boundary, the regions as segments of the library's launch over relational proof data
(region 0's exact data read as relational), and the run: every weakly fair execution terminates, and every final memory
holds, in every unscoped buffer, the last boundary's contents — for SOME contents of the second region's output array
among those its write-backs may leave. -/

variable (m : (ℓ : Loc nD τ sig) → Buf (Elt F) ℓ) (ρ : Dev nD → PrngReg)

/-- Core `c`'s buffers at launch, -/
abbrev W0 : Dev nD → Valuation τ sig (Elt F) := fun c b => m (c, b)
/-- after the host operations before the first region (its entry), -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- at the first region's exit (the second's entry): its arrays at what its write-backs leave, -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- The contents of the second region's arrays at its exit. -/
abbrev Arrs1 (c : Dev nD) : Type := (w : Fin cfg1.W) → Buf (Elt F) ((cfg1.win w).arr.view.loc (c : Thread nD τ))

/-- at the second region's exit, its arrays at `Fs`, -/
def W3 (c : Dev nD) (Fs : Arrs1 (F := F) c) : Valuation τ sig (Elt F) := Pipeline.withArrays spec1 c (W2 m c) Fs
theorem W3_arr (c : Dev nD) (Fs : Arrs1 (F := F) c) (w : Fin cfg1.W) :
    W3 m c Fs (Proc.devRef .tc (Pipeline.arrRef spec1 w)) = Fs w := by
  unfold W3; exact Pipeline.withArrays_arr spec1 launch1.win.arr_inj c _ _ w
theorem W3_of_ne (c : Dev nD) (Fs : Arrs1 (F := F) c) (b : Ref sig .tc) (hb : ∀ w, Pipeline.arrRef spec1 w ≠ b) :
    W3 m c Fs (Proc.devRef .tc b) = W2 m c (Proc.devRef .tc b) := by
  unfold W3; exact Pipeline.withArrays_of_ne spec1 c _ _ b hb
abbrev V3 (c : Dev nD) (Fs : Arrs1 (F := F) c) : (b : Ref sig .tc) → Buf (Elt F) ((c : Thread nD τ).loc b) := fun b => W3 m c Fs b
/-- and after the host operations after it. -/
abbrev W4 (c : Dev nD) (Fs : Arrs1 (F := F) c) : Valuation τ sig (Elt F) := StableHlo.after hostOps2 (W3 m c Fs)

/-! ## The proof data family -/

abbrev adm : (p : Fin 2) → (pcfgs (F := F) p).Adm := fun p => (cfgs p).toPCfg_adm

def rdats : (p : Fin 2) → (c : Dev nD) → RDat τ (Elt F) Unit ℕ (UR sig nD τ) ℕ (Pipeline.pin (pcfgs (F := F)) adm p) c
  | ⟨0, _⟩ => fun c => (dat0 (V1 m) c).toR
  | ⟨1, _⟩ => fun c => rdat1 (V2 m) c

/-- What the second region's write-backs may leave in its arrays. -/
def Fin1 (c : Dev nD) (Fs : Arrs1 (F := F) c) : Prop := ∀ w, (rdat1 (V2 m) c).ArrAt w cfg1.N (Fs w)

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

/-- The host stretch before the regions, as a segment. -/
abbrev seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

-- the host operations' specification is stated over the program's own body table
set_option backward.isDefEq.respectTransparency.types false in
/-- The host stretch after the regions, as a segment: from the buffers at the second region's exit contents, whatever
    its output array holds among what its write-backs may leave, to the buffers after the stretch's operations. -/
def seg3 : Pipeline.HostSeg (Name := ℕ) (U := UR sig nD τ) (pcfgs (F := F)) defs₀ 𝒱₀ L lv where
  prog := StableHlo.seq hostOps2
  pre c := iprop(∃ Fs : Arrs1 (F := F) c, ⌜Fin1 m c Fs⌝ ∗ StableHlo.held (c : Thread nD τ) (Pipeline.ucRefs τ sig) (W3 m c Fs) ∗ R c)
  post c := iprop(∃ Fs : Arrs1 (F := F) c, ⌜Fin1 m c Fs⌝ ∗ StableHlo.held (c : Thread nD τ) (Pipeline.ucRefs τ sig) (W4 m c Fs) ∗ R c)
  run c {β} k K := by
    iintro ⟨Hk, Hbd, ⟨%Fs, %hFs, Hh, HR⟩, -⟩
    have hseq := StableHlo.wp_seq (defs := Pipeline.defs (pcfgs (F := F)) defs₀) (Variants.lift 𝒱₀) none Set.univ c (Pipeline.ucRefs τ sig) k (K := K) hostOps2
      (fun op h => Pipeline.sub_ucRefs op ((List.forall_iff_forall_mem.mp hostOps2_sub) op h))
      (fun op h => (List.forall_iff_forall_mem.mp hostOps2_fresh) op h) (W3 m c Fs)
    iapply hseq $$ [Hbd Hh]
    · isplitl [Hbd] <;> iassumption
    iintro ⟨Hbd, Hh⟩
    iapply Hk
    isplitl [Hbd]; · iexact Hbd
    iexists Fs
    isplitr; · ipureintro; exact hFs
    isplitl [Hh] <;> iassumption

/-- Exact proof data over the second pipeline that name nothing: only their arrays' shares are read, where the
    library's lemma putting a region's arrays back among the unscoped buffers is stated over a family of exact data. -/
def datA1 (c : Dev nD) : Dat τ (Elt F) Unit ℕ (UR sig nD τ) ℕ cfg1 c where
  A w := V2 m c (Pipeline.arrRef spec1 w)
  after w t := fun _ => (Elt.inhabited F _).default
  Φ _ := iprop(emp)
  q _ := fullShare
  owed _ := 0

/-! ## The regions as segments -/

theorem share0 (c : Dev nD) (w : Fin cfg0.W) : (rdats m 0 c).share w = fullShare := by
  show (dat0 (V1 m) c).toR.share w = fullShare
  rw [Dat.toR_share]; exact (dat0 (V1 m) c).share_full (fun _ => rfl) w
theorem share1 (c : Dev nD) (w : Fin cfg1.W) : (rdats m 1 c).share w = fullShare := by
  show (rdat1 (V2 m) c).share w = fullShare
  unfold RDat.share; split <;> rfl

set_option backward.isDefEq.respectTransparency.types false in
/-- REGION 0: entered from every unscoped buffer at `W1`, left at `W2`. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).toR
  hwaits := Pipeline.RDat.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.RDat.arrays_of_unscopedBufs (p := 0) (pcfgs (F := F)) adm (rdats m) launch0.win launch0.arr_whole c
      (share0 m c) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (rdats m 0 c).Φ (Fin.last _) = iprop(iprop(owns (c : Thread nD τ) scM0 fullShare (S0 (V1 m) c) ∗ rest0 c) ∗ (∃ r, prngReg c r)) from rfl]
    have e : (Pipeline.scopedRest (Ix := Unit) (Name := ℕ) (U := UR sig nD τ) (Lvl := ℕ) (Val := Elt F) (Pipeline.pin (pcfgs (F := F)) adm 0).spec c : sProp 𝕄)
        = iprop((∃ f : Buf (Elt F) ((c : Thread nD τ).loc cc0_scratch0), ((c : Thread nD τ).loc cc0_scratch0) ↦{fullShare} f) ∗ rest0 c) := scopedRest0_split c
    rw [e]
    iintro ⟨⟨HS, Hrest⟩, Hp⟩
    isplitl [Hp]; · iexact Hp
    isplitr; · iempintro
    isplitl [HS]
    · simp only [scM0, owns_whole]; iexists _; iexact HS
    iexact Hrest
  hexit c := by
    have hjoin := Pipeline.unscopedBufs_of_arrays (p := 0) (pcfgs (F := F)) adm (Ix := Unit) (Name := ℕ) (U := UR sig nD τ) (Lvl := ℕ)
      launch0.win launch0.arr_whole c (fun p c => match p with | ⟨0, _⟩ => dat0 (V1 m) c | ⟨1, _⟩ => datA1 m c) ((dat0 (V1 m) c).share_full fun _ => rfl)
      (V1 m c) (V2 m c) ((dat0 (V1 m) c).arrAt · cfg0.N) (hF0 m c) (hrest0 m c)
    rw [Pipeline.unscopedBufs_held] at hjoin
    iintro ⟨Ha, HO, HY, Hrest⟩
    have hpost : (rdats m 0 c).arraysAt (Pipeline.pin (pcfgs (F := F)) adm 0).N ⊢ ((dat0 (V1 m) c).arrays fun w => (dat0 (V1 m) c).arrAt w cfg0.N : sProp 𝕄) :=
      Dat.toR_arraysAt_post (dat0 (V1 m) c) cfg0.N
    ihave Ha' := hpost $$ Ha
    imodintro
    isplitl [Ha' Hrest]
    · iapply hjoin; isplitl [Ha'] <;> iassumption
    isplitl [HY]; · iexact HY
    unfold Pipeline.RDat.owesAt Pipeline.owesWithin
    icases HO with ⟨%W, -, HO⟩; iexists W; iexact HO

/-- The second region's arrays at contents `Fs` and the unscoped rest at its entry contents are the core's unscoped
    buffers at the exit contents. -/
theorem join1 (c : Dev nD) (Fs : Arrs1 (F := F) c) :
    (iprop((rdats m 1 c).arrays Fs ∗ Pipeline.unscopedRest (Ix := Unit) (Name := ℕ) (U := UR sig nD τ) (Lvl := ℕ) spec1 c (V2 m c)) : sProp 𝕄)
      ⊢ StableHlo.held (c : Thread nD τ) (Pipeline.ucRefs τ sig) (W3 m c Fs) := by
  rw [← Pipeline.unscopedBufs_held c (W3 m c Fs)]
  rw [Pipeline.unscopedBufs_split (Pipeline.pin (pcfgs (F := F)) adm) 1 launch1.win.arr_unscoped launch1.win.arr_inj c (V3 m c Fs),
    Pipeline.RDat.arrays_eq (pcfgs (F := F)) adm (rdats m) 1 c launch1.arr_whole (share1 m c)]
  refine sep_mono (Entails.of_eq (bigSep_congr fun w _ => by rw [show Fs w = V3 m c Fs (Pipeline.arrRef spec1 w) from (W3_arr m c Fs w).symm]; rfl)) (Entails.of_eq ?_)
  unfold Pipeline.unscopedRest
  exact bigSep_congr fun b hb => by
    rw [show V3 m c Fs b = V2 m c b from W3_of_ne m c Fs b fun w e => (Finset.mem_sdiff.mp hb).2 (Finset.mem_image.mpr ⟨w, Finset.mem_univ _, e⟩)]

/-- The last thread state beside the core owing nothing. -/
theorem hlast (c : Dev nD) :
    (iprop(∃ Fs : Arrs1 (F := F) c, ⌜Fin1 m c Fs⌝ ∗ StableHlo.held (c : Thread nD τ) (Pipeline.ucRefs τ sig) (W4 m c Fs) ∗ R c) : sProp 𝕄)
      ⊢ iprop((∃ Fs : Arrs1 (F := F) c, ⌜Fin1 m c Fs⌝ ∗ StableHlo.held (c : Thread nD τ) (Pipeline.ucRefs τ sig) (W4 m c Fs) ∗ ∃ r, prngReg c r)
          ∗ ∃ W, owes (c : Thread nD τ) (0 : CellTallies nD τ sig Unit) W) := by
  iintro ⟨%Fs, %hFs, Hh, ⟨Hp, HO⟩⟩
  isplitr [HO]
  · iexists Fs; isplitr; · ipureintro; exact hFs
    isplitl [Hh]; · iexact Hh
    iexact Hp
  iexact HO

set_option backward.isDefEq.respectTransparency.types false in
/-- REGION 1: entered from every unscoped buffer at `W2`, left at `W3` for SOME contents of its arrays among those its
    write-backs may leave (its input arrays as entered; its output array constrained block by block). -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := body_obligation1 (V2 m) c
  hwaits := Pipeline.RDat.hwaits_of_owed_zero _ _ _ _ L lv 1 fun _ _ => rfl
  pre c := iprop(StableHlo.held (c : Thread nD τ) (Pipeline.ucRefs τ sig) (W2 m c) ∗ R c)
  post c := iprop(∃ Fs : Arrs1 (F := F) c, ⌜Fin1 m c Fs⌝ ∗ StableHlo.held (c : Thread nD τ) (Pipeline.ucRefs τ sig) (W3 m c Fs) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.RDat.arrays_of_unscopedBufs (p := 1) (pcfgs (F := F)) adm (rdats m) launch1.win launch1.arr_whole c
      (share1 m c) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Phi1 (V2 m) c 0 from rfl]; unfold Phi1
    have e : (Pipeline.scopedRest (Ix := Unit) (Name := ℕ) (U := UR sig nD τ) (Lvl := ℕ) (Val := Elt F) (Pipeline.pin (pcfgs (F := F)) adm 1).spec c : sProp 𝕄)
        = iprop(iprop((∃ f : Buf (Elt F) ((c : Thread nD τ).loc cc1_scratch0), ((c : Thread nD τ).loc cc1_scratch0) ↦{fullShare} f)
            ∗ (∃ f : Buf (Elt F) ((c : Thread nD τ).loc cc1_scratch1), ((c : Thread nD τ).loc cc1_scratch1) ↦{fullShare} f)) ∗ rest1 c) := scopedRest1_split c
    rw [e]
    iintro ⟨Hp, -, ⟨⟨⟨%f0, H0⟩, ⟨%f1, H1⟩⟩, Hrest⟩⟩
    isplitr [Hp]
    · isplitr [Hrest]
      · isplitl [H0]
        · iexists f0; rw [acc10_zero]; simp only [scM1_0, owns_whole]; iexact H0
        · iexists f1; rw [acc11_zero]; simp only [scM1_1, owns_whole]; iexact H1
      iexact Hrest
    iexact Hp
  hout c := by
    rw [Pipeline.ownSems0_none]
    rw [show (rdats m 1 c).Φ (Fin.last _) = Phi1 (V2 m) c cfg1.N from rfl]; unfold Phi1
    have e : (Pipeline.scopedRest (Ix := Unit) (Name := ℕ) (U := UR sig nD τ) (Lvl := ℕ) (Val := Elt F) (Pipeline.pin (pcfgs (F := F)) adm 1).spec c : sProp 𝕄)
        = iprop(iprop((∃ f : Buf (Elt F) ((c : Thread nD τ).loc cc1_scratch0), ((c : Thread nD τ).loc cc1_scratch0) ↦{fullShare} f)
            ∗ (∃ f : Buf (Elt F) ((c : Thread nD τ).loc cc1_scratch1), ((c : Thread nD τ).loc cc1_scratch1) ↦{fullShare} f)) ∗ rest1 c) := scopedRest1_split c
    rw [e]
    iintro ⟨⟨⟨⟨%d0, H0⟩, ⟨%d1, H1⟩⟩, Hrest⟩, Hp⟩
    isplitl [Hp]; · iexact Hp
    isplitr; · iempintro
    isplitr [Hrest]
    · isplitl [H0]
      · simp only [scM1_0, owns_whole]; iexists _; iexact H0
      · simp only [scM1_1, owns_whole]; iexists _; iexact H1
    iexact Hrest
  hexit c := by
    iintro ⟨Ha, HO, HY, Hrest⟩
    unfold Pipeline.RDat.arraysAt
    ihave Ha1 := (bigSep_exists_pi (Finset.univ : Finset (Fin cfg1.W)) _) $$ Ha
    icases Ha1 with ⟨%Fs, Ha2⟩
    ihave Ha3 := (bigSep_pure_sep (Finset.univ : Finset (Fin cfg1.W)) _ _) $$ Ha2
    icases Ha3 with ⟨%hFs, Ha4⟩
    have hjoin := join1 m c Fs
    unfold Pipeline.RDat.arrays at hjoin
    imodintro
    iexists Fs
    isplitr; · ipureintro; exact fun w => hFs w (Finset.mem_univ w)
    isplitl [Ha4 Hrest]
    · iapply hjoin; isplitl [Ha4] <;> iassumption
    isplitl [HY]; · iexact HY
    unfold Pipeline.RDat.owesAt Pipeline.owesWithin
    icases HO with ⟨%W, -, HO⟩; iexists W; iexact HO

/-! ## @main as segments, and the launch -/

abbrev segs : List (Pipeline.RDat.Seg (pcfgs (F := F)) adm (rdats m) () defs₀ 𝒱₀ L lv) :=
  [ .host (seg0 m), .region (reg0 m), .region (reg1 m), .host (seg3 m) ]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- What a final memory holds on core `c`: every unscoped buffer at the last boundary's contents, for some contents of
    the second region's arrays among those its write-backs may leave. -/
def Final (c : Dev nD) (s : MemSt nD τ sig (Elt F)) : Prop :=
  ∃ Fs : Arrs1 (F := F) c, Fin1 m c Fs ∧ ∀ b ∈ Pipeline.ucRefs τ sig, s.mem (((c : Thread nD τ)).1, b) = W4 m c Fs b

set_option backward.isDefEq.respectTransparency.types false in
/-- THE RUN: at the compiled mesh, from any memory with zero counters, every weakly fair execution of @main terminates,
    nothing faulting, and every final memory is as `Final` says. -/
theorem run_main : θ_run defs (onTc (τ := τ) (main (F := F))) ⟨m, fun _ => 0, ρ⟩ (fun r => ∀ c : Dev nD, Final m c r.2) :=
  Pipeline.RDat.θ_run_regions_kit (pcfgs (F := F)) adm (rdats m) () cellOf_inj emb₁ defs₀ 𝒱₀ L lv m ρ main (segs m)
    (fun c Q => by
      rewrite [main_chain c, Pipeline.RDat.Seg.run_eq_chain,
        show (segs m).map Pipeline.RDat.Seg.prog = [
          StableHlo.seq hostOps0,
          Prog.lift (.customCall (Pipeline.entry 0) ()),
          Prog.lift (.customCall (Pipeline.entry 1) ()),
          StableHlo.seq hostOps2 ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(∃ Fs : Arrs1 (F := F) c, ⌜Fin1 m c Fs⌝ ∗ StableHlo.held (c : Thread nD τ) (Pipeline.ucRefs τ sig) (W4 m c Fs) ∗ ∃ r, prngReg c r))
    (hch := ⟨fun _ => .rfl, fun _ => .rfl, fun _ => .rfl, fun _ => .rfl, fun c => hlast m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => Final m c s)
    (hfin := fun c s' => by
      iintro ⟨HT, HSI⟩
      icases HT with ⟨%Fs, %hFs, Hh, -⟩
      unfold StableHlo.held
      ihave Hr := (pointsTo_read_all (Pipeline.ucRefs τ sig) (fun b => (((c : Thread nD τ)).1, b)) (W4 m c Fs) s') $$ [Hh HSI]
      · isplitl [Hh] <;> iassumption
      icases Hr with ⟨%h, HSI⟩
      imodintro
      isplitr
      · ipureintro; exact ⟨Fs, hFs, h⟩
      iexact HSI)
    (hQ := fun s h c => h c)

end Cert.Kernel.Hnd

end
-- ==== Proof.FKernel.FrameOf.lean ====
import proofs.«166769_g37641093382870_cont_sun_c4_266_19_alg».proof.Proof.FKernel.Run

set_option maxRecDepth 16384

noncomputable section

namespace Cert.Kernel.Hnd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

/-! # The frame: every argument array ends holding its launch contents

No host operation writes an argument and no region may change one: a region reads an argument through an input window
(whose array the write-backs never touch) or does not stage it at all. -/

variable (m : (ℓ : Loc nD τ sig) → Buf (Elt F) ℓ) (ρ : Dev nD → PrngReg)

theorem W4_main_arg0 (c : Dev nD) (Fs : Arrs1 (F := F) c) : W4 m c Fs (Proc.devRef .tc main_arg0) = m ((c : Thread nD τ).loc main_arg0) :=
  calc W4 m c Fs (Proc.devRef .tc main_arg0)
    _ = W3 m c Fs (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg0) := W3_of_ne m c Fs main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) (Fs : Arrs1 (F := F) c) : W4 m c Fs (Proc.devRef .tc main_arg1) = m ((c : Thread nD τ).loc main_arg1) :=
  calc W4 m c Fs (Proc.devRef .tc main_arg1)
    _ = W3 m c Fs (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg1) := W3_of_ne m c Fs main_arg1 (by decide)
    _ = W1 m c (Proc.devRef .tc main_arg1) := (W2_arr m c 1).trans (((dat0 (V1 m) c).arrAt_in 1 rfl _).trans (A_eq0 (V1 m) c 1))
    _ = W0 m c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) (Fs : Arrs1 (F := F) c) : W4 m c Fs (Proc.devRef .tc main_arg2) = m ((c : Thread nD τ).loc main_arg2) :=
  calc W4 m c Fs (Proc.devRef .tc main_arg2)
    _ = W3 m c Fs (Proc.devRef .tc main_arg2) := StableHlo.after_of_forall_not_mem (b := Proc.devRef .tc main_arg2) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg2) := W3_of_ne m c Fs main_arg2 (by decide)
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) (Fs : Arrs1 (F := F) c) : W4 m c Fs (Proc.devRef .tc main_arg3) = m ((c : Thread nD τ).loc main_arg3) :=
  calc W4 m c Fs (Proc.devRef .tc main_arg3)
    _ = W3 m c Fs (Proc.devRef .tc main_arg3) := StableHlo.after_of_forall_not_mem (b := Proc.devRef .tc main_arg3) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg3) := W3_of_ne m c Fs main_arg3 (by decide)
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) (Fs : Arrs1 (F := F) c) : W4 m c Fs (Proc.devRef .tc main_arg4) = m ((c : Thread nD τ).loc main_arg4) :=
  calc W4 m c Fs (Proc.devRef .tc main_arg4)
    _ = W3 m c Fs (Proc.devRef .tc main_arg4) := StableHlo.after_of_forall_not_mem (b := Proc.devRef .tc main_arg4) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg4) := W3_of_ne m c Fs main_arg4 (by decide)
    _ = W1 m c (Proc.devRef .tc main_arg4) := W2_of_ne m c main_arg4 (by decide)
    _ = W0 m c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) (Fs : Arrs1 (F := F) c) : W4 m c Fs (Proc.devRef .tc main_arg5) = m ((c : Thread nD τ).loc main_arg5) :=
  calc W4 m c Fs (Proc.devRef .tc main_arg5)
    _ = W3 m c Fs (Proc.devRef .tc main_arg5) := StableHlo.after_of_forall_not_mem (b := Proc.devRef .tc main_arg5) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg5) := W3_of_ne m c Fs main_arg5 (by decide)
    _ = W1 m c (Proc.devRef .tc main_arg5) := W2_of_ne m c main_arg5 (by decide)
    _ = W0 m c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_main_arg6 (c : Dev nD) (Fs : Arrs1 (F := F) c) : W4 m c Fs (Proc.devRef .tc main_arg6) = m ((c : Thread nD τ).loc main_arg6) :=
  calc W4 m c Fs (Proc.devRef .tc main_arg6)
    _ = W3 m c Fs (Proc.devRef .tc main_arg6) := StableHlo.after_of_forall_not_mem (b := Proc.devRef .tc main_arg6) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg6) := W3_of_ne m c Fs main_arg6 (by decide)
    _ = W1 m c (Proc.devRef .tc main_arg6) := W2_of_ne m c main_arg6 (by decide)
    _ = W0 m c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W4_main_arg7 (c : Dev nD) (Fs : Arrs1 (F := F) c) : W4 m c Fs (Proc.devRef .tc main_arg7) = m ((c : Thread nD τ).loc main_arg7) :=
  calc W4 m c Fs (Proc.devRef .tc main_arg7)
    _ = W3 m c Fs (Proc.devRef .tc main_arg7) := StableHlo.after_of_forall_not_mem (b := Proc.devRef .tc main_arg7) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg7) := W3_of_ne m c Fs main_arg7 (by decide)
    _ = W1 m c (Proc.devRef .tc main_arg7) := W2_of_ne m c main_arg7 (by decide)
    _ = W0 m c (Proc.devRef .tc main_arg7) := StableHlo.after_of_forall_not_mem (b := Proc.devRef .tc main_arg7) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W4_main_arg8 (c : Dev nD) (Fs : Arrs1 (F := F) c) : W4 m c Fs (Proc.devRef .tc main_arg8) = m ((c : Thread nD τ).loc main_arg8) :=
  calc W4 m c Fs (Proc.devRef .tc main_arg8)
    _ = W3 m c Fs (Proc.devRef .tc main_arg8) := StableHlo.after_of_forall_not_mem (b := Proc.devRef .tc main_arg8) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg8) := W3_of_ne m c Fs main_arg8 (by decide)
    _ = W1 m c (Proc.devRef .tc main_arg8) := W2_of_ne m c main_arg8 (by decide)
    _ = W0 m c (Proc.devRef .tc main_arg8) := StableHlo.after_of_forall_not_mem (b := Proc.devRef .tc main_arg8) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W4_main_arg9 (c : Dev nD) (Fs : Arrs1 (F := F) c) : W4 m c Fs (Proc.devRef .tc main_arg9) = m ((c : Thread nD τ).loc main_arg9) :=
  calc W4 m c Fs (Proc.devRef .tc main_arg9)
    _ = W3 m c Fs (Proc.devRef .tc main_arg9) := StableHlo.after_of_forall_not_mem (b := Proc.devRef .tc main_arg9) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg9) := W3_of_ne m c Fs main_arg9 (by decide)
    _ = W1 m c (Proc.devRef .tc main_arg9) := W2_of_ne m c main_arg9 (by decide)
    _ = W0 m c (Proc.devRef .tc main_arg9) := StableHlo.after_of_forall_not_mem (b := Proc.devRef .tc main_arg9) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

/-- THE FRAME, at any instance: every weakly fair execution of @main terminates, nothing faulting, and every final
    memory holds each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => by
    obtain ⟨Fs, -, hmem⟩ := h c
    exact ⟨(hmem _ (mem_uc main_arg0 (by decide))).trans (W4_main_arg0 m c Fs),
      (hmem _ (mem_uc main_arg1 (by decide))).trans (W4_main_arg1 m c Fs),
      (hmem _ (mem_uc main_arg2 (by decide))).trans (W4_main_arg2 m c Fs),
      (hmem _ (mem_uc main_arg3 (by decide))).trans (W4_main_arg3 m c Fs),
      (hmem _ (mem_uc main_arg4 (by decide))).trans (W4_main_arg4 m c Fs),
      (hmem _ (mem_uc main_arg5 (by decide))).trans (W4_main_arg5 m c Fs),
      (hmem _ (mem_uc main_arg6 (by decide))).trans (W4_main_arg6 m c Fs),
      (hmem _ (mem_uc main_arg7 (by decide))).trans (W4_main_arg7 m c Fs),
      (hmem _ (mem_uc main_arg8 (by decide))).trans (W4_main_arg8 m c Fs),
      (hmem _ (mem_uc main_arg9 (by decide))).trans (W4_main_arg9 m c Fs)⟩) (run_main m ρ)

end Cert.Kernel.Hnd

end
-- ==== Proof.FKernelIdeal.R0RunA.lean ====
import proofs.«166769_g37641093382870_cont_sun_c4_266_19_alg».proof.Proof.Gen.KernelIdeal.Launch
import proofs.«166769_g37641093382870_cont_sun_c4_266_19_alg».proof.Proof.Gen.KernelIdeal.Skeleton
import proofs.«166769_g37641093382870_cont_sun_c4_266_19_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hnd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

/-! ## Region 0: the branch conditions of the body, decided over the grid -/

/-- The first branch (the support matrix is computed) is taken exactly at the grid's first point. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- The second branch (a row block of the adjacency is consumed) is taken at every later point. -/
abbrev cond0_1 (i : grid0.Coords) : Prop := k0_cond2 i = 1#1
theorem hcond0_1 : ∀ t : Fin cfg0.N, cond0_1 (grid0.coords t) ↔ t.val ≠ 0 :=
  (by decide +kernel : ∀ t : Fin grid0.N, cond0_1 (grid0.coords t) ↔ t.val ≠ 0)

set_option maxHeartbeats 1000000 in
/-- The body at the first point: it loads the features and the first weight matrix and stores their product into the
    scratch; the pieces the scratch ends with are found by the run. -/
noncomputable def run0_A (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S128x16 .bf16) (harg6 : arg6.IsWhole) (arg7 : Memref sig .tc .vmem S400x10000 .bf16) (harg7 : arg7.IsWhole) (arg8 : Memref sig .tc .vmem S400x128 .bf16) (harg8 : arg8.IsWhole) (arg9 : Memref sig .tc .vmem S400x16 .f32) (harg9 : arg9.IsWhole) (arg10 : Memref sig .tc .vmem S10000x128 .bf16) (harg10 : arg10.IsWhole) (hc0 : cond0_0 i) (hc1 : ¬cond0_1 i)
    (x0 : Vec F S10000x128 .f32) (x2 : Vec F S128x128 .bf16) :
    { LS0 : List (View.Piece (Elt F) S10000x128 .bf16) //
      ∀ (E : Set ℕ) (K : PUnit → sProp 𝕄),
        iprop(owns (c : Thread nD τ) arg1 fullShare x0 ∗ owns (c : Thread nD τ) arg3 fullShare x2 ∗ (∃ d, owns (c : Thread nD τ) arg10 fullShare d)
            ∗ (iprop(owns (c : Thread nD τ) arg1 fullShare x0 ∗ owns (c : Thread nD τ) arg3 fullShare x2 ∗ (∃ f, arg10.view.loc (c : Thread nD τ) ↦[arg10.view.set]{fullShare} arg10.view.writes (Elt F) f LS0)) -∗ K ⟨⟩))
          ⊢ wp frame (wpE (defs₀ (F := F)) Variants.none c none) E (cc0__call_a_kernel i arg1 harg1 arg2 harg2 arg3 harg3 arg4 harg4 arg5 harg5 arg6 harg6 arg7 harg7 arg8 harg8 arg9 harg9 arg10 harg10) K } := by
  refine ⟨?_, fun E K => ?run⟩
  case run =>
    simp only [cc0__call_a_kernel_eq_skeleton]; unfold cc0__call_a_kernel_skel
    unfold owns
    iintro ⟨⟨%f0, %hf0, H0⟩, ⟨%f2, %hf2, H2⟩, ⟨%ds, %fs, %hfs, HS⟩, Hk⟩
    obtain rfl := harg1.eq_unread hf0; obtain rfl := harg3.eq_unread hf2; obtain rfl := harg10.eq_unread hfs
    sl_exec (disch := first | exact hc0 | exact hc1)
    sl_step
    iapply Hk
    isplitl [H0]
    · iexists _; isplitr; · ipureintro; exact harg1.read_unread _
      iexact H0
    isplitl [H2]
    · iexists _; isplitr; · ipureintro; exact harg3.read_unread _
      iexact H2
    iexists _; iexact HS

end Cert.KernelIdeal.Hnd

end
-- ==== Proof.FKernelIdeal.R0RunB.lean ====
import proofs.«166769_g37641093382870_cont_sun_c4_266_19_alg».proof.Proof.FKernelIdeal.R0RunA

set_option maxRecDepth 16384

noncomputable section

namespace Cert.KernelIdeal.Hnd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The body at a later point: it loads a row block of the adjacency, the scratch, the bias and the two weight
    blocks, and stores the converted block, the next support rows and the head's partial product; the pieces each
    output ends with are found by the run. -/
noncomputable def run0_B (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S128x16 .bf16) (harg6 : arg6.IsWhole) (arg7 : Memref sig .tc .vmem S400x10000 .bf16) (harg7 : arg7.IsWhole) (arg8 : Memref sig .tc .vmem S400x128 .bf16) (harg8 : arg8.IsWhole) (arg9 : Memref sig .tc .vmem S400x16 .f32) (harg9 : arg9.IsWhole) (arg10 : Memref sig .tc .vmem S10000x128 .bf16) (harg10 : arg10.IsWhole) (hc0 : ¬cond0_0 i) (hc1 : cond0_1 i)
    (x1 : Vec F S400x10000 .f32) (x3 : Vec F S1x128 .f32) (x4 : Vec F S128x128 .bf16) (x5 : Vec F S128x16 .bf16) (xs : Vec F S10000x128 .bf16) :
    Σ' (L6 : List (View.Piece (Elt F) S400x10000 .bf16)) (L7 : List (View.Piece (Elt F) S400x128 .bf16)), { L8 : List (View.Piece (Elt F) S400x16 .f32) //
      ∀ (E : Set ℕ) (K : PUnit → sProp 𝕄),
        iprop(owns (c : Thread nD τ) arg2 fullShare x1 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ (∃ d, owns (c : Thread nD τ) arg9 fullShare d)
            ∗ owns (c : Thread nD τ) arg10 fullShare xs
            ∗ (iprop(owns (c : Thread nD τ) arg2 fullShare x1 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f L8)
                ∗ owns (c : Thread nD τ) arg10 fullShare xs) -∗ K ⟨⟩))
          ⊢ wp frame (wpE (defs₀ (F := F)) Variants.none c none) E (cc0__call_a_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__call_a_kernel_eq_skeleton]; unfold cc0__call_a_kernel_skel
    unfold owns
    iintro ⟨⟨%f1, %hf1, H1⟩, ⟨%f3, %hf3, H3⟩, ⟨%f4, %hf4, H4⟩, ⟨%f5, %hf5, H5⟩, ⟨%d6, %f6, %hf6, H6⟩, ⟨%d7, %f7, %hf7, H7⟩, ⟨%d8, %f8, %hf8, H8⟩, ⟨%fs, %hfs, HS⟩, Hk⟩
    obtain rfl := harg2.eq_unread hf1; obtain rfl := harg4.eq_unread hf3; obtain rfl := harg5.eq_unread hf4; obtain rfl := harg6.eq_unread hf5
    obtain rfl := harg7.eq_unread hf6; obtain rfl := harg8.eq_unread hf7; obtain rfl := harg9.eq_unread hf8; obtain rfl := harg10.eq_unread hfs
    sl_exec (disch := first | exact hc0 | exact hc1)
    sl_step
    iapply Hk
    isplitl [H1]
    · iexists _; isplitr; · ipureintro; exact harg2.read_unread _
      iexact H1
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    iexists _; isplitr; · ipureintro; exact harg10.read_unread _
    iexact HS

end Cert.KernelIdeal.Hnd

end
-- ==== Proof.FKernelIdeal.R0Vals.lean ====
import proofs.«166769_g37641093382870_cont_sun_c4_266_19_alg».proof.Proof.FKernelIdeal.R0RunB
import Idealize.ShloMosaic.Lib.Pipeline.Value

set_option maxRecDepth 16384

noncomputable section

namespace Cert.KernelIdeal.Hnd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

/-! ## Region 0: what the found pieces read back as

Every store of the body goes through the whole-shape rectangle at zero offsets, and every load too: the piece a run
finds is the payload of the loaded contents, and reading the buffer back after the store gives that payload. -/

theorem hz2 : (![0, 0] : Fin 2 → ℕ) = fun _ => 0 := by funext a; fin_cases a <;> rfl

/-- Reading a buffer back after ONE store through the whole-shape rectangle at zero offsets gives the stored payload
    (stated over an abstract shape: nothing here looks at an extent). -/
theorem read_writes_unit_zero {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → (Elt F) e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩),
    View.canon_unit_zero h]

/-- After the first point the scratch reads as the product of the features and the first weight matrix. -/
theorem run0_A_read (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S128x16 .bf16) (harg6 : arg6.IsWhole) (arg7 : Memref sig .tc .vmem S400x10000 .bf16) (harg7 : arg7.IsWhole) (arg8 : Memref sig .tc .vmem S400x128 .bf16) (harg8 : arg8.IsWhole) (arg9 : Memref sig .tc .vmem S400x16 .f32) (harg9 : arg9.IsWhole) (arg10 : Memref sig .tc .vmem S10000x128 .bf16) (harg10 : arg10.IsWhole) (hc0 : cond0_0 i) (hc1 : ¬cond0_1 i)
    (x0 : Vec F S10000x128 .f32) (x2 : Vec F S128x128 .bf16) (f : arg10.view.ty.Contents (Elt F)) :
    arg10.view.read (Elt F) (arg10.view.writes (Elt F) f (run0_A c i arg1 harg1 arg2 harg2 arg3 harg3 arg4 harg4 arg5 harg5 arg6 harg6 arg7 harg7 arg8 harg8 arg9 harg9 arg10 harg10 hc0 hc1 x0 x2).1) = k0_pay1 x0 x2 := by
  unfold run0_A; dsimp only
  rw [read_writes_unit_zero (S := S10000x128) _ _ hz2]
  simp only [View.readAt_eq_ld, Memref.IsWhole.read_unread, View.ld_unit_zero (S := S10000x128) hz2, View.ld_unit_zero (S := S128x128) hz2]

/-- After a later point the first output window reads as the converted adjacency block, -/
theorem run0_B_read6 (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S128x16 .bf16) (harg6 : arg6.IsWhole) (arg7 : Memref sig .tc .vmem S400x10000 .bf16) (harg7 : arg7.IsWhole) (arg8 : Memref sig .tc .vmem S400x128 .bf16) (harg8 : arg8.IsWhole) (arg9 : Memref sig .tc .vmem S400x16 .f32) (harg9 : arg9.IsWhole) (arg10 : Memref sig .tc .vmem S10000x128 .bf16) (harg10 : arg10.IsWhole) (hc0 : ¬cond0_0 i) (hc1 : cond0_1 i)
    (x1 : Vec F S400x10000 .f32) (x3 : Vec F S1x128 .f32) (x4 : Vec F S128x128 .bf16) (x5 : Vec F S128x16 .bf16) (xs : Vec F S10000x128 .bf16)
    (f : arg7.view.ty.Contents (Elt F)) :
    arg7.view.read (Elt F) (arg7.view.writes (Elt F) f (run0_B c i arg1 harg1 arg2 harg2 arg3 harg3 arg4 harg4 arg5 harg5 arg6 harg6 arg7 harg7 arg8 harg8 arg9 harg9 arg10 harg10 hc0 hc1 x1 x3 x4 x5 xs).1) = k0_pay2 x1 := by
  unfold run0_B; dsimp only
  rw [read_writes_unit_zero (S := S400x10000) _ _ hz2]
  simp only [View.readAt_eq_ld, Memref.IsWhole.read_unread, View.ld_unit_zero (S := S400x10000) hz2]

/-- the second as the next layer's support rows, -/
theorem run0_B_read7 (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S128x16 .bf16) (harg6 : arg6.IsWhole) (arg7 : Memref sig .tc .vmem S400x10000 .bf16) (harg7 : arg7.IsWhole) (arg8 : Memref sig .tc .vmem S400x128 .bf16) (harg8 : arg8.IsWhole) (arg9 : Memref sig .tc .vmem S400x16 .f32) (harg9 : arg9.IsWhole) (arg10 : Memref sig .tc .vmem S10000x128 .bf16) (harg10 : arg10.IsWhole) (hc0 : ¬cond0_0 i) (hc1 : cond0_1 i)
    (x1 : Vec F S400x10000 .f32) (x3 : Vec F S1x128 .f32) (x4 : Vec F S128x128 .bf16) (x5 : Vec F S128x16 .bf16) (xs : Vec F S10000x128 .bf16)
    (f : arg8.view.ty.Contents (Elt F)) :
    arg8.view.read (Elt F) (arg8.view.writes (Elt F) f (run0_B c i arg1 harg1 arg2 harg2 arg3 harg3 arg4 harg4 arg5 harg5 arg6 harg6 arg7 harg7 arg8 harg8 arg9 harg9 arg10 harg10 hc0 hc1 x1 x3 x4 x5 xs).2.1) = k0_pay4 x1 xs x3 x4 := by
  unfold run0_B; dsimp only
  rw [read_writes_unit_zero (S := S400x128) _ _ hz2]
  simp only [View.readAt_eq_ld, Memref.IsWhole.read_unread, View.ld_unit_zero (S := S400x10000) hz2, View.ld_unit_zero (S := S10000x128) hz2,
    View.ld_unit_zero (S := S1x128) hz2, View.ld_unit_zero (S := S128x128) hz2]

/-- the third as the head's first partial product. -/
theorem run0_B_read8 (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S128x16 .bf16) (harg6 : arg6.IsWhole) (arg7 : Memref sig .tc .vmem S400x10000 .bf16) (harg7 : arg7.IsWhole) (arg8 : Memref sig .tc .vmem S400x128 .bf16) (harg8 : arg8.IsWhole) (arg9 : Memref sig .tc .vmem S400x16 .f32) (harg9 : arg9.IsWhole) (arg10 : Memref sig .tc .vmem S10000x128 .bf16) (harg10 : arg10.IsWhole) (hc0 : ¬cond0_0 i) (hc1 : cond0_1 i)
    (x1 : Vec F S400x10000 .f32) (x3 : Vec F S1x128 .f32) (x4 : Vec F S128x128 .bf16) (x5 : Vec F S128x16 .bf16) (xs : Vec F S10000x128 .bf16)
    (f : arg9.view.ty.Contents (Elt F)) :
    arg9.view.read (Elt F) (arg9.view.writes (Elt F) f (run0_B c i arg1 harg1 arg2 harg2 arg3 harg3 arg4 harg4 arg5 harg5 arg6 harg6 arg7 harg7 arg8 harg8 arg9 harg9 arg10 harg10 hc0 hc1 x1 x3 x4 x5 xs).2.2.1) = k0_pay5 x1 xs x3 x5 := by
  unfold run0_B; dsimp only
  rw [read_writes_unit_zero (S := S400x16) _ _ hz2]
  simp only [View.readAt_eq_ld, Memref.IsWhole.read_unread, View.ld_unit_zero (S := S400x10000) hz2, View.ld_unit_zero (S := S10000x128) hz2,
    View.ld_unit_zero (S := S1x128) hz2, View.ld_unit_zero (S := S128x16) hz2]

end Cert.KernelIdeal.Hnd

end
-- ==== Proof.FKernelIdeal.R0Frame.lean ====
import proofs.«166769_g37641093382870_cont_sun_c4_266_19_alg».proof.Proof.FKernelIdeal.R0Vals

set_option maxRecDepth 16384

noncomputable section

namespace Cert.KernelIdeal.Hnd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

/-! # Region 0 (the first pallas_call), at the contents `V` its arrays hold when it is entered

The proof data name what every staging buffer holds after the body at every point: an input window its block; an
output window, at every point but the first, the payload of the point's input blocks and of the scratch; the scratch,
from the first point on, the product of the features and the first weight matrix. At the first point the three output
windows are idle and are not written back. -/

section R0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The staging memrefs and the scratch -/

abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S400x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x16 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S400x10000 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S400x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S400x16 .f32 := win0_8.stage (cfg0.slots t 8)
abbrev hs0_8 (t : Fin cfg0.N) : (ms0_8 t).IsWhole := hstage0_8 ((cfg0.slots t 8).cast nbuf0_8)
abbrev scM0 : Memref sig .tc .vmem S10000x128 .bf16 := Memref.whole cc0_scratch0

/-- The grid's first point. -/
abbrev t0_0 : Fin cfg0.N := ⟨0, by rw [show cfg0.N = 26 from N_0]; omega⟩

/-! ## Where the output windows are idle -/

theorem idleAt0_6 : ∀ t : Fin cfg0.N, t.val = 0 → cfg0.idle 6 (grid0.coords t) = true := by decide +kernel
theorem idleAt0_7 : ∀ t : Fin cfg0.N, t.val = 0 → cfg0.idle 7 (grid0.coords t) = true := by decide +kernel
theorem idleAt0_8 : ∀ t : Fin cfg0.N, t.val = 0 → cfg0.idle 8 (grid0.coords t) = true := by decide +kernel
theorem noFlush0_6 : ∀ t : Fin cfg0.N, t.val = 0 → (cfg0.win 6).flush t = false := by decide +kernel
theorem noFlush0_7 : ∀ t : Fin cfg0.N, t.val = 0 → (cfg0.win 7).flush t = false := by decide +kernel
theorem noFlush0_8 : ∀ t : Fin cfg0.N, t.val = 0 → (cfg0.win 8).flush t = false := by decide +kernel
theorem liveAt0_6 : ∀ t : Fin cfg0.N, t.val ≠ 0 → cfg0.idle 6 (grid0.coords t) = false := by decide +kernel
theorem liveAt0_7 : ∀ t : Fin cfg0.N, t.val ≠ 0 → cfg0.idle 7 (grid0.coords t) = false := by decide +kernel
theorem liveAt0_8 : ∀ t : Fin cfg0.N, t.val ≠ 0 → cfg0.idle 8 (grid0.coords t) = false := by decide +kernel

/-! ## What the scratch and the output windows hold -/

/-- The support matrix of the first layer: features times the first weight matrix, as the first point leaves it
    in the scratch. -/
def S0 (c : Dev nD) : Vec F S10000x128 .bf16 := k0_pay1 (iblk0 V c 0 t0_0) (iblk0 V c 2 t0_0)

/-- The converted adjacency block, -/
def out0_6 (c : Dev nD) (t : Fin cfg0.N) : Vec F S400x10000 .bf16 := k0_pay2 (iblk0 V c 1 t)
/-- the next layer's support rows, -/
def out0_7 (c : Dev nD) (t : Fin cfg0.N) : Vec F S400x128 .bf16 := k0_pay4 (iblk0 V c 1 t) (S0 V c) (iblk0 V c 3 t) (iblk0 V c 4 t)
/-- and the head's first partial product, of a later point's blocks. -/
def out0_8 (c : Dev nD) (t : Fin cfg0.N) : Vec F S400x16 .f32 := k0_pay5 (iblk0 V c 1 t) (S0 V c) (iblk0 V c 3 t) (iblk0 V c 5 t)

/-- The scoped rest split at the call's own scratch. -/
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

/-- What rides beside the scratch in the invariant: every other scoped buffer that is no staging buffer of this call. -/
abbrev rest0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA; rw [scopedRest0_split]; simp only [scM0, owns_whole]; try rfl

/-- The invariant between points: before the first the class's; afterwards the scratch at the support matrix. -/
def Phi0 (c : Dev nD) : ℕ → sProp 𝕄
  | 0 => Pipeline.ΦA spec0 c
  | _ + 1 => iprop(iprop(owns (c : Thread nD τ) scM0 fullShare (S0 V c) ∗ rest0 c) ∗ (∃ r, prngReg c r))

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 V c t
    | ⟨7, _⟩ => out0_7 V c t
    | ⟨8, _⟩ => out0_8 V c t
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 V c t := by dsimp only [dat0]
theorem after0_7 (c : Dev nD) (t : Fin cfg0.N) : (dat0 V c).after 7 t = out0_7 V c t := by dsimp only [dat0]
theorem after0_8 (c : Dev nD) (t : Fin cfg0.N) : (dat0 V c).after 8 t = out0_8 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

theorem liveIn0 : ∀ (w : Fin cfg0.W) (t : Fin cfg0.N), w.val < 6 → cfg0.idle w (grid0.coords t) = false := by decide +kernel

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = Phi0 V c (t.val + 1) from rfl, show (dat0 V c).Φ t.castSucc = Phi0 V c t.val from rfl]
  rw [show (dat0 V c).leavesExact 0 t = owns (c : Thread nD τ) (ms0_0 t) fullShare ((dat0 V c).after 0 t) from by
    unfold Dat.leavesExact; rw [liveIn0 0 t (by decide)], after0_0]
  rw [show (dat0 V c).leavesExact 1 t = owns (c : Thread nD τ) (ms0_1 t) fullShare ((dat0 V c).after 1 t) from by
    unfold Dat.leavesExact; rw [liveIn0 1 t (by decide)], after0_1]
  rw [show (dat0 V c).leavesExact 2 t = owns (c : Thread nD τ) (ms0_2 t) fullShare ((dat0 V c).after 2 t) from by
    unfold Dat.leavesExact; rw [liveIn0 2 t (by decide)], after0_2]
  rw [show (dat0 V c).leavesExact 3 t = owns (c : Thread nD τ) (ms0_3 t) fullShare ((dat0 V c).after 3 t) from by
    unfold Dat.leavesExact; rw [liveIn0 3 t (by decide)], after0_3]
  rw [show (dat0 V c).leavesExact 4 t = owns (c : Thread nD τ) (ms0_4 t) fullShare ((dat0 V c).after 4 t) from by
    unfold Dat.leavesExact; rw [liveIn0 4 t (by decide)], after0_4]
  rw [show (dat0 V c).leavesExact 5 t = owns (c : Thread nD τ) (ms0_5 t) fullShare ((dat0 V c).after 5 t) from by
    unfold Dat.leavesExact; rw [liveIn0 5 t (by decide)], after0_5]
  by_cases hz : t.val = 0
  · have hc0 : cond0_0 (grid0.coords t) := (hcond0_0 t).mpr hz
    have hc1 : ¬cond0_1 (grid0.coords t) := fun h => (hcond0_1 t).mp h hz
    have ht : t = t0_0 := Fin.ext hz
    rw [Dat.leavesExact_idle (dat0 V c) 6 t (idleAt0_6 t hz) (noFlush0_6 t hz),
      Dat.leavesExact_idle (dat0 V c) 7 t (idleAt0_7 t hz) (noFlush0_7 t hz),
      Dat.leavesExact_idle (dat0 V c) 8 t (idleAt0_8 t hz) (noFlush0_8 t hz)]
    rw [show Phi0 V c t.val = Pipeline.ΦA spec0 c from by rw [hz]; rfl, PhiA0_eq]
    rw [show Phi0 V c (t.val + 1) = iprop(iprop(owns (c : Thread nD τ) scM0 fullShare (S0 V c) ∗ rest0 c) ∗ (∃ r, prngReg c r)) from rfl]
    iintro ⟨⟨⟨HS, Hrest⟩, Hg⟩, Ho, ⟨%d0, H0⟩, ⟨%d1, H1⟩, ⟨%d2, H2⟩, ⟨%d3, H3⟩, ⟨%d4, H4⟩, ⟨%d5, H5⟩, H6, H7, H8⟩
    iapply ((run0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _) hc0 hc1 (iblk0 V c 0 t) (iblk0 V c 2 t)).2 Set.univ _)
    isplitl [H0]; · iexact H0
    isplitl [H2]; · iexact H2
    isplitl [HS]; · iexact HS
    iintro ⟨H0, H2, ⟨%fs, HS⟩⟩
    isplitl [HS Hrest Hg]
    · isplitl [HS Hrest]
      · isplitl [HS]
        · unfold owns; iexists _; isplitr
          swap; · iexact HS
          ipureintro
          rw [run0_A_read, ht]; rfl
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hc0 : ¬cond0_0 (grid0.coords t) := fun h => hz ((hcond0_0 t).mp h)
    have hc1 : cond0_1 (grid0.coords t) := (hcond0_1 t).mpr hz
    rw [show (dat0 V c).leavesExact 6 t = owns (c : Thread nD τ) (ms0_6 t) fullShare ((dat0 V c).after 6 t) from by
      unfold Dat.leavesExact; rw [liveAt0_6 t hz], after0_6]
    rw [show (dat0 V c).leavesExact 7 t = owns (c : Thread nD τ) (ms0_7 t) fullShare ((dat0 V c).after 7 t) from by
      unfold Dat.leavesExact; rw [liveAt0_7 t hz], after0_7]
    rw [show (dat0 V c).leavesExact 8 t = owns (c : Thread nD τ) (ms0_8 t) fullShare ((dat0 V c).after 8 t) from by
      unfold Dat.leavesExact; rw [liveAt0_8 t hz], after0_8]
    obtain ⟨n, hn⟩ : ∃ n, t.val = n + 1 := Nat.exists_eq_succ_of_ne_zero hz
    rw [show Phi0 V c t.val = iprop(iprop(owns (c : Thread nD τ) scM0 fullShare (S0 V c) ∗ rest0 c) ∗ (∃ r, prngReg c r)) from by rw [hn]; rfl]
    rw [show Phi0 V c (t.val + 1) = iprop(iprop(owns (c : Thread nD τ) scM0 fullShare (S0 V c) ∗ rest0 c) ∗ (∃ r, prngReg c r)) from rfl]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((run0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _) hc0 hc1 (iblk0 V c 1 t) (iblk0 V c 3 t) (iblk0 V c 4 t) (iblk0 V c 5 t) (S0 V c)).2.2.2 Set.univ _)
    isplitl [H1]; · iexact H1
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS]; · iexact HS
    iintro ⟨H1, H3, H4, H5, ⟨%f6, H6⟩, ⟨%f7, H7⟩, ⟨%f8, H8⟩, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; rw [run0_B_read6]; rfl
    isplitl [H7]
    · unfold owns; iexists _; isplitr
      swap; · iexact H7
      ipureintro; rw [run0_B_read7]; rfl
    unfold owns; iexists _; isplitr
    swap; · iexact H8
    ipureintro; rw [run0_B_read8]; rfl

/-- The library's body obligation, at every point. -/
theorem body_obligation0 (c : Dev nD) : BodyObligation (dat0 (F := F) V c) (defs₀ (F := F)) Variants.none () Set.univ := fun t => by
  rw [bigSep_W0, bigSep_W0]
  exact sound_body0 V c t

end R0

end Cert.KernelIdeal.Hnd

end
-- ==== Proof.FKernelIdeal.R1RunA.lean ====
import proofs.«166769_g37641093382870_cont_sun_c4_266_19_alg».proof.Proof.Gen.KernelIdeal.Launch
import proofs.«166769_g37641093382870_cont_sun_c4_266_19_alg».proof.Proof.Gen.KernelIdeal.Skeleton
import proofs.«166769_g37641093382870_cont_sun_c4_266_19_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hnd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

/-! ## Region 1: the branch conditions of the body, decided over the grid -/

/-- The first branch (layer two, kept in scratch) is taken in the first pass over the row blocks. -/
abbrev cond1_0 (i : grid1.Coords) : Prop := k1_cond1 i = 1#1
theorem hcond1_0 : ∀ t : Fin cfg1.N, cond1_0 (grid1.coords t) ↔ t.val < 10 :=
  (by decide +kernel : ∀ t : Fin grid1.N, cond1_0 (grid1.coords t) ↔ t.val < 10)

/-- The second branch (layer three and the finale) is taken in the second pass. -/
abbrev cond1_1 (i : grid1.Coords) : Prop := k1_cond2 i = 1#1
theorem hcond1_1 : ∀ t : Fin cfg1.N, cond1_1 (grid1.coords t) ↔ 10 ≤ t.val :=
  (by decide +kernel : ∀ t : Fin grid1.N, cond1_1 (grid1.coords t) ↔ 10 ≤ t.val)

set_option maxHeartbeats 2000000 in
/-- The body in the first pass: it loads a row block of the converted adjacency, the support matrix, the bias and the
    weights, and stores one row slab into each of the two scratch buffers; the pieces are found by the run. -/
noncomputable def run1_A (c : Dev nD) (i : grid1.Coords) (arg2 : Memref sig .tc .vmem S1000x10000 .bf16) (harg2 : arg2.IsWhole) (arg3 : Memref sig .tc .vmem S10000x128 .bf16) (harg3 : arg3.IsWhole) (arg4 : Memref sig .tc .vmem S1000x16 .f32) (harg4 : arg4.IsWhole) (arg5 : Memref sig .tc .vmem S1x1x128 .f32) (harg5 : arg5.IsWhole) (arg6 : Memref sig .tc .vmem S128x128 .bf16) (harg6 : arg6.IsWhole) (arg7 : Memref sig .tc .vmem S1x128x16 .bf16) (harg7 : arg7.IsWhole) (arg8 : Memref sig .tc .vmem S1x16 .f32) (harg8 : arg8.IsWhole) (arg9 : Memref sig .tc .vmem S1x1000x16 .f32) (harg9 : arg9.IsWhole) (arg10 : Memref sig .tc .vmem S10000x128 .bf16) (harg10 : arg10.IsWhole) (arg11 : Memref sig .tc .vmem S10000x16 .f32) (harg11 : arg11.IsWhole) (hc0 : cond1_0 i) (hc1 : ¬cond1_1 i)
    (x0 : Vec F S1000x10000 .bf16) (x1 : Vec F S10000x128 .bf16) (x3 : Vec F S1x1x128 .f32) (x4 : Vec F S128x128 .bf16) (x5 : Vec F S1x128x16 .bf16)
    (xs10 : Vec F S10000x128 .bf16) (xs11 : Vec F S10000x16 .f32) :
    Σ' (L10 : List (View.Piece (Elt F) S10000x128 .bf16)), { L11 : List (View.Piece (Elt F) S10000x16 .f32) //
      ∀ (E : Set ℕ) (K : PUnit → sProp 𝕄),
        iprop(owns (c : Thread nD τ) arg2 fullShare x0 ∗ owns (c : Thread nD τ) arg3 fullShare x1 ∗ owns (c : Thread nD τ) arg5 fullShare x3 ∗ owns (c : Thread nD τ) arg6 fullShare x4 ∗ owns (c : Thread nD τ) arg7 fullShare x5
            ∗ owns (c : Thread nD τ) arg10 fullShare xs10 ∗ owns (c : Thread nD τ) arg11 fullShare xs11
            ∗ (iprop(owns (c : Thread nD τ) arg2 fullShare x0 ∗ owns (c : Thread nD τ) arg3 fullShare x1 ∗ owns (c : Thread nD τ) arg5 fullShare x3 ∗ owns (c : Thread nD τ) arg6 fullShare x4 ∗ owns (c : Thread nD τ) arg7 fullShare x5
                ∗ (arg10.view.loc (c : Thread nD τ) ↦[arg10.view.set]{fullShare} arg10.view.writes (Elt F) (harg10.unread xs10) L10)
                ∗ (arg11.view.loc (c : Thread nD τ) ↦[arg11.view.set]{fullShare} arg11.view.writes (Elt F) (harg11.unread xs11) L11)) -∗ K ⟨⟩))
          ⊢ wp frame (wpE (defs₀ (F := F)) Variants.none c none) E (cc1__call_b_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc1__call_b_kernel_eq_skeleton]; unfold cc1__call_b_kernel_skel
    unfold owns
    iintro ⟨⟨%f0, %hf0, H0⟩, ⟨%f1, %hf1, H1⟩, ⟨%f3, %hf3, H3⟩, ⟨%f4, %hf4, H4⟩, ⟨%f5, %hf5, H5⟩, ⟨%fs10, %hfs10, HS10⟩, ⟨%fs11, %hfs11, HS11⟩, Hk⟩
    obtain rfl := harg2.eq_unread hf0; obtain rfl := harg3.eq_unread hf1; obtain rfl := harg5.eq_unread hf3; obtain rfl := harg6.eq_unread hf4
    obtain rfl := harg7.eq_unread hf5; obtain rfl := harg10.eq_unread hfs10; obtain rfl := harg11.eq_unread hfs11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS10]; · iexact HS10
    iexact HS11

end Cert.KernelIdeal.Hnd

end
-- ==== Proof.FKernelIdeal.R1RunB.lean ====
import proofs.«166769_g37641093382870_cont_sun_c4_266_19_alg».proof.Proof.FKernelIdeal.R1RunA

set_option maxRecDepth 16384

noncomputable section

namespace Cert.KernelIdeal.Hnd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The body in the second pass: it loads a row block of the converted adjacency, both scratch buffers (one whole, one
    row slab), the head's earlier partial product, the bias and the weights, and stores the block's log-softmax into the
    output window; the pieces are found by the run. -/
noncomputable def run1_B (c : Dev nD) (i : grid1.Coords) (arg2 : Memref sig .tc .vmem S1000x10000 .bf16) (harg2 : arg2.IsWhole) (arg3 : Memref sig .tc .vmem S10000x128 .bf16) (harg3 : arg3.IsWhole) (arg4 : Memref sig .tc .vmem S1000x16 .f32) (harg4 : arg4.IsWhole) (arg5 : Memref sig .tc .vmem S1x1x128 .f32) (harg5 : arg5.IsWhole) (arg6 : Memref sig .tc .vmem S128x128 .bf16) (harg6 : arg6.IsWhole) (arg7 : Memref sig .tc .vmem S1x128x16 .bf16) (harg7 : arg7.IsWhole) (arg8 : Memref sig .tc .vmem S1x16 .f32) (harg8 : arg8.IsWhole) (arg9 : Memref sig .tc .vmem S1x1000x16 .f32) (harg9 : arg9.IsWhole) (arg10 : Memref sig .tc .vmem S10000x128 .bf16) (harg10 : arg10.IsWhole) (arg11 : Memref sig .tc .vmem S10000x16 .f32) (harg11 : arg11.IsWhole) (hc0 : ¬cond1_0 i) (hc1 : cond1_1 i)
    (x0 : Vec F S1000x10000 .bf16) (x2 : Vec F S1000x16 .f32) (x3 : Vec F S1x1x128 .f32) (x5 : Vec F S1x128x16 .bf16) (x6 : Vec F S1x16 .f32)
    (xs10 : Vec F S10000x128 .bf16) (xs11 : Vec F S10000x16 .f32) :
    { L9 : List (View.Piece (Elt F) S1x1000x16 .f32) //
      ∀ (E : Set ℕ) (K : PUnit → sProp 𝕄),
        iprop(owns (c : Thread nD τ) arg2 fullShare x0 ∗ owns (c : Thread nD τ) arg4 fullShare x2 ∗ owns (c : Thread nD τ) arg5 fullShare x3 ∗ owns (c : Thread nD τ) arg7 fullShare x5 ∗ owns (c : Thread nD τ) arg8 fullShare x6
            ∗ (∃ d, owns (c : Thread nD τ) arg9 fullShare d)
            ∗ owns (c : Thread nD τ) arg10 fullShare xs10 ∗ owns (c : Thread nD τ) arg11 fullShare xs11
            ∗ (iprop(owns (c : Thread nD τ) arg2 fullShare x0 ∗ owns (c : Thread nD τ) arg4 fullShare x2 ∗ owns (c : Thread nD τ) arg5 fullShare x3 ∗ owns (c : Thread nD τ) arg7 fullShare x5 ∗ owns (c : Thread nD τ) arg8 fullShare x6
                ∗ (∃ f, arg9.view.loc (c : Thread nD τ) ↦[arg9.view.set]{fullShare} arg9.view.writes (Elt F) f L9)
                ∗ owns (c : Thread nD τ) arg10 fullShare xs10 ∗ owns (c : Thread nD τ) arg11 fullShare xs11) -∗ K ⟨⟩))
          ⊢ wp frame (wpE (defs₀ (F := F)) Variants.none c none) E (cc1__call_b_kernel i arg2 harg2 arg3 harg3 arg4 harg4 arg5 harg5 arg6 harg6 arg7 harg7 arg8 harg8 arg9 harg9 arg10 harg10 arg11 harg11) K } := by
  refine ⟨?_, fun E K => ?run⟩
  case run =>
    simp only [cc1__call_b_kernel_eq_skeleton]; unfold cc1__call_b_kernel_skel
    simp only [k1_part1_eq_skeleton]
    unfold owns
    iintro ⟨⟨%f0, %hf0, H0⟩, ⟨%f2, %hf2, H2⟩, ⟨%f3, %hf3, H3⟩, ⟨%f5, %hf5, H5⟩, ⟨%f6, %hf6, H6⟩, ⟨%d9, %f9, %hf9, H9⟩, ⟨%fs10, %hfs10, HS10⟩, ⟨%fs11, %hfs11, HS11⟩, Hk⟩
    obtain rfl := harg2.eq_unread hf0; obtain rfl := harg4.eq_unread hf2; obtain rfl := harg5.eq_unread hf3
    obtain rfl := harg7.eq_unread hf5; obtain rfl := harg8.eq_unread hf6; obtain rfl := harg9.eq_unread hf9
    obtain rfl := harg10.eq_unread hfs10; obtain rfl := harg11.eq_unread hfs11
    sl_exec (disch := first | exact hc0 | exact hc1)
    sl_step
    iapply Hk
    isplitl [H0]
    · iexists _; isplitr; · ipureintro; exact harg2.read_unread _
      iexact H0
    isplitl [H2]
    · iexists _; isplitr; · ipureintro; exact harg4.read_unread _
      iexact H2
    isplitl [H3]
    · iexists _; isplitr; · ipureintro; exact harg5.read_unread _
      iexact H3
    isplitl [H5]
    · iexists _; isplitr; · ipureintro; exact harg7.read_unread _
      iexact H5
    isplitl [H6]
    · iexists _; isplitr; · ipureintro; exact harg8.read_unread _
      iexact H6
    isplitl [H9]; · iexists _; iexact H9
    isplitl [HS10]
    · iexists _; isplitr; · ipureintro; exact harg10.read_unread _
      iexact HS10
    iexists _; isplitr; · ipureintro; exact harg11.read_unread _
    iexact HS11

end Cert.KernelIdeal.Hnd

end
-- ==== Proof.FKernelIdeal.R1Vals.lean ====
import proofs.«166769_g37641093382870_cont_sun_c4_266_19_alg».proof.Proof.FKernelIdeal.R1RunB
import proofs.«166769_g37641093382870_cont_sun_c4_266_19_alg».proof.Proof.FKernelIdeal.R0Vals

set_option maxRecDepth 16384

noncomputable section

namespace Cert.KernelIdeal.Hnd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

/-! ## Region 1: the pieces the runs found, with the loaded contents read back -/

theorem hz3 : (![0, 0, 0] : Fin 3 → ℕ) = fun _ => 0 := by funext a; fin_cases a <;> rfl

/-- In the first pass the body stores, into the first scratch, ONE row slab at the block's offset: the next layer's
    support rows of this block. -/
theorem run1_A_L10 (c : Dev nD) (i : grid1.Coords) (arg2 : Memref sig .tc .vmem S1000x10000 .bf16) (harg2 : arg2.IsWhole) (arg3 : Memref sig .tc .vmem S10000x128 .bf16) (harg3 : arg3.IsWhole) (arg4 : Memref sig .tc .vmem S1000x16 .f32) (harg4 : arg4.IsWhole) (arg5 : Memref sig .tc .vmem S1x1x128 .f32) (harg5 : arg5.IsWhole) (arg6 : Memref sig .tc .vmem S128x128 .bf16) (harg6 : arg6.IsWhole) (arg7 : Memref sig .tc .vmem S1x128x16 .bf16) (harg7 : arg7.IsWhole) (arg8 : Memref sig .tc .vmem S1x16 .f32) (harg8 : arg8.IsWhole) (arg9 : Memref sig .tc .vmem S1x1000x16 .f32) (harg9 : arg9.IsWhole) (arg10 : Memref sig .tc .vmem S10000x128 .bf16) (harg10 : arg10.IsWhole) (arg11 : Memref sig .tc .vmem S10000x16 .f32) (harg11 : arg11.IsWhole) (hc0 : cond1_0 i) (hc1 : ¬cond1_1 i)
    (x0 : Vec F S1000x10000 .bf16) (x1 : Vec F S10000x128 .bf16) (x3 : Vec F S1x1x128 .f32) (x4 : Vec F S128x128 .bf16) (x5 : Vec F S1x128x16 .bf16)
    (xs10 : Vec F S10000x128 .bf16) (xs11 : Vec F S10000x16 .f32) :
    (run1_A c i arg2 harg2 arg3 harg3 arg4 harg4 arg5 harg5 arg6 harg6 arg7 harg7 arg8 harg8 arg9 harg9 arg10 harg10 arg11 harg11 hc0 hc1 x0 x1 x3 x4 x5 xs10 xs11).1 = [(⟨Rect.unit (s := S10000x128) (k1_off1 i) S1000x128.size (k1_off1_inb i hc0), k1_pay2 x0 x1 x3 x4⟩ : View.Piece (Elt F) S10000x128 .bf16)] := by
  unfold run1_A; dsimp only
  simp only [View.readAt_eq_ld, Memref.IsWhole.read_unread, View.ld_unit_zero (S := S1000x10000) hz2, View.ld_unit_zero (S := S10000x128) hz2,
    View.ld_unit_zero (S := S1x1x128) hz3, View.ld_unit_zero (S := S128x128) hz2]

/-- and, into the second scratch, the head's partial product of this block's rows. -/
theorem run1_A_L11 (c : Dev nD) (i : grid1.Coords) (arg2 : Memref sig .tc .vmem S1000x10000 .bf16) (harg2 : arg2.IsWhole) (arg3 : Memref sig .tc .vmem S10000x128 .bf16) (harg3 : arg3.IsWhole) (arg4 : Memref sig .tc .vmem S1000x16 .f32) (harg4 : arg4.IsWhole) (arg5 : Memref sig .tc .vmem S1x1x128 .f32) (harg5 : arg5.IsWhole) (arg6 : Memref sig .tc .vmem S128x128 .bf16) (harg6 : arg6.IsWhole) (arg7 : Memref sig .tc .vmem S1x128x16 .bf16) (harg7 : arg7.IsWhole) (arg8 : Memref sig .tc .vmem S1x16 .f32) (harg8 : arg8.IsWhole) (arg9 : Memref sig .tc .vmem S1x1000x16 .f32) (harg9 : arg9.IsWhole) (arg10 : Memref sig .tc .vmem S10000x128 .bf16) (harg10 : arg10.IsWhole) (arg11 : Memref sig .tc .vmem S10000x16 .f32) (harg11 : arg11.IsWhole) (hc0 : cond1_0 i) (hc1 : ¬cond1_1 i)
    (x0 : Vec F S1000x10000 .bf16) (x1 : Vec F S10000x128 .bf16) (x3 : Vec F S1x1x128 .f32) (x4 : Vec F S128x128 .bf16) (x5 : Vec F S1x128x16 .bf16)
    (xs10 : Vec F S10000x128 .bf16) (xs11 : Vec F S10000x16 .f32) :
    (run1_A c i arg2 harg2 arg3 harg3 arg4 harg4 arg5 harg5 arg6 harg6 arg7 harg7 arg8 harg8 arg9 harg9 arg10 harg10 arg11 harg11 hc0 hc1 x0 x1 x3 x4 x5 xs10 xs11).2.1 = [(⟨Rect.unit (s := S10000x16) (k1_off2 i) S1000x16.size (k1_off2_inb i hc0), k1_pay3 x0 x1 x3 x5⟩ : View.Piece (Elt F) S10000x16 .f32)] := by
  unfold run1_A; dsimp only
  simp only [View.readAt_eq_ld, Memref.IsWhole.read_unread, View.ld_unit_zero (S := S1000x10000) hz2, View.ld_unit_zero (S := S10000x128) hz2,
    View.ld_unit_zero (S := S1x1x128) hz3, View.ld_unit_zero (S := S1x128x16) hz3]

/-- In the second pass the output window reads back as the block's log-softmax: the payload of the block's inputs, of
    the whole first scratch and of this block's slab of the second. -/
theorem run1_B_read9 (c : Dev nD) (i : grid1.Coords) (arg2 : Memref sig .tc .vmem S1000x10000 .bf16) (harg2 : arg2.IsWhole) (arg3 : Memref sig .tc .vmem S10000x128 .bf16) (harg3 : arg3.IsWhole) (arg4 : Memref sig .tc .vmem S1000x16 .f32) (harg4 : arg4.IsWhole) (arg5 : Memref sig .tc .vmem S1x1x128 .f32) (harg5 : arg5.IsWhole) (arg6 : Memref sig .tc .vmem S128x128 .bf16) (harg6 : arg6.IsWhole) (arg7 : Memref sig .tc .vmem S1x128x16 .bf16) (harg7 : arg7.IsWhole) (arg8 : Memref sig .tc .vmem S1x16 .f32) (harg8 : arg8.IsWhole) (arg9 : Memref sig .tc .vmem S1x1000x16 .f32) (harg9 : arg9.IsWhole) (arg10 : Memref sig .tc .vmem S10000x128 .bf16) (harg10 : arg10.IsWhole) (arg11 : Memref sig .tc .vmem S10000x16 .f32) (harg11 : arg11.IsWhole) (hc0 : ¬cond1_0 i) (hc1 : cond1_1 i)
    (x0 : Vec F S1000x10000 .bf16) (x2 : Vec F S1000x16 .f32) (x3 : Vec F S1x1x128 .f32) (x5 : Vec F S1x128x16 .bf16) (x6 : Vec F S1x16 .f32)
    (xs10 : Vec F S10000x128 .bf16) (xs11 : Vec F S10000x16 .f32) (f : arg9.view.ty.Contents (Elt F)) :
    arg9.view.read (Elt F) (arg9.view.writes (Elt F) f (run1_B c i arg2 harg2 arg3 harg3 arg4 harg4 arg5 harg5 arg6 harg6 arg7 harg7 arg8 harg8 arg9 harg9 arg10 harg10 arg11 harg11 hc0 hc1 x0 x2 x3 x5 x6 xs10 xs11).1)
      = k1_pay4 (k1_pay5 x0 xs10 x3 x5 x2 (View.ld xs11 (Rect.unit (s := S10000x16) (k1_off3 i) S1000x16.size (k1_off3_inb i hc1))) x6) := by
  unfold run1_B; dsimp only
  rw [read_writes_unit_zero (S := S1x1000x16) _ _ hz3]
  unfold run1_B.sl.r
  simp only [View.readAt_eq_ld, Memref.IsWhole.read_unread, View.ld_unit_zero (S := S1000x10000) hz2, View.ld_unit_zero (S := S10000x128) hz2,
    View.ld_unit_zero (S := S1x1x128) hz3, View.ld_unit_zero (S := S1x128x16) hz3, View.ld_unit_zero (S := S1000x16) hz2, View.ld_unit_zero (S := S1x16) hz2]

end Cert.KernelIdeal.Hnd

end
-- ==== Proof.FKernelIdeal.R1Scratch.lean ====
import proofs.«166769_g37641093382870_cont_sun_c4_266_19_alg».proof.Proof.FKernelIdeal.R1Vals

set_option maxRecDepth 16384

noncomputable section

namespace Cert.KernelIdeal.Hnd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

/-! # Region 1 (the second pallas_call): its blocks, and what its two scratch buffers hold

In the first pass over the ten row blocks the body stores, at block `j`, one slab of rows into each scratch: the third
layer's support rows and the head's second partial product. After the pass the ten slabs tile each scratch, whatever it
held before. -/

section R1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev ms1_0 (t : Fin cfg1.N) : Memref sig .tc .vmem S1000x10000 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10000x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1000x16 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128x16 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x16 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x1000x16 .f32 := win1_7.stage (cfg1.slots t 7)
abbrev hs1_7 (t : Fin cfg1.N) : (ms1_7 t).IsWhole := hstage1_7 ((cfg1.slots t 7).cast nbuf1_7)
abbrev scM1_0 : Memref sig .tc .vmem S10000x128 .bf16 := Memref.whole cc1_scratch0
abbrev scM1_1 : Memref sig .tc .vmem S10000x16 .f32 := Memref.whole cc1_scratch1
abbrev hsc1_0 : (scM1_0).IsWhole := Memref.isWhole_whole _
abbrev hsc1_1 : (scM1_1).IsWhole := Memref.isWhole_whole _

/-- Point `j` of the first pass. -/
abbrev tj (j : ℕ) (hj : j < 10) : Fin cfg1.N := ⟨j, by rw [show cfg1.N = 20 from N_1]; omega⟩

theorem tj_cond (j : ℕ) (hj : j < 10) : cond1_0 (grid1.coords (tj j hj)) := (hcond1_0 _).mpr hj

/-- The slab block `j` stores into the first scratch: the third layer's support rows of the block. -/
def piece10 (c : Dev nD) (j : ℕ) (hj : j < 10) : View.Piece (Elt F) S10000x128 .bf16 :=
  ⟨Rect.unit (s := S10000x128) (k1_off1 (grid1.coords (tj j hj))) S1000x128.size (k1_off1_inb _ (tj_cond j hj)),
    k1_pay2 (iblk1 V c 0 (tj j hj)) (iblk1 V c 1 (tj j hj)) (iblk1 V c 3 (tj j hj)) (iblk1 V c 4 (tj j hj))⟩

/-- The slab block `j` stores into the second scratch: the head's second partial product of the block's rows. -/
def piece11 (c : Dev nD) (j : ℕ) (hj : j < 10) : View.Piece (Elt F) S10000x16 .f32 :=
  ⟨Rect.unit (s := S10000x16) (k1_off2 (grid1.coords (tj j hj))) S1000x16.size (k1_off2_inb _ (tj_cond j hj)),
    k1_pay3 (iblk1 V c 0 (tj j hj)) (iblk1 V c 1 (tj j hj)) (iblk1 V c 3 (tj j hj)) (iblk1 V c 5 (tj j hj))⟩

/-- The slabs stored before point `k`, the last first. -/
def pieces10 (c : Dev nD) : ℕ → List (View.Piece (Elt F) S10000x128 .bf16)
  | 0 => []
  | k + 1 => if h : k < 10 then piece10 V c k h :: pieces10 c k else pieces10 c k
def pieces11 (c : Dev nD) : ℕ → List (View.Piece (Elt F) S10000x16 .f32)
  | 0 => []
  | k + 1 => if h : k < 10 then piece11 V c k h :: pieces11 c k else pieces11 c k

theorem pieces10_succ (c : Dev nD) (k : ℕ) (h : k < 10) : pieces10 V c (k + 1) = piece10 V c k h :: pieces10 V c k := by
  rw [pieces10, dif_pos h]
theorem pieces11_succ (c : Dev nD) (k : ℕ) (h : k < 10) : pieces11 V c (k + 1) = piece11 V c k h :: pieces11 V c k := by
  rw [pieces11, dif_pos h]
theorem pieces10_stable (c : Dev nD) (k : ℕ) (h : 10 ≤ k) : pieces10 V c (k + 1) = pieces10 V c k := by
  rw [pieces10, dif_neg (by omega)]
theorem pieces11_stable (c : Dev nD) (k : ℕ) (h : 10 ≤ k) : pieces11 V c (k + 1) = pieces11 V c k := by
  rw [pieces11, dif_neg (by omega)]

theorem pieces10_ten (c : Dev nD) : pieces10 V c 10 = [piece10 V c 9 (by omega), piece10 V c 8 (by omega), piece10 V c 7 (by omega), piece10 V c 6 (by omega), piece10 V c 5 (by omega), piece10 V c 4 (by omega), piece10 V c 3 (by omega), piece10 V c 2 (by omega), piece10 V c 1 (by omega), piece10 V c 0 (by omega)] :=
  ((pieces10_succ V c 9 (by omega)).trans (congrArg (List.cons _) ((pieces10_succ V c 8 (by omega)).trans (congrArg (List.cons _) ((pieces10_succ V c 7 (by omega)).trans (congrArg (List.cons _) ((pieces10_succ V c 6 (by omega)).trans (congrArg (List.cons _) ((pieces10_succ V c 5 (by omega)).trans (congrArg (List.cons _) ((pieces10_succ V c 4 (by omega)).trans (congrArg (List.cons _) ((pieces10_succ V c 3 (by omega)).trans (congrArg (List.cons _) ((pieces10_succ V c 2 (by omega)).trans (congrArg (List.cons _) ((pieces10_succ V c 1 (by omega)).trans (congrArg (List.cons _) ((pieces10_succ V c 0 (by omega)).trans (congrArg (List.cons _) (show pieces10 V c 0 = [] from rfl)))))))))))))))))))))
theorem pieces11_ten (c : Dev nD) : pieces11 V c 10 = [piece11 V c 9 (by omega), piece11 V c 8 (by omega), piece11 V c 7 (by omega), piece11 V c 6 (by omega), piece11 V c 5 (by omega), piece11 V c 4 (by omega), piece11 V c 3 (by omega), piece11 V c 2 (by omega), piece11 V c 1 (by omega), piece11 V c 0 (by omega)] :=
  ((pieces11_succ V c 9 (by omega)).trans (congrArg (List.cons _) ((pieces11_succ V c 8 (by omega)).trans (congrArg (List.cons _) ((pieces11_succ V c 7 (by omega)).trans (congrArg (List.cons _) ((pieces11_succ V c 6 (by omega)).trans (congrArg (List.cons _) ((pieces11_succ V c 5 (by omega)).trans (congrArg (List.cons _) ((pieces11_succ V c 4 (by omega)).trans (congrArg (List.cons _) ((pieces11_succ V c 3 (by omega)).trans (congrArg (List.cons _) ((pieces11_succ V c 2 (by omega)).trans (congrArg (List.cons _) ((pieces11_succ V c 1 (by omega)).trans (congrArg (List.cons _) ((pieces11_succ V c 0 (by omega)).trans (congrArg (List.cons _) (show pieces11 V c 0 = [] from rfl)))))))))))))))))))))

/-- After the first pass the ten slabs tile the first scratch, -/
theorem cover10 (c : Dev nD) (y : S10000x128.Idx) : ∃ p ∈ pieces10 V c 10, y ∈ p.1.set := by
  rw [pieces10_ten]
  exact View.cover_of_tiledL (s := S10000x128) _ S1000x128.size (by sl_kernel_rfl) y
/-- and the second. -/
theorem cover11 (c : Dev nD) (y : S10000x16.Idx) : ∃ p ∈ pieces11 V c 10, y ∈ p.1.set := by
  rw [pieces11_ten]
  exact View.cover_of_tiledL (s := S10000x16) _ S1000x16.size (by sl_kernel_rfl) y

/-- What the first scratch holds before point `k`, if it held `d` when the region was entered. -/
def acc10 (c : Dev nD) (d : Vec F S10000x128 .bf16) (k : ℕ) : Vec F S10000x128 .bf16 :=
  scM1_0.view.read (Elt F) (scM1_0.view.writes (Elt F) (hsc1_0.unread d) (pieces10 V c k))
/-- What the second scratch holds before point `k`, if it held `d` when the region was entered. -/
def acc11 (c : Dev nD) (d : Vec F S10000x16 .f32) (k : ℕ) : Vec F S10000x16 .f32 :=
  scM1_1.view.read (Elt F) (scM1_1.view.writes (Elt F) (hsc1_1.unread d) (pieces11 V c k))

theorem acc10_zero (c : Dev nD) (d : Vec F S10000x128 .bf16) : acc10 V c d 0 = d := by
  unfold acc10 pieces10; rw [View.writes_nil]; exact hsc1_0.read_unread d
theorem acc11_zero (c : Dev nD) (d : Vec F S10000x16 .f32) : acc11 V c d 0 = d := by
  unfold acc11 pieces11; rw [View.writes_nil]; exact hsc1_1.read_unread d

/-- One more slab stored over what the scratch held is the next contents. -/
theorem acc10_step (c : Dev nD) (d : Vec F S10000x128 .bf16) (k : ℕ) (h : k < 10) :
    scM1_0.view.read (Elt F) (scM1_0.view.writes (Elt F) (hsc1_0.unread (acc10 V c d k)) [piece10 V c k h]) = acc10 V c d (k + 1) := by
  unfold acc10; rw [Memref.IsWhole.unread_read, pieces10_succ V c k h]; rfl
theorem acc11_step (c : Dev nD) (d : Vec F S10000x16 .f32) (k : ℕ) (h : k < 10) :
    scM1_1.view.read (Elt F) (scM1_1.view.writes (Elt F) (hsc1_1.unread (acc11 V c d k)) [piece11 V c k h]) = acc11 V c d (k + 1) := by
  unfold acc11; rw [Memref.IsWhole.unread_read, pieces11_succ V c k h]; rfl

theorem acc10_stable (c : Dev nD) (d : Vec F S10000x128 .bf16) (k : ℕ) (h : 10 ≤ k) : acc10 V c d (k + 1) = acc10 V c d k := by
  unfold acc10; rw [pieces10_stable V c k h]
theorem acc11_stable (c : Dev nD) (d : Vec F S10000x16 .f32) (k : ℕ) (h : 10 ≤ k) : acc11 V c d (k + 1) = acc11 V c d k := by
  unfold acc11; rw [pieces11_stable V c k h]

theorem acc10_ge (c : Dev nD) (d : Vec F S10000x128 .bf16) : ∀ k, 10 ≤ k → acc10 V c d k = acc10 V c d 10 := by
  intro k hk
  induction k, hk using Nat.le_induction with
  | base => rfl
  | succ n hn ih => rw [acc10_stable V c d n hn, ih]
theorem acc11_ge (c : Dev nD) (d : Vec F S10000x16 .f32) : ∀ k, 10 ≤ k → acc11 V c d k = acc11 V c d 10 := by
  intro k hk
  induction k, hk using Nat.le_induction with
  | base => rfl
  | succ n hn ih => rw [acc11_stable V c d n hn, ih]

/-- The third layer's support matrix: what the first scratch holds after the first pass, -/
def S2 (c : Dev nD) : Vec F S10000x128 .bf16 := acc10 V c (fun _ => (Elt.inhabited F .bf16).default) 10
/-- and the head's second partial product: what the second scratch holds then. -/
def Z2 (c : Dev nD) : Vec F S10000x16 .f32 := acc11 V c (fun _ => (Elt.inhabited F .f32).default) 10

/-- After the first pass the scratch no longer depends on what it held at entry. -/
theorem acc10_ten (c : Dev nD) (d : Vec F S10000x128 .bf16) : acc10 V c d 10 = S2 V c := by
  unfold S2 acc10; exact View.read_writes_of_cover _ _ _ _ _ (cover10 V c)
theorem acc11_ten (c : Dev nD) (d : Vec F S10000x16 .f32) : acc11 V c d 10 = Z2 V c := by
  unfold Z2 acc11; exact View.read_writes_of_cover _ _ _ _ _ (cover11 V c)

end R1

end Cert.KernelIdeal.Hnd

end
-- ==== Proof.FKernelIdeal.R1Frame.lean ====
import proofs.«166769_g37641093382870_cont_sun_c4_266_19_alg».proof.Proof.FKernelIdeal.R1Scratch

set_option maxRecDepth 16384

noncomputable section

namespace Cert.KernelIdeal.Hnd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

/-! # Region 1: the proof data and the body obligation

The proof data constrain, rather than name, what the body leaves in a staging buffer: an input window's buffer is left
as found; the output window's buffer holds, after a point of the second pass, the block's log-softmax — and after a
point of the first pass, where the body stores nothing into it while the pipeline still writes it back, anything. -/

section R1

variable (V : (c : Dev nD) → (b : Ref sig .tc) → Buf (Elt F) ((c : Thread nD τ).loc b))

theorem finds1_0_of {c : Dev nD} (rd : RDat τ (Elt F) Unit ℕ (UR sig nD τ) ℕ cfg1 c) (hA : rd.A 0 = V c (Pipeline.arrRef spec1 0))
    (hkeep : ∀ t Y X, rd.after 0 t Y X → X = Y) (t : Fin cfg1.N) (Y) (h : rd.Finds 0 t Y) : Y = iblk1 V c 0 t := by
  obtain ⟨d, rfl⟩ := Pipeline.RDat.finds_in_eq_fetched rd 0 rfl (fun _ _ _ => rfl) hkeep t Y h
  unfold RDat.fetched RDat.blockOf iblk1; rw [hA]; try rfl
theorem finds1_1_of {c : Dev nD} (rd : RDat τ (Elt F) Unit ℕ (UR sig nD τ) ℕ cfg1 c) (hA : rd.A 1 = V c (Pipeline.arrRef spec1 1))
    (hkeep : ∀ t Y X, rd.after 1 t Y X → X = Y) (t : Fin cfg1.N) (Y) (h : rd.Finds 1 t Y) : Y = iblk1 V c 1 t := by
  obtain ⟨d, rfl⟩ := Pipeline.RDat.finds_in_eq_fetched rd 1 rfl (fun _ _ _ => rfl) hkeep t Y h
  unfold RDat.fetched RDat.blockOf iblk1; rw [hA]; try rfl
theorem finds1_2_of {c : Dev nD} (rd : RDat τ (Elt F) Unit ℕ (UR sig nD τ) ℕ cfg1 c) (hA : rd.A 2 = V c (Pipeline.arrRef spec1 2))
    (hkeep : ∀ t Y X, rd.after 2 t Y X → X = Y) (t : Fin cfg1.N) (Y) (h : rd.Finds 2 t Y) : Y = iblk1 V c 2 t := by
  obtain ⟨d, rfl⟩ := Pipeline.RDat.finds_in_eq_fetched rd 2 rfl (fun _ _ _ => rfl) hkeep t Y h
  unfold RDat.fetched RDat.blockOf iblk1; rw [hA]; try rfl
theorem finds1_3_of {c : Dev nD} (rd : RDat τ (Elt F) Unit ℕ (UR sig nD τ) ℕ cfg1 c) (hA : rd.A 3 = V c (Pipeline.arrRef spec1 3))
    (hkeep : ∀ t Y X, rd.after 3 t Y X → X = Y) (t : Fin cfg1.N) (Y) (h : rd.Finds 3 t Y) : Y = iblk1 V c 3 t := by
  obtain ⟨d, rfl⟩ := Pipeline.RDat.finds_in_eq_fetched rd 3 rfl (fun _ _ _ => rfl) hkeep t Y h
  unfold RDat.fetched RDat.blockOf iblk1; rw [hA]; try rfl
theorem finds1_4_of {c : Dev nD} (rd : RDat τ (Elt F) Unit ℕ (UR sig nD τ) ℕ cfg1 c) (hA : rd.A 4 = V c (Pipeline.arrRef spec1 4))
    (hkeep : ∀ t Y X, rd.after 4 t Y X → X = Y) (t : Fin cfg1.N) (Y) (h : rd.Finds 4 t Y) : Y = iblk1 V c 4 t := by
  obtain ⟨d, rfl⟩ := Pipeline.RDat.finds_in_eq_fetched rd 4 rfl (fun _ _ _ => rfl) hkeep t Y h
  unfold RDat.fetched RDat.blockOf iblk1; rw [hA]; try rfl
theorem finds1_5_of {c : Dev nD} (rd : RDat τ (Elt F) Unit ℕ (UR sig nD τ) ℕ cfg1 c) (hA : rd.A 5 = V c (Pipeline.arrRef spec1 5))
    (hkeep : ∀ t Y X, rd.after 5 t Y X → X = Y) (t : Fin cfg1.N) (Y) (h : rd.Finds 5 t Y) : Y = iblk1 V c 5 t := by
  obtain ⟨d, rfl⟩ := Pipeline.RDat.finds_in_eq_fetched rd 5 rfl (fun _ _ _ => rfl) hkeep t Y h
  unfold RDat.fetched RDat.blockOf iblk1; rw [hA]; try rfl
theorem finds1_6_of {c : Dev nD} (rd : RDat τ (Elt F) Unit ℕ (UR sig nD τ) ℕ cfg1 c) (hA : rd.A 6 = V c (Pipeline.arrRef spec1 6))
    (hkeep : ∀ t Y X, rd.after 6 t Y X → X = Y) (t : Fin cfg1.N) (Y) (h : rd.Finds 6 t Y) : Y = iblk1 V c 6 t := by
  obtain ⟨d, rfl⟩ := Pipeline.RDat.finds_in_eq_fetched rd 6 rfl (fun _ _ _ => rfl) hkeep t Y h
  unfold RDat.fetched RDat.blockOf iblk1; rw [hA]; try rfl

/-- The output window's block after a point of the second pass: the log-softmax of the block's rows of the head's sum. -/
def out1_7 (c : Dev nD) (t : Fin cfg1.N) (h : 10 ≤ t.val) : Vec F S1x1000x16 .f32 :=
  k1_pay4 (k1_pay5 (iblk1 V c 0 t) (S2 V c) (iblk1 V c 3 t) (iblk1 V c 5 t) (iblk1 V c 2 t)
    (View.ld (Z2 V c) (Rect.unit (s := S10000x16) (k1_off3 (grid1.coords t)) S1000x16.size (k1_off3_inb _ ((hcond1_1 t).mpr h)))) (iblk1 V c 6 t))

theorem scopedRest1_split (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f)
            ∗ (∃ f : Buf (Elt F) ((c : Thread nD τ).loc cc1_scratch1), ((c : Thread nD τ).loc cc1_scratch1) ↦{fullShare} f))
          ∗ Pipeline.scopedRestBut (Ix := Unit) (Name := ℕ) (U := UR sig nD τ) (Lvl := ℕ) (Val := Elt F) spec1 c [cc1_scratch0, cc1_scratch1]) :=
  Pipeline.scopedRest_split_of_list spec1 c [cc1_scratch0, cc1_scratch1] (by decide) (by decide)

abbrev rest1 (c : Dev nD) : sProp 𝕄 :=
  Pipeline.scopedRestBut (Ix := Unit) (Name := ℕ) (U := UR sig nD τ) (Lvl := ℕ) (Val := Elt F) spec1 c [cc1_scratch0, cc1_scratch1]

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ rest1 c) ∗ (∃ r, prngReg c r)) := by
  unfold Pipeline.ΦA; rw [scopedRest1_split]; simp only [scM1_0, scM1_1, owns_whole]; try rfl

/-- The invariant before point `n`: each scratch at what the slabs stored so far make of what it held at entry. -/
def Phi1 (c : Dev nD) (n : ℕ) : sProp 𝕄 :=
  iprop(iprop(iprop((∃ d, owns (c : Thread nD τ) scM1_0 fullShare (acc10 V c d n)) ∗ (∃ d, owns (c : Thread nD τ) scM1_1 fullShare (acc11 V c d n))) ∗ rest1 c) ∗ (∃ r, prngReg c r))

def rdat1 (c : Dev nD) : RDat τ (Elt F) Unit ℕ (UR sig nD τ) ℕ cfg1 c where
  A w := V c (Pipeline.arrRef spec1 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => X = Y
    | ⟨7, _⟩ => ∀ h : 10 ≤ t.val, X = out1_7 V c t h
  Φ t := Phi1 V c t.val
  q _ := fullShare
  owed _ := 0

theorem A_eq1 (c : Dev nD) (w : Fin cfg1.W) : (rdat1 V c).A w = V c (Pipeline.arrRef spec1 w) := by
  dsimp only [rdat1]

theorem after1_0 (c : Dev nD) (t : Fin cfg1.N) (Y X) : (rdat1 V c).after 0 t Y X = (X = Y) := by dsimp only [rdat1]
theorem after1_1 (c : Dev nD) (t : Fin cfg1.N) (Y X) : (rdat1 V c).after 1 t Y X = (X = Y) := by dsimp only [rdat1]
theorem after1_2 (c : Dev nD) (t : Fin cfg1.N) (Y X) : (rdat1 V c).after 2 t Y X = (X = Y) := by dsimp only [rdat1]
theorem after1_3 (c : Dev nD) (t : Fin cfg1.N) (Y X) : (rdat1 V c).after 3 t Y X = (X = Y) := by dsimp only [rdat1]
theorem after1_4 (c : Dev nD) (t : Fin cfg1.N) (Y X) : (rdat1 V c).after 4 t Y X = (X = Y) := by dsimp only [rdat1]
theorem after1_5 (c : Dev nD) (t : Fin cfg1.N) (Y X) : (rdat1 V c).after 5 t Y X = (X = Y) := by dsimp only [rdat1]
theorem after1_6 (c : Dev nD) (t : Fin cfg1.N) (Y X) : (rdat1 V c).after 6 t Y X = (X = Y) := by dsimp only [rdat1]
theorem after1_7 (c : Dev nD) (t : Fin cfg1.N) (Y X) : (rdat1 V c).after 7 t Y X = (∀ h : 10 ≤ t.val, X = out1_7 V c t h) := by dsimp only [rdat1]

theorem finds1_0 (c : Dev nD) (t : Fin cfg1.N) (Y) (h : (rdat1 V c).Finds 0 t Y) : Y = iblk1 V c 0 t :=
  finds1_0_of V (rdat1 V c) (A_eq1 V c 0) (fun t Y X h => by rw [after1_0] at h; exact h) t Y h
theorem finds1_1 (c : Dev nD) (t : Fin cfg1.N) (Y) (h : (rdat1 V c).Finds 1 t Y) : Y = iblk1 V c 1 t :=
  finds1_1_of V (rdat1 V c) (A_eq1 V c 1) (fun t Y X h => by rw [after1_1] at h; exact h) t Y h
theorem finds1_2 (c : Dev nD) (t : Fin cfg1.N) (Y) (h : (rdat1 V c).Finds 2 t Y) : Y = iblk1 V c 2 t :=
  finds1_2_of V (rdat1 V c) (A_eq1 V c 2) (fun t Y X h => by rw [after1_2] at h; exact h) t Y h
theorem finds1_3 (c : Dev nD) (t : Fin cfg1.N) (Y) (h : (rdat1 V c).Finds 3 t Y) : Y = iblk1 V c 3 t :=
  finds1_3_of V (rdat1 V c) (A_eq1 V c 3) (fun t Y X h => by rw [after1_3] at h; exact h) t Y h
theorem finds1_4 (c : Dev nD) (t : Fin cfg1.N) (Y) (h : (rdat1 V c).Finds 4 t Y) : Y = iblk1 V c 4 t :=
  finds1_4_of V (rdat1 V c) (A_eq1 V c 4) (fun t Y X h => by rw [after1_4] at h; exact h) t Y h
theorem finds1_5 (c : Dev nD) (t : Fin cfg1.N) (Y) (h : (rdat1 V c).Finds 5 t Y) : Y = iblk1 V c 5 t :=
  finds1_5_of V (rdat1 V c) (A_eq1 V c 5) (fun t Y X h => by rw [after1_5] at h; exact h) t Y h
theorem finds1_6 (c : Dev nD) (t : Fin cfg1.N) (Y) (h : (rdat1 V c).Finds 6 t Y) : Y = iblk1 V c 6 t :=
  finds1_6_of V (rdat1 V c) (A_eq1 V c 6) (fun t Y X h => by rw [after1_6] at h; exact h) t Y h

/-! ## The body obligation -/

def bodyPre1 (c : Dev nD) (t : Fin cfg1.N) (Y : (w : Fin cfg1.W) → (cfg1.win w).block.Idx → Elt F (cfg1.win w).elt) : sProp 𝕄 :=
  iprop((rdat1 V c).Φ t.castSucc ∗ (rdat1 V c).owesAt () t.castSucc
    ∗ owns (c : Thread nD τ) (ms1_0 t) fullShare (Y 0)
    ∗ owns (c : Thread nD τ) (ms1_1 t) fullShare (Y 1)
    ∗ owns (c : Thread nD τ) (ms1_2 t) fullShare (Y 2)
    ∗ owns (c : Thread nD τ) (ms1_3 t) fullShare (Y 3)
    ∗ owns (c : Thread nD τ) (ms1_4 t) fullShare (Y 4)
    ∗ owns (c : Thread nD τ) (ms1_5 t) fullShare (Y 5)
    ∗ owns (c : Thread nD τ) (ms1_6 t) fullShare (Y 6)
    ∗ owns (c : Thread nD τ) (ms1_7 t) fullShare (Y 7))

def bodyPost1 (c : Dev nD) (t : Fin cfg1.N) (Y : (w : Fin cfg1.W) → (cfg1.win w).block.Idx → Elt F (cfg1.win w).elt) : sProp 𝕄 :=
  iprop((rdat1 V c).Φ t.succ ∗ (rdat1 V c).owesAt () t.succ
    ∗ (∃ X, ⌜(rdat1 V c).after 0 t (Y 0) X⌝ ∗ owns (c : Thread nD τ) (ms1_0 t) fullShare X)
    ∗ (∃ X, ⌜(rdat1 V c).after 1 t (Y 1) X⌝ ∗ owns (c : Thread nD τ) (ms1_1 t) fullShare X)
    ∗ (∃ X, ⌜(rdat1 V c).after 2 t (Y 2) X⌝ ∗ owns (c : Thread nD τ) (ms1_2 t) fullShare X)
    ∗ (∃ X, ⌜(rdat1 V c).after 3 t (Y 3) X⌝ ∗ owns (c : Thread nD τ) (ms1_3 t) fullShare X)
    ∗ (∃ X, ⌜(rdat1 V c).after 4 t (Y 4) X⌝ ∗ owns (c : Thread nD τ) (ms1_4 t) fullShare X)
    ∗ (∃ X, ⌜(rdat1 V c).after 5 t (Y 5) X⌝ ∗ owns (c : Thread nD τ) (ms1_5 t) fullShare X)
    ∗ (∃ X, ⌜(rdat1 V c).after 6 t (Y 6) X⌝ ∗ owns (c : Thread nD τ) (ms1_6 t) fullShare X)
    ∗ (∃ X, ⌜(rdat1 V c).after 7 t (Y 7) X⌝ ∗ owns (c : Thread nD τ) (ms1_7 t) fullShare X))

set_option maxHeartbeats 4000000 in
theorem sound_body1 (c : Dev nD) (t : Fin cfg1.N) (Y : (w : Fin cfg1.W) → (cfg1.win w).block.Idx → Elt F (cfg1.win w).elt)
    (hY : ∀ w, (rdat1 V c).Finds w t (Y w)) :
    bodyPre1 V c t Y ⊢ wp frame (wpE (defs₀ (F := F)) Variants.none c none) Set.univ (bodyAt1 t) (fun _ => bodyPost1 V c t Y) := by
  unfold bodyPre1 bodyPost1 bodyAt1
  rw [finds1_0 V c t _ (hY 0), finds1_1 V c t _ (hY 1), finds1_2 V c t _ (hY 2), finds1_3 V c t _ (hY 3), finds1_4 V c t _ (hY 4),
    finds1_5 V c t _ (hY 5), finds1_6 V c t _ (hY 6)]
  simp only [after1_0, after1_1, after1_2, after1_3, after1_4, after1_5, after1_6, after1_7]
  rw [show (rdat1 V c).owesAt () t.succ = (rdat1 V c).owesAt () t.castSucc from rfl]
  rw [show (rdat1 V c).Φ t.succ = Phi1 V c (t.val + 1) from rfl, show (rdat1 V c).Φ t.castSucc = Phi1 V c t.val from rfl]
  unfold Phi1
  by_cases hlt : t.val < 10
  · have hc0 : cond1_0 (grid1.coords t) := (hcond1_0 t).mpr hlt
    have hc1 : ¬cond1_1 (grid1.coords t) := fun h => by have := (hcond1_1 t).mp h; omega
    have ht : t = tj t.val hlt := Fin.ext rfl
    iintro ⟨⟨⟨⟨⟨%d10, HS10⟩, ⟨%d11, HS11⟩⟩, Hrest⟩, Hg⟩, Ho, H0, H1, H2, H3, H4, H5, H6, H7⟩
    iapply ((run1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 hsc1_0 scM1_1 hsc1_1 hc0 hc1 (iblk1 V c 0 t) (iblk1 V c 1 t) (iblk1 V c 3 t) (iblk1 V c 4 t) (iblk1 V c 5 t) (acc10 V c d10 t.val) (acc11 V c d11 t.val)).2.2 Set.univ _)
    isplitl [H0]; · iexact H0
    isplitl [H1]; · iexact H1
    isplitl [H3]; · iexact H3
    isplitl [H4]; · iexact H4
    isplitl [H5]; · iexact H5
    isplitl [HS10]; · iexact HS10
    isplitl [HS11]; · iexact HS11
    iintro ⟨H0, H1, H3, H4, H5, HS10, HS11⟩
    isplitl [HS10 HS11 Hrest Hg]
    · isplitl [HS10 HS11 Hrest]
      · isplitl [HS10 HS11]
        · isplitl [HS10]
          · iexists d10; unfold owns; iexists _; isplitr
            swap; · iexact HS10
            ipureintro
            rw [run1_A_L10]
            exact acc10_step V c d10 t.val hlt
          · iexists d11; unfold owns; iexists _; isplitr
            swap; · iexact HS11
            ipureintro
            rw [run1_A_L11]
            exact acc11_step V c d11 t.val hlt
        iexact Hrest
      iexact Hg
    isplitl [Ho]; · iexact Ho
    isplitl [H0]; · iexists _; isplitr; · ipureintro; rfl
                    iexact H0
    isplitl [H1]; · iexists _; isplitr; · ipureintro; rfl
                    iexact H1
    isplitl [H2]; · iexists _; isplitr; · ipureintro; rfl
                    iexact H2
    isplitl [H3]; · iexists _; isplitr; · ipureintro; rfl
                    iexact H3
    isplitl [H4]; · iexists _; isplitr; · ipureintro; rfl
                    iexact H4
    isplitl [H5]; · iexists _; isplitr; · ipureintro; rfl
                    iexact H5
    isplitl [H6]; · iexists _; isplitr; · ipureintro; rfl
                    iexact H6
    iexists (Y 7); isplitr; · ipureintro; intro h; omega
    iexact H7
  · have hge : 10 ≤ t.val := by omega
    have hc0 : ¬cond1_0 (grid1.coords t) := fun h => hlt ((hcond1_0 t).mp h)
    have hc1 : cond1_1 (grid1.coords t) := (hcond1_1 t).mpr hge
    iintro ⟨⟨⟨⟨⟨%d10, HS10⟩, ⟨%d11, HS11⟩⟩, Hrest⟩, Hg⟩, Ho, H0, H1, H2, H3, H4, H5, H6, H7⟩
    iapply ((run1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 hsc1_0 scM1_1 hsc1_1 hc0 hc1 (iblk1 V c 0 t) (iblk1 V c 2 t) (iblk1 V c 3 t) (iblk1 V c 5 t) (iblk1 V c 6 t) (acc10 V c d10 t.val) (acc11 V c d11 t.val)).2 Set.univ _)
    isplitl [H0]; · iexact H0
    isplitl [H2]; · iexact H2
    isplitl [H3]; · iexact H3
    isplitl [H5]; · iexact H5
    isplitl [H6]; · iexact H6
    isplitl [H7]; · iexists _; iexact H7
    isplitl [HS10]; · iexact HS10
    isplitl [HS11]; · iexact HS11
    iintro ⟨H0, H2, H3, H5, H6, ⟨%f9, H9⟩, HS10, HS11⟩
    isplitl [HS10 HS11 Hrest Hg]
    · isplitl [HS10 HS11 Hrest]
      · isplitl [HS10 HS11]
        · isplitl [HS10]
          · iexists d10; rw [acc10_stable V c d10 t.val hge]; iexact HS10
          · iexists d11; rw [acc11_stable V c d11 t.val hge]; iexact HS11
        iexact Hrest
      iexact Hg
    isplitl [Ho]; · iexact Ho
    isplitl [H0]; · iexists _; isplitr; · ipureintro; rfl
                    iexact H0
    isplitl [H1]; · iexists _; isplitr; · ipureintro; rfl
                    iexact H1
    isplitl [H2]; · iexists _; isplitr; · ipureintro; rfl
                    iexact H2
    isplitl [H3]; · iexists _; isplitr; · ipureintro; rfl
                    iexact H3
    isplitl [H4]; · iexists _; isplitr; · ipureintro; rfl
                    iexact H4
    isplitl [H5]; · iexists _; isplitr; · ipureintro; rfl
                    iexact H5
    isplitl [H6]; · iexists _; isplitr; · ipureintro; rfl
                    iexact H6
    iexists _; isplitr
    swap
    · unfold owns; iexists _; isplitr
      swap; · iexact H9
      ipureintro; rfl
    ipureintro
    intro h
    rw [run1_B_read9, acc10_ge V c d10 t.val hge, acc11_ge V c d11 t.val hge, acc10_ten, acc11_ten]
    rfl

/-- The library's body obligation over relational proof data, at every point. -/
theorem body_obligation1 (c : Dev nD) : (rdat1 (F := F) V c).BodyObligation (defs₀ (F := F)) Variants.none () Set.univ := fun t Y hY => by
  rw [bigSep_W1, bigSep_W1]
  exact sound_body1 V c t Y hY

end R1

end Cert.KernelIdeal.Hnd

end
-- ==== Proof.FKernelIdeal.Run.lean ====
import proofs.«166769_g37641093382870_cont_sun_c4_266_19_alg».proof.Proof.FKernelIdeal.R0Frame
import proofs.«166769_g37641093382870_cont_sun_c4_266_19_alg».proof.Proof.FKernelIdeal.R1Frame
import Idealize.ShloMosaic.Lib.Pipeline.RegionsLoop
import Idealize.ShloMosaic.Lib.Pipeline.Regions

set_option maxRecDepth 16384

noncomputable section

namespace Cert.KernelIdeal.Hnd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

/-! # The run of @main: a host stretch, the two regions, a host stretch

The buffer contents at every boundary, the regions as segments of the library's launch over relational proof data
(region 0's exact data read as relational), and the run: every weakly fair execution terminates, and every final memory
holds, in every unscoped buffer, the last boundary's contents — for SOME contents of the second region's output array
among those its write-backs may leave. -/

variable (m : (ℓ : Loc nD τ sig) → Buf (Elt F) ℓ) (ρ : Dev nD → PrngReg)

/-- Core `c`'s buffers at launch, -/
abbrev W0 : Dev nD → Valuation τ sig (Elt F) := fun c b => m (c, b)
/-- after the host operations before the first region (its entry), -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- at the first region's exit (the second's entry): its arrays at what its write-backs leave, -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- The contents of the second region's arrays at its exit. -/
abbrev Arrs1 (c : Dev nD) : Type := (w : Fin cfg1.W) → Buf (Elt F) ((cfg1.win w).arr.view.loc (c : Thread nD τ))

/-- at the second region's exit, its arrays at `Fs`, -/
def W3 (c : Dev nD) (Fs : Arrs1 (F := F) c) : Valuation τ sig (Elt F) := Pipeline.withArrays spec1 c (W2 m c) Fs
theorem W3_arr (c : Dev nD) (Fs : Arrs1 (F := F) c) (w : Fin cfg1.W) :
    W3 m c Fs (Proc.devRef .tc (Pipeline.arrRef spec1 w)) = Fs w := by
  unfold W3; exact Pipeline.withArrays_arr spec1 launch1.win.arr_inj c _ _ w
theorem W3_of_ne (c : Dev nD) (Fs : Arrs1 (F := F) c) (b : Ref sig .tc) (hb : ∀ w, Pipeline.arrRef spec1 w ≠ b) :
    W3 m c Fs (Proc.devRef .tc b) = W2 m c (Proc.devRef .tc b) := by
  unfold W3; exact Pipeline.withArrays_of_ne spec1 c _ _ b hb
abbrev V3 (c : Dev nD) (Fs : Arrs1 (F := F) c) : (b : Ref sig .tc) → Buf (Elt F) ((c : Thread nD τ).loc b) := fun b => W3 m c Fs b
/-- and after the host operations after it. -/
abbrev W4 (c : Dev nD) (Fs : Arrs1 (F := F) c) : Valuation τ sig (Elt F) := StableHlo.after hostOps2 (W3 m c Fs)

/-! ## The proof data family -/

abbrev adm : (p : Fin 2) → (pcfgs (F := F) p).Adm := fun p => (cfgs p).toPCfg_adm

def rdats : (p : Fin 2) → (c : Dev nD) → RDat τ (Elt F) Unit ℕ (UR sig nD τ) ℕ (Pipeline.pin (pcfgs (F := F)) adm p) c
  | ⟨0, _⟩ => fun c => (dat0 (V1 m) c).toR
  | ⟨1, _⟩ => fun c => rdat1 (V2 m) c

/-- What the second region's write-backs may leave in its arrays. -/
def Fin1 (c : Dev nD) (Fs : Arrs1 (F := F) c) : Prop := ∀ w, (rdat1 (V2 m) c).ArrAt w cfg1.N (Fs w)

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

/-- The host stretch before the regions, as a segment. -/
abbrev seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

-- the host operations' specification is stated over the program's own body table
set_option backward.isDefEq.respectTransparency.types false in
/-- The host stretch after the regions, as a segment: from the buffers at the second region's exit contents, whatever
    its output array holds among what its write-backs may leave, to the buffers after the stretch's operations. -/
def seg3 : Pipeline.HostSeg (Name := ℕ) (U := UR sig nD τ) (pcfgs (F := F)) defs₀ 𝒱₀ L lv where
  prog := StableHlo.seq hostOps2
  pre c := iprop(∃ Fs : Arrs1 (F := F) c, ⌜Fin1 m c Fs⌝ ∗ StableHlo.held (c : Thread nD τ) (Pipeline.ucRefs τ sig) (W3 m c Fs) ∗ R c)
  post c := iprop(∃ Fs : Arrs1 (F := F) c, ⌜Fin1 m c Fs⌝ ∗ StableHlo.held (c : Thread nD τ) (Pipeline.ucRefs τ sig) (W4 m c Fs) ∗ R c)
  run c {β} k K := by
    iintro ⟨Hk, Hbd, ⟨%Fs, %hFs, Hh, HR⟩, -⟩
    have hseq := StableHlo.wp_seq (defs := Pipeline.defs (pcfgs (F := F)) defs₀) (Variants.lift 𝒱₀) none Set.univ c (Pipeline.ucRefs τ sig) k (K := K) hostOps2
      (fun op h => Pipeline.sub_ucRefs op ((List.forall_iff_forall_mem.mp hostOps2_sub) op h))
      (fun op h => (List.forall_iff_forall_mem.mp hostOps2_fresh) op h) (W3 m c Fs)
    iapply hseq $$ [Hbd Hh]
    · isplitl [Hbd] <;> iassumption
    iintro ⟨Hbd, Hh⟩
    iapply Hk
    isplitl [Hbd]; · iexact Hbd
    iexists Fs
    isplitr; · ipureintro; exact hFs
    isplitl [Hh] <;> iassumption

/-- Exact proof data over the second pipeline that name nothing: only their arrays' shares are read, where the
    library's lemma putting a region's arrays back among the unscoped buffers is stated over a family of exact data. -/
def datA1 (c : Dev nD) : Dat τ (Elt F) Unit ℕ (UR sig nD τ) ℕ cfg1 c where
  A w := V2 m c (Pipeline.arrRef spec1 w)
  after w t := fun _ => (Elt.inhabited F _).default
  Φ _ := iprop(emp)
  q _ := fullShare
  owed _ := 0

/-! ## The regions as segments -/

theorem share0 (c : Dev nD) (w : Fin cfg0.W) : (rdats m 0 c).share w = fullShare := by
  show (dat0 (V1 m) c).toR.share w = fullShare
  rw [Dat.toR_share]; exact (dat0 (V1 m) c).share_full (fun _ => rfl) w
theorem share1 (c : Dev nD) (w : Fin cfg1.W) : (rdats m 1 c).share w = fullShare := by
  show (rdat1 (V2 m) c).share w = fullShare
  unfold RDat.share; split <;> rfl

set_option backward.isDefEq.respectTransparency.types false in
/-- REGION 0: entered from every unscoped buffer at `W1`, left at `W2`. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).toR
  hwaits := Pipeline.RDat.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.RDat.arrays_of_unscopedBufs (p := 0) (pcfgs (F := F)) adm (rdats m) launch0.win launch0.arr_whole c
      (share0 m c) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (rdats m 0 c).Φ (Fin.last _) = iprop(iprop(owns (c : Thread nD τ) scM0 fullShare (S0 (V1 m) c) ∗ rest0 c) ∗ (∃ r, prngReg c r)) from rfl]
    have e : (Pipeline.scopedRest (Ix := Unit) (Name := ℕ) (U := UR sig nD τ) (Lvl := ℕ) (Val := Elt F) (Pipeline.pin (pcfgs (F := F)) adm 0).spec c : sProp 𝕄)
        = iprop((∃ f : Buf (Elt F) ((c : Thread nD τ).loc cc0_scratch0), ((c : Thread nD τ).loc cc0_scratch0) ↦{fullShare} f) ∗ rest0 c) := scopedRest0_split c
    rw [e]
    iintro ⟨⟨HS, Hrest⟩, Hp⟩
    isplitl [Hp]; · iexact Hp
    isplitr; · iempintro
    isplitl [HS]
    · simp only [scM0, owns_whole]; iexists _; iexact HS
    iexact Hrest
  hexit c := by
    have hjoin := Pipeline.unscopedBufs_of_arrays (p := 0) (pcfgs (F := F)) adm (Ix := Unit) (Name := ℕ) (U := UR sig nD τ) (Lvl := ℕ)
      launch0.win launch0.arr_whole c (fun p c => match p with | ⟨0, _⟩ => dat0 (V1 m) c | ⟨1, _⟩ => datA1 m c) ((dat0 (V1 m) c).share_full fun _ => rfl)
      (V1 m c) (V2 m c) ((dat0 (V1 m) c).arrAt · cfg0.N) (hF0 m c) (hrest0 m c)
    rw [Pipeline.unscopedBufs_held] at hjoin
    iintro ⟨Ha, HO, HY, Hrest⟩
    have hpost : (rdats m 0 c).arraysAt (Pipeline.pin (pcfgs (F := F)) adm 0).N ⊢ ((dat0 (V1 m) c).arrays fun w => (dat0 (V1 m) c).arrAt w cfg0.N : sProp 𝕄) :=
      Dat.toR_arraysAt_post (dat0 (V1 m) c) cfg0.N
    ihave Ha' := hpost $$ Ha
    imodintro
    isplitl [Ha' Hrest]
    · iapply hjoin; isplitl [Ha'] <;> iassumption
    isplitl [HY]; · iexact HY
    unfold Pipeline.RDat.owesAt Pipeline.owesWithin
    icases HO with ⟨%W, -, HO⟩; iexists W; iexact HO

/-- The second region's arrays at contents `Fs` and the unscoped rest at its entry contents are the core's unscoped
    buffers at the exit contents. -/
theorem join1 (c : Dev nD) (Fs : Arrs1 (F := F) c) :
    (iprop((rdats m 1 c).arrays Fs ∗ Pipeline.unscopedRest (Ix := Unit) (Name := ℕ) (U := UR sig nD τ) (Lvl := ℕ) spec1 c (V2 m c)) : sProp 𝕄)
      ⊢ StableHlo.held (c : Thread nD τ) (Pipeline.ucRefs τ sig) (W3 m c Fs) := by
  rw [← Pipeline.unscopedBufs_held c (W3 m c Fs)]
  rw [Pipeline.unscopedBufs_split (Pipeline.pin (pcfgs (F := F)) adm) 1 launch1.win.arr_unscoped launch1.win.arr_inj c (V3 m c Fs),
    Pipeline.RDat.arrays_eq (pcfgs (F := F)) adm (rdats m) 1 c launch1.arr_whole (share1 m c)]
  refine sep_mono (Entails.of_eq (bigSep_congr fun w _ => by rw [show Fs w = V3 m c Fs (Pipeline.arrRef spec1 w) from (W3_arr m c Fs w).symm]; rfl)) (Entails.of_eq ?_)
  unfold Pipeline.unscopedRest
  exact bigSep_congr fun b hb => by
    rw [show V3 m c Fs b = V2 m c b from W3_of_ne m c Fs b fun w e => (Finset.mem_sdiff.mp hb).2 (Finset.mem_image.mpr ⟨w, Finset.mem_univ _, e⟩)]

/-- The last thread state beside the core owing nothing. -/
theorem hlast (c : Dev nD) :
    (iprop(∃ Fs : Arrs1 (F := F) c, ⌜Fin1 m c Fs⌝ ∗ StableHlo.held (c : Thread nD τ) (Pipeline.ucRefs τ sig) (W4 m c Fs) ∗ R c) : sProp 𝕄)
      ⊢ iprop((∃ Fs : Arrs1 (F := F) c, ⌜Fin1 m c Fs⌝ ∗ StableHlo.held (c : Thread nD τ) (Pipeline.ucRefs τ sig) (W4 m c Fs) ∗ ∃ r, prngReg c r)
          ∗ ∃ W, owes (c : Thread nD τ) (0 : CellTallies nD τ sig Unit) W) := by
  iintro ⟨%Fs, %hFs, Hh, ⟨Hp, HO⟩⟩
  isplitr [HO]
  · iexists Fs; isplitr; · ipureintro; exact hFs
    isplitl [Hh]; · iexact Hh
    iexact Hp
  iexact HO

set_option backward.isDefEq.respectTransparency.types false in
/-- REGION 1: entered from every unscoped buffer at `W2`, left at `W3` for SOME contents of its arrays among those its
    write-backs may leave (its input arrays as entered; its output array constrained block by block). -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := body_obligation1 (V2 m) c
  hwaits := Pipeline.RDat.hwaits_of_owed_zero _ _ _ _ L lv 1 fun _ _ => rfl
  pre c := iprop(StableHlo.held (c : Thread nD τ) (Pipeline.ucRefs τ sig) (W2 m c) ∗ R c)
  post c := iprop(∃ Fs : Arrs1 (F := F) c, ⌜Fin1 m c Fs⌝ ∗ StableHlo.held (c : Thread nD τ) (Pipeline.ucRefs τ sig) (W3 m c Fs) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.RDat.arrays_of_unscopedBufs (p := 1) (pcfgs (F := F)) adm (rdats m) launch1.win launch1.arr_whole c
      (share1 m c) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Phi1 (V2 m) c 0 from rfl]; unfold Phi1
    have e : (Pipeline.scopedRest (Ix := Unit) (Name := ℕ) (U := UR sig nD τ) (Lvl := ℕ) (Val := Elt F) (Pipeline.pin (pcfgs (F := F)) adm 1).spec c : sProp 𝕄)
        = iprop(iprop((∃ f : Buf (Elt F) ((c : Thread nD τ).loc cc1_scratch0), ((c : Thread nD τ).loc cc1_scratch0) ↦{fullShare} f)
            ∗ (∃ f : Buf (Elt F) ((c : Thread nD τ).loc cc1_scratch1), ((c : Thread nD τ).loc cc1_scratch1) ↦{fullShare} f)) ∗ rest1 c) := scopedRest1_split c
    rw [e]
    iintro ⟨Hp, -, ⟨⟨⟨%f0, H0⟩, ⟨%f1, H1⟩⟩, Hrest⟩⟩
    isplitr [Hp]
    · isplitr [Hrest]
      · isplitl [H0]
        · iexists f0; rw [acc10_zero]; simp only [scM1_0, owns_whole]; iexact H0
        · iexists f1; rw [acc11_zero]; simp only [scM1_1, owns_whole]; iexact H1
      iexact Hrest
    iexact Hp
  hout c := by
    rw [Pipeline.ownSems0_none]
    rw [show (rdats m 1 c).Φ (Fin.last _) = Phi1 (V2 m) c cfg1.N from rfl]; unfold Phi1
    have e : (Pipeline.scopedRest (Ix := Unit) (Name := ℕ) (U := UR sig nD τ) (Lvl := ℕ) (Val := Elt F) (Pipeline.pin (pcfgs (F := F)) adm 1).spec c : sProp 𝕄)
        = iprop(iprop((∃ f : Buf (Elt F) ((c : Thread nD τ).loc cc1_scratch0), ((c : Thread nD τ).loc cc1_scratch0) ↦{fullShare} f)
            ∗ (∃ f : Buf (Elt F) ((c : Thread nD τ).loc cc1_scratch1), ((c : Thread nD τ).loc cc1_scratch1) ↦{fullShare} f)) ∗ rest1 c) := scopedRest1_split c
    rw [e]
    iintro ⟨⟨⟨⟨%d0, H0⟩, ⟨%d1, H1⟩⟩, Hrest⟩, Hp⟩
    isplitl [Hp]; · iexact Hp
    isplitr; · iempintro
    isplitr [Hrest]
    · isplitl [H0]
      · simp only [scM1_0, owns_whole]; iexists _; iexact H0
      · simp only [scM1_1, owns_whole]; iexists _; iexact H1
    iexact Hrest
  hexit c := by
    iintro ⟨Ha, HO, HY, Hrest⟩
    unfold Pipeline.RDat.arraysAt
    ihave Ha1 := (bigSep_exists_pi (Finset.univ : Finset (Fin cfg1.W)) _) $$ Ha
    icases Ha1 with ⟨%Fs, Ha2⟩
    ihave Ha3 := (bigSep_pure_sep (Finset.univ : Finset (Fin cfg1.W)) _ _) $$ Ha2
    icases Ha3 with ⟨%hFs, Ha4⟩
    have hjoin := join1 m c Fs
    unfold Pipeline.RDat.arrays at hjoin
    imodintro
    iexists Fs
    isplitr; · ipureintro; exact fun w => hFs w (Finset.mem_univ w)
    isplitl [Ha4 Hrest]
    · iapply hjoin; isplitl [Ha4] <;> iassumption
    isplitl [HY]; · iexact HY
    unfold Pipeline.RDat.owesAt Pipeline.owesWithin
    icases HO with ⟨%W, -, HO⟩; iexists W; iexact HO

/-! ## @main as segments, and the launch -/

abbrev segs : List (Pipeline.RDat.Seg (pcfgs (F := F)) adm (rdats m) () defs₀ 𝒱₀ L lv) :=
  [ .host (seg0 m), .region (reg0 m), .region (reg1 m), .host (seg3 m) ]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- What a final memory holds on core `c`: every unscoped buffer at the last boundary's contents, for some contents of
    the second region's arrays among those its write-backs may leave. -/
def Final (c : Dev nD) (s : MemSt nD τ sig (Elt F)) : Prop :=
  ∃ Fs : Arrs1 (F := F) c, Fin1 m c Fs ∧ ∀ b ∈ Pipeline.ucRefs τ sig, s.mem (((c : Thread nD τ)).1, b) = W4 m c Fs b

set_option backward.isDefEq.respectTransparency.types false in
/-- THE RUN: at the compiled mesh, from any memory with zero counters, every weakly fair execution of @main terminates,
    nothing faulting, and every final memory is as `Final` says. -/
theorem run_main : θ_run defs (onTc (τ := τ) (main (F := F))) ⟨m, fun _ => 0, ρ⟩ (fun r => ∀ c : Dev nD, Final m c r.2) :=
  Pipeline.RDat.θ_run_regions_kit (pcfgs (F := F)) adm (rdats m) () cellOf_inj emb₁ defs₀ 𝒱₀ L lv m ρ main (segs m)
    (fun c Q => by
      rewrite [main_chain c, Pipeline.RDat.Seg.run_eq_chain,
        show (segs m).map Pipeline.RDat.Seg.prog = [
          StableHlo.seq hostOps0,
          Prog.lift (.customCall (Pipeline.entry 0) ()),
          Prog.lift (.customCall (Pipeline.entry 1) ()),
          StableHlo.seq hostOps2 ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(∃ Fs : Arrs1 (F := F) c, ⌜Fin1 m c Fs⌝ ∗ StableHlo.held (c : Thread nD τ) (Pipeline.ucRefs τ sig) (W4 m c Fs) ∗ ∃ r, prngReg c r))
    (hch := ⟨fun _ => .rfl, fun _ => .rfl, fun _ => .rfl, fun _ => .rfl, fun c => hlast m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => Final m c s)
    (hfin := fun c s' => by
      iintro ⟨HT, HSI⟩
      icases HT with ⟨%Fs, %hFs, Hh, -⟩
      unfold StableHlo.held
      ihave Hr := (pointsTo_read_all (Pipeline.ucRefs τ sig) (fun b => (((c : Thread nD τ)).1, b)) (W4 m c Fs) s') $$ [Hh HSI]
      · isplitl [Hh] <;> iassumption
      icases Hr with ⟨%h, HSI⟩
      imodintro
      isplitr
      · ipureintro; exact ⟨Fs, hFs, h⟩
      iexact HSI)
    (hQ := fun s h c => h c)

end Cert.KernelIdeal.Hnd

end
-- ==== Proof.FKernelIdeal.FrameOf.lean ====
import proofs.«166769_g37641093382870_cont_sun_c4_266_19_alg».proof.Proof.FKernelIdeal.Run

set_option maxRecDepth 16384

noncomputable section

namespace Cert.KernelIdeal.Hnd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

/-! # The frame: every argument array ends holding its launch contents

No host operation writes an argument and no region may change one: a region reads an argument through an input window
(whose array the write-backs never touch) or does not stage it at all. -/

variable (m : (ℓ : Loc nD τ sig) → Buf (Elt F) ℓ) (ρ : Dev nD → PrngReg)

theorem W4_main_arg0 (c : Dev nD) (Fs : Arrs1 (F := F) c) : W4 m c Fs (Proc.devRef .tc main_arg0) = m ((c : Thread nD τ).loc main_arg0) :=
  calc W4 m c Fs (Proc.devRef .tc main_arg0)
    _ = W3 m c Fs (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg0) := W3_of_ne m c Fs main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) (Fs : Arrs1 (F := F) c) : W4 m c Fs (Proc.devRef .tc main_arg1) = m ((c : Thread nD τ).loc main_arg1) :=
  calc W4 m c Fs (Proc.devRef .tc main_arg1)
    _ = W3 m c Fs (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg1) := W3_of_ne m c Fs main_arg1 (by decide)
    _ = W1 m c (Proc.devRef .tc main_arg1) := (W2_arr m c 1).trans (((dat0 (V1 m) c).arrAt_in 1 rfl _).trans (A_eq0 (V1 m) c 1))
    _ = W0 m c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) (Fs : Arrs1 (F := F) c) : W4 m c Fs (Proc.devRef .tc main_arg2) = m ((c : Thread nD τ).loc main_arg2) :=
  calc W4 m c Fs (Proc.devRef .tc main_arg2)
    _ = W3 m c Fs (Proc.devRef .tc main_arg2) := StableHlo.after_of_forall_not_mem (b := Proc.devRef .tc main_arg2) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg2) := W3_of_ne m c Fs main_arg2 (by decide)
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) (Fs : Arrs1 (F := F) c) : W4 m c Fs (Proc.devRef .tc main_arg3) = m ((c : Thread nD τ).loc main_arg3) :=
  calc W4 m c Fs (Proc.devRef .tc main_arg3)
    _ = W3 m c Fs (Proc.devRef .tc main_arg3) := StableHlo.after_of_forall_not_mem (b := Proc.devRef .tc main_arg3) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg3) := W3_of_ne m c Fs main_arg3 (by decide)
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) (Fs : Arrs1 (F := F) c) : W4 m c Fs (Proc.devRef .tc main_arg4) = m ((c : Thread nD τ).loc main_arg4) :=
  calc W4 m c Fs (Proc.devRef .tc main_arg4)
    _ = W3 m c Fs (Proc.devRef .tc main_arg4) := StableHlo.after_of_forall_not_mem (b := Proc.devRef .tc main_arg4) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg4) := W3_of_ne m c Fs main_arg4 (by decide)
    _ = W1 m c (Proc.devRef .tc main_arg4) := W2_of_ne m c main_arg4 (by decide)
    _ = W0 m c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) (Fs : Arrs1 (F := F) c) : W4 m c Fs (Proc.devRef .tc main_arg5) = m ((c : Thread nD τ).loc main_arg5) :=
  calc W4 m c Fs (Proc.devRef .tc main_arg5)
    _ = W3 m c Fs (Proc.devRef .tc main_arg5) := StableHlo.after_of_forall_not_mem (b := Proc.devRef .tc main_arg5) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg5) := W3_of_ne m c Fs main_arg5 (by decide)
    _ = W1 m c (Proc.devRef .tc main_arg5) := W2_of_ne m c main_arg5 (by decide)
    _ = W0 m c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_main_arg6 (c : Dev nD) (Fs : Arrs1 (F := F) c) : W4 m c Fs (Proc.devRef .tc main_arg6) = m ((c : Thread nD τ).loc main_arg6) :=
  calc W4 m c Fs (Proc.devRef .tc main_arg6)
    _ = W3 m c Fs (Proc.devRef .tc main_arg6) := StableHlo.after_of_forall_not_mem (b := Proc.devRef .tc main_arg6) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg6) := W3_of_ne m c Fs main_arg6 (by decide)
    _ = W1 m c (Proc.devRef .tc main_arg6) := W2_of_ne m c main_arg6 (by decide)
    _ = W0 m c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W4_main_arg7 (c : Dev nD) (Fs : Arrs1 (F := F) c) : W4 m c Fs (Proc.devRef .tc main_arg7) = m ((c : Thread nD τ).loc main_arg7) :=
  calc W4 m c Fs (Proc.devRef .tc main_arg7)
    _ = W3 m c Fs (Proc.devRef .tc main_arg7) := StableHlo.after_of_forall_not_mem (b := Proc.devRef .tc main_arg7) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg7) := W3_of_ne m c Fs main_arg7 (by decide)
    _ = W1 m c (Proc.devRef .tc main_arg7) := W2_of_ne m c main_arg7 (by decide)
    _ = W0 m c (Proc.devRef .tc main_arg7) := StableHlo.after_of_forall_not_mem (b := Proc.devRef .tc main_arg7) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W4_main_arg8 (c : Dev nD) (Fs : Arrs1 (F := F) c) : W4 m c Fs (Proc.devRef .tc main_arg8) = m ((c : Thread nD τ).loc main_arg8) :=
  calc W4 m c Fs (Proc.devRef .tc main_arg8)
    _ = W3 m c Fs (Proc.devRef .tc main_arg8) := StableHlo.after_of_forall_not_mem (b := Proc.devRef .tc main_arg8) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg8) := W3_of_ne m c Fs main_arg8 (by decide)
    _ = W1 m c (Proc.devRef .tc main_arg8) := W2_of_ne m c main_arg8 (by decide)
    _ = W0 m c (Proc.devRef .tc main_arg8) := StableHlo.after_of_forall_not_mem (b := Proc.devRef .tc main_arg8) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W4_main_arg9 (c : Dev nD) (Fs : Arrs1 (F := F) c) : W4 m c Fs (Proc.devRef .tc main_arg9) = m ((c : Thread nD τ).loc main_arg9) :=
  calc W4 m c Fs (Proc.devRef .tc main_arg9)
    _ = W3 m c Fs (Proc.devRef .tc main_arg9) := StableHlo.after_of_forall_not_mem (b := Proc.devRef .tc main_arg9) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg9) := W3_of_ne m c Fs main_arg9 (by decide)
    _ = W1 m c (Proc.devRef .tc main_arg9) := W2_of_ne m c main_arg9 (by decide)
    _ = W0 m c (Proc.devRef .tc main_arg9) := StableHlo.after_of_forall_not_mem (b := Proc.devRef .tc main_arg9) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

/-- THE FRAME, at any instance: every weakly fair execution of @main terminates, nothing faulting, and every final
    memory holds each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => by
    obtain ⟨Fs, -, hmem⟩ := h c
    exact ⟨(hmem _ (mem_uc main_arg0 (by decide))).trans (W4_main_arg0 m c Fs),
      (hmem _ (mem_uc main_arg1 (by decide))).trans (W4_main_arg1 m c Fs),
      (hmem _ (mem_uc main_arg2 (by decide))).trans (W4_main_arg2 m c Fs),
      (hmem _ (mem_uc main_arg3 (by decide))).trans (W4_main_arg3 m c Fs),
      (hmem _ (mem_uc main_arg4 (by decide))).trans (W4_main_arg4 m c Fs),
      (hmem _ (mem_uc main_arg5 (by decide))).trans (W4_main_arg5 m c Fs),
      (hmem _ (mem_uc main_arg6 (by decide))).trans (W4_main_arg6 m c Fs),
      (hmem _ (mem_uc main_arg7 (by decide))).trans (W4_main_arg7 m c Fs),
      (hmem _ (mem_uc main_arg8 (by decide))).trans (W4_main_arg8 m c Fs),
      (hmem _ (mem_uc main_arg9 (by decide))).trans (W4_main_arg9 m c Fs)⟩) (run_main m ρ)

end Cert.KernelIdeal.Hnd

end
-- ==== Proof.Spec.lean ====
import Idealize.ShloMosaic.PureOps.Ideal
import Idealize.ShloMosaic.PureOps.Ideal.Laws
import Idealize.ShloMosaic.Lib.ValueIdx

/-!
# The function both programs compute, over the extended reals

Three graph-convolution layers over an adjacency matrix `adj` — each the rectified sum of the bias and of the adjacency
times the layer's support (the previous layer's output times the layer's weights) —, a linear head over the three
layers' outputs laid side by side, and a row-wise log-softmax. The head's product over the 384 joined columns is written
as the sum of its three products over 128 columns: the sum a kernel that never joins the layers computes.
-/

noncomputable section

namespace Cert.Spec

open Idealize.ShloMosaic Idealize.ShloMosaic.ValueIdx

/-- Rank-2 and rank-1 arrays of extended reals. -/
abbrev A2 (a b : ℕ) : Type := (⟨2, ![a, b]⟩ : Shape).Idx → EReal
abbrev A1 (a : ℕ) : Type := (⟨1, ![a]⟩ : Shape).Idx → EReal

/-- The zero the rectifier compares with (the pattern of `0.0`; never evaluated). -/
abbrev zero : EReal := Ideal.ofBits .f32 0x00000000#32
/-- The value a maximum is folded from (the pattern of `-inf`; never evaluated). -/
abbrev ninf : EReal := Ideal.ofBits .f32 0xFF800000#32

/-- A layer's support: the previous layer's output times the layer's weights. -/
def sup (h : Fin 10000 → Fin 128 → EReal) (W : A2 128 128) : Fin 10000 → Fin 128 → EReal :=
  fun a k => ∑ e : Fin 128, h a e * W (ix2 e k)

/-- A layer's output: the adjacency times the support, plus the bias, rectified. -/
def lay (adj : A2 10000 10000) (s : Fin 10000 → Fin 128 → EReal) (b : A1 128) : Fin 10000 → Fin 128 → EReal :=
  fun r k => max ((∑ a : Fin 10000, adj (ix2 r a) * s a k) + b (ix1 k)) zero

/-- One layer's share of the head: its output times the 128 columns of the head's weights that face it. -/
def zp (h : Fin 10000 → Fin 128 → EReal) (Wl : A2 16 384) (off : ℕ) (hoff : off + 128 ≤ 384) : Fin 10000 → Fin 16 → EReal :=
  fun r q => ∑ k : Fin 128, h r k * Wl (ix2 q (⟨off + k.val, by have := k.isLt; omega⟩ : Fin 384))

/-- The log-softmax of a row of 16 logits: shifted by the row's maximum, less the logarithm of the shifted row's
    exponentials' sum. -/
def lsm (z : Fin 16 → EReal) (q : Fin 16) : EReal :=
  (z q - (Finset.univ : Finset (Fin 16)).fold max ninf z)
    - Ideal.log (∑ q' : Fin 16, Ideal.exp (z q' - (Finset.univ : Finset (Fin 16)).fold max ninf z))

section

variable (x : A2 10000 128) (adj : A2 10000 10000) (W0 : A2 128 128) (b0 : A1 128) (W1 : A2 128 128) (b1 : A1 128)
  (W2 : A2 128 128) (b2 : A1 128) (Wl : A2 16 384) (bl : A1 16)

/-- The three layers' outputs. -/
def h1 : Fin 10000 → Fin 128 → EReal := lay adj (sup (fun a e => x (ix2 a e)) W0) b0
def h2 : Fin 10000 → Fin 128 → EReal := lay adj (sup (h1 x adj W0 b0) W1) b1
def h3 : Fin 10000 → Fin 128 → EReal := lay adj (sup (h2 x adj W0 b0 W1 b1) W2) b2

/-- The head's logits: the three layers' shares, summed in the kernel's order, plus the head's bias. -/
def z : Fin 10000 → Fin 16 → EReal := fun r q =>
  ((zp (h1 x adj W0 b0) Wl 0 (by omega) r q + zp (h2 x adj W0 b0 W1 b1) Wl 128 (by omega) r q)
    + zp (h3 x adj W0 b0 W1 b1 W2 b2) Wl 256 (by omega) r q) + bl (ix1 q)

/-- The result: the row-wise log-softmax of the logits. -/
def out : A2 10000 16 := fun i =>
  lsm (z x adj W0 b0 W1 b1 W2 b2 Wl bl (⟨(i 0).val, (i 0).isLt⟩ : Fin 10000)) (⟨(i 1).val, (i 1).isLt⟩ : Fin 16)

end

end Cert.Spec

end
-- ==== Proof.KHost.lean ====
import proofs.«166769_g37641093382870_cont_sun_c4_266_19_alg».proof.Proof.FKernelIdeal.Run
import proofs.«166769_g37641093382870_cont_sun_c4_266_19_alg».proof.Proof.Spec
import Idealize.ShloMosaic.PureOps.Ideal
import Idealize.ShloMosaic.Lib.ValueLayout
import Idealize.ShloMosaic.Lib.Pipeline.Value
import Idealize.ShloMosaic.Lib.StableHlo.Run

set_option maxRecDepth 16384

noncomputable section

namespace Cert.KernelIdeal.Hnd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

open Idealize.ShloMosaic.ValueIdx Cert.Spec

/-! # The host operations before the regions, read at an index (extended reals)

At the extended reals a change of float format is the identity, so each buffer these operations write is a re-laid
piece of an argument: a weight matrix as it is, a bias as a row, the head's weights transposed and cut into its three
128-column blocks, two of them stacked. -/

variable (m : (ℓ : Loc nD τ sig) → Buf (Elt Ideal) ℓ) (c : Dev nD)

/-- The arguments, as arrays of extended reals. -/
abbrev aX : A2 10000 128 := m ((c : Thread nD τ).loc main_arg0)
abbrev aAdj : A2 10000 10000 := m ((c : Thread nD τ).loc main_arg1)
abbrev aW0 : A2 128 128 := m ((c : Thread nD τ).loc main_arg2)
abbrev ab0 : A1 128 := m ((c : Thread nD τ).loc main_arg3)
abbrev aW1 : A2 128 128 := m ((c : Thread nD τ).loc main_arg4)
abbrev ab1 : A1 128 := m ((c : Thread nD τ).loc main_arg5)
abbrev aW2 : A2 128 128 := m ((c : Thread nD τ).loc main_arg6)
abbrev ab2 : A1 128 := m ((c : Thread nD τ).loc main_arg7)
abbrev aWl : A2 16 384 := m ((c : Thread nD τ).loc main_arg8)
abbrev abl : A1 16 := m ((c : Thread nD τ).loc main_arg9)

theorem V1_arg0 : V1 m c main_arg0 = aX m c :=
  StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem V1_arg1 : V1 m c main_arg1 = aAdj m c :=
  StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem V1_v0 (e k : Fin 128) : V1 m c main_v0 (ix2 e k) = aW0 m c (ix2 e k) := by
  have e0 : (V1 m c main_v0 : FVec Ideal S128x128 .bf16) = truncf (F := Ideal) .bf16 (W0 m c (Proc.devRef .tc main_arg2) : FVec Ideal S128x128 .f32) bitsLt_bf16_f32 := by
    show StableHlo.after hostOps0 (W0 m c) (Proc.devRef .tc main_v0) = _; after_results <;> rfl
  rw [e0]; rfl
theorem V1_v1 (e k : Fin 128) : V1 m c main_v1 (ix2 e k) = aW1 m c (ix2 e k) := by
  have e0 : (V1 m c main_v1 : FVec Ideal S128x128 .bf16) = truncf (F := Ideal) .bf16 (W0 m c (Proc.devRef .tc main_arg4) : FVec Ideal S128x128 .f32) bitsLt_bf16_f32 := by
    show StableHlo.after hostOps0 (W0 m c) (Proc.devRef .tc main_v1) = _; after_results <;> rfl
  rw [e0]; rfl
theorem V1_v2 (e k : Fin 128) : V1 m c main_v2 (ix2 e k) = aW2 m c (ix2 e k) := by
  have e0 : (V1 m c main_v2 : FVec Ideal S128x128 .bf16) = truncf (F := Ideal) .bf16 (W0 m c (Proc.devRef .tc main_arg6) : FVec Ideal S128x128 .f32) bitsLt_bf16_f32 := by
    show StableHlo.after hostOps0 (W0 m c) (Proc.devRef .tc main_v2) = _; after_results <;> rfl
  rw [e0]; rfl

/-- The first bias as a row. -/
theorem V1_v12 (u : Fin 1) (k : Fin 128) : V1 m c main_v12 (ix2 u k) = ab0 m c (ix1 k) := by
  have e0 : (V1 m c main_v12 : S1x128.Idx → EReal) = shapeCast S1x128 (W0 m c (Proc.devRef .tc main_arg3) : S128.Idx → EReal) shapeCasts_S128_S1x128 := by
    show StableHlo.after hostOps0 (W0 m c) (Proc.devRef .tc main_v12) = _; after_results <;> rfl
  rw [e0]; exact shapeCast_a_1a_apply _ _ u k
/-- The head's bias as a row. -/
theorem V1_v18 (u : Fin 1) (q : Fin 16) : V1 m c main_v18 (ix2 u q) = abl m c (ix1 q) := by
  have e0 : (V1 m c main_v18 : S1x16.Idx → EReal) = shapeCast S1x16 (W0 m c (Proc.devRef .tc main_arg9) : S16.Idx → EReal) shapeCasts_S16_S1x16 := by
    show StableHlo.after hostOps0 (W0 m c) (Proc.devRef .tc main_v18) = _; after_results <;> rfl
  rw [e0]; exact shapeCast_a_1a_apply _ _ u q

/-- The head's weights facing the first layer: the first 128 columns, transposed. -/
theorem V1_v5 (k : Fin 128) (q : Fin 16) : V1 m c main_v5 (ix2 k q) = aWl m c (ix2 q (⟨0 + k.val, by have := k.isLt; omega⟩ : Fin 384)) := by
  have e0 : (V1 m c main_v5 : FVec Ideal S128x16 .bf16) = truncf (F := Ideal) .bf16 (extractStridedSlice S128x16 ![0, 0]
      (transpose S384x16 [1, 0] (W0 m c (Proc.devRef .tc main_arg8) : FVec Ideal S16x384 .f32) transposes_S16x384_S384x16_1_0) slices_S384x16_S128x16_0_0) bitsLt_bf16_f32 := by
    show StableHlo.after hostOps0 (W0 m c) (Proc.devRef .tc main_v5) = _; after_results <;> rfl
  rw [e0]
  exact (slice2_axis0_apply 0 _ slices_S384x16_S128x16_0_0 k q (⟨0 + k.val, by have := k.isLt; omega⟩ : Fin 384) rfl).trans (transpose_ix2_apply _ transposes_S16x384_S384x16_1_0 _ _)

/-- The head's weights facing the second layer (columns 128 … 255, transposed): the first of the two stacked blocks, -/
theorem V1_v11_0 (k : Fin 128) (q : Fin 16) :
    V1 m c main_v11 (ix3 (0 : Fin 2) k q) = aWl m c (ix2 q (⟨128 + k.val, by have := k.isLt; omega⟩ : Fin 384)) := by
  have e0 : (V1 m c main_v11 : FVec Ideal S2x128x16 .bf16) = truncf (F := Ideal) .bf16 (concatenate S2x128x16 0
      [⟨S1x128x16, broadcastInDim S1x128x16 ![1, 2] bcast_S128x16_S1x128x16_1_2 (extractStridedSlice S128x16 ![128, 0]
          (transpose S384x16 [1, 0] (W0 m c (Proc.devRef .tc main_arg8) : FVec Ideal S16x384 .f32) transposes_S16x384_S384x16_1_0) slices_S384x16_S128x16_128_0)⟩,
        ⟨S1x128x16, broadcastInDim S1x128x16 ![1, 2] bcast_S128x16_S1x128x16_1_2 (extractStridedSlice S128x16 ![256, 0]
          (transpose S384x16 [1, 0] (W0 m c (Proc.devRef .tc main_arg8) : FVec Ideal S16x384 .f32) transposes_S16x384_S384x16_1_0) slices_S384x16_S128x16_256_0)⟩]
      concatenates_S1x128x16_S1x128x16_S2x128x16_d0) bitsLt_bf16_f32 := by
    show StableHlo.after hostOps0 (W0 m c) (Proc.devRef .tc main_v11) = _; after_results <;> rfl
  rw [e0]
  rw [truncf_apply]
  refine (concatenate_pair_apply_left (t := S2x128x16) (s₁ := S1x128x16) (s₂ := S1x128x16) (0 : Fin 3) _ _ concatenates_S1x128x16_S1x128x16_S2x128x16_d0 (ix3 (0 : Fin 2) k q) rfl (ix3 (0 : Fin 1) k q)
    (fun b => by match b with | ⟨0, _⟩ => rfl | ⟨1, _⟩ => rfl | ⟨2, _⟩ => rfl)).trans ?_
  refine (broadcastInDim_apply ![1, 2] bcast_S128x16_S1x128x16_1_2 _ (ix3 (0 : Fin 1) k q) (ix2 k q)
    (fun a => by match a with | ⟨0, _⟩ => rfl | ⟨1, _⟩ => rfl)).trans ?_
  exact (slice2_axis0_apply 128 _ slices_S384x16_S128x16_128_0 k q (⟨128 + k.val, by have := k.isLt; omega⟩ : Fin 384) rfl).trans
    (transpose_ix2_apply _ transposes_S16x384_S384x16_1_0 _ _)
/-- and the third layer (columns 256 … 383): the second. -/
theorem V1_v11_1 (k : Fin 128) (q : Fin 16) :
    V1 m c main_v11 (ix3 (1 : Fin 2) k q) = aWl m c (ix2 q (⟨256 + k.val, by have := k.isLt; omega⟩ : Fin 384)) := by
  have e0 : (V1 m c main_v11 : FVec Ideal S2x128x16 .bf16) = truncf (F := Ideal) .bf16 (concatenate S2x128x16 0
      [⟨S1x128x16, broadcastInDim S1x128x16 ![1, 2] bcast_S128x16_S1x128x16_1_2 (extractStridedSlice S128x16 ![128, 0]
          (transpose S384x16 [1, 0] (W0 m c (Proc.devRef .tc main_arg8) : FVec Ideal S16x384 .f32) transposes_S16x384_S384x16_1_0) slices_S384x16_S128x16_128_0)⟩,
        ⟨S1x128x16, broadcastInDim S1x128x16 ![1, 2] bcast_S128x16_S1x128x16_1_2 (extractStridedSlice S128x16 ![256, 0]
          (transpose S384x16 [1, 0] (W0 m c (Proc.devRef .tc main_arg8) : FVec Ideal S16x384 .f32) transposes_S16x384_S384x16_1_0) slices_S384x16_S128x16_256_0)⟩]
      concatenates_S1x128x16_S1x128x16_S2x128x16_d0) bitsLt_bf16_f32 := by
    show StableHlo.after hostOps0 (W0 m c) (Proc.devRef .tc main_v11) = _; after_results <;> rfl
  rw [e0]
  rw [truncf_apply]
  refine (concatenate_pair_apply_right (t := S2x128x16) (s₁ := S1x128x16) (s₂ := S1x128x16) (0 : Fin 3) _ _ concatenates_S1x128x16_S1x128x16_S2x128x16_d0 (ix3 (1 : Fin 2) k q) rfl rfl (ix3 (0 : Fin 1) k q)
    (fun b hb => by match b with | ⟨0, _⟩ => exact absurd rfl hb | ⟨1, _⟩ => rfl | ⟨2, _⟩ => rfl) rfl).trans ?_
  refine (broadcastInDim_apply ![1, 2] bcast_S128x16_S1x128x16_1_2 _ (ix3 (0 : Fin 1) k q) (ix2 k q)
    (fun a => by match a with | ⟨0, _⟩ => rfl | ⟨1, _⟩ => rfl)).trans ?_
  exact (slice2_axis0_apply 256 _ slices_S384x16_S128x16_256_0 k q (⟨256 + k.val, by have := k.isLt; omega⟩ : Fin 384) rfl).trans
    (transpose_ix2_apply _ transposes_S16x384_S384x16_1_0 _ _)

/-- The second and third biases as rows, stacked. -/
theorem V1_v17_0 (v : Fin 1) (k : Fin 128) : V1 m c main_v17 (ix3 (0 : Fin 2) v k) = ab1 m c (ix1 k) := by
  have e0 : (V1 m c main_v17 : FVec Ideal S2x1x128 .f32) = concatenate S2x1x128 0
      [⟨S1x1x128, broadcastInDim S1x1x128 ![1, 2] bcast_S1x128_S1x1x128_1_2 (shapeCast S1x128 (W0 m c (Proc.devRef .tc main_arg5) : S128.Idx → EReal) shapeCasts_S128_S1x128)⟩,
        ⟨S1x1x128, broadcastInDim S1x1x128 ![1, 2] bcast_S1x128_S1x1x128_1_2 (shapeCast S1x128 (W0 m c (Proc.devRef .tc main_arg7) : S128.Idx → EReal) shapeCasts_S128_S1x128)⟩]
      concatenates_S1x1x128_S1x1x128_S2x1x128_d0 := by
    show StableHlo.after hostOps0 (W0 m c) (Proc.devRef .tc main_v17) = _; after_results <;> rfl
  rw [e0]
  refine (concatenate_pair_apply_left (t := S2x1x128) (s₁ := S1x1x128) (s₂ := S1x1x128) (0 : Fin 3) _ _ concatenates_S1x1x128_S1x1x128_S2x1x128_d0 (ix3 (0 : Fin 2) v k) rfl (ix3 (0 : Fin 1) v k)
    (fun b => by match b with | ⟨0, _⟩ => rfl | ⟨1, _⟩ => rfl | ⟨2, _⟩ => rfl)).trans ?_
  refine (broadcastInDim_apply ![1, 2] bcast_S1x128_S1x1x128_1_2 _ (ix3 (0 : Fin 1) v k) (ix2 (0 : Fin 1) k)
    (fun a => by match a with | ⟨0, _⟩ => rfl | ⟨1, _⟩ => rfl)).trans ?_
  exact shapeCast_a_1a_apply _ _ 0 k
theorem V1_v17_1 (v : Fin 1) (k : Fin 128) : V1 m c main_v17 (ix3 (1 : Fin 2) v k) = ab2 m c (ix1 k) := by
  have e0 : (V1 m c main_v17 : FVec Ideal S2x1x128 .f32) = concatenate S2x1x128 0
      [⟨S1x1x128, broadcastInDim S1x1x128 ![1, 2] bcast_S1x128_S1x1x128_1_2 (shapeCast S1x128 (W0 m c (Proc.devRef .tc main_arg5) : S128.Idx → EReal) shapeCasts_S128_S1x128)⟩,
        ⟨S1x1x128, broadcastInDim S1x1x128 ![1, 2] bcast_S1x128_S1x1x128_1_2 (shapeCast S1x128 (W0 m c (Proc.devRef .tc main_arg7) : S128.Idx → EReal) shapeCasts_S128_S1x128)⟩]
      concatenates_S1x1x128_S1x1x128_S2x1x128_d0 := by
    show StableHlo.after hostOps0 (W0 m c) (Proc.devRef .tc main_v17) = _; after_results <;> rfl
  rw [e0]
  refine (concatenate_pair_apply_right (t := S2x1x128) (s₁ := S1x1x128) (s₂ := S1x1x128) (0 : Fin 3) _ _ concatenates_S1x1x128_S1x1x128_S2x1x128_d0 (ix3 (1 : Fin 2) v k) rfl rfl (ix3 (0 : Fin 1) v k)
    (fun b hb => by match b with | ⟨0, _⟩ => exact absurd rfl hb | ⟨1, _⟩ => rfl | ⟨2, _⟩ => rfl) rfl).trans ?_
  refine (broadcastInDim_apply ![1, 2] bcast_S1x128_S1x1x128_1_2 _ (ix3 (0 : Fin 1) v k) (ix2 (0 : Fin 1) k)
    (fun a => by match a with | ⟨0, _⟩ => rfl | ⟨1, _⟩ => rfl)).trans ?_
  exact shapeCast_a_1a_apply _ _ 0 k

end Cert.KernelIdeal.Hnd

end
-- ==== Proof.LibDotRows.lean ====
/-
  One tactic shared by the kernel's and the reference's matrix products: a contraction of a rank-2 left operand's
  axis 1 with a rank-2 right operand's axis 0, summed over the contraction index, is re-indexed as the sum over
  k of left (p, k) times right (k, q) at the output entry (p, q).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 k q)` for a
    dimension record `D` that contracts the left operand's axis 1 (extent `K`) with the right operand's axis 0 and keeps
    the left operand's axis 0 and the right operand's axis 1 as the output's two axes; `SL` and `SR` are the operands'
    shapes. It expects `l`, `r`, `p`, `q` in scope under these names. -/
macro "dot_rows " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = (c ⟨0, by decide⟩).val := fun c =>
    ($D).rhsIdx_val_of_single rfl (ValueIdx.ix2 p q) c
  have r1 : ∀ c, ((($D).rhsIdx (ValueIdx.ix2 p q) c) 1).val = q.val := fun c => by
    unfold DotDims.rhsIdx
    rw [dif_neg (show ¬(1 : Fin ($SR).rank) ∈ ($D).rhsBatch by decide), dif_pos (show (1 : Fin ($SR).rank) ∈ ($D).rhsNonContracting by decide)]
    rfl
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 k q := funext fun a => Fin.ext (by
    match a with
    | ⟨0, _⟩ => exact (r0 _).trans hk
    | ⟨1, _⟩ => exact r1 _)
  rw [el, er]))

end Cert.Hand
-- ==== Proof.LibColumns.lean ====
/-
  Columns and rows of a rank-2 array, read at an index given by coordinates.

  A row-wise computation on an `[a, b]` array keeps one value per row in a COLUMN, an array of shape `[a, 1]`:
  it cuts single columns out of the array, casts a vector of `a` row results to a column, and broadcasts a column
  back along the second axis. Each of these reads, at `(r, ·)`, one entry of its operand in row `r`:
  • column `o` cut out of `[a, b]` reads the array at `(r, o)` (`slice_col_apply`);
  • a vector `[a]` cast to a column `[a, 1]` reads entry `r` (`shapeCast_a_a1_apply`);
  • a column `[a, 1]` broadcast to `[a, b]` reads, at `(r, j)`, the column's entry `r` for every `j`
    (`broadcastTo_a1_ab_apply`).
  A reduction of `[a, b]` along its second axis reads, at row `r`, a fold over the row's `b` entries. Over the
  extended reals `min` and `max` commute and associate, so the order of the fold does not matter and a kernel's
  vector reduction and a host reduce of the same row are the same fold over `Fin b`, started from the
  accumulator's (the initial value's) extended real (`multiReduction_minimumf_row`, `multiReduction_maximumf_row`,
  `hostReduce_minimumf_row`, `hostReduce_maximumf_row`). The index that a row's result `r` and a coordinate `k`
  on the reduced axis name together is `(r, k)` (`lift_row`).
-/
import Idealize.ShloMosaic.Lib.ValueLayout
import Idealize.ShloMosaic.Lib.ValueIdx
import Idealize.ShloMosaic.Lib.Pipeline.Value
import Idealize.ShloMosaic.PureOps.Ideal.Laws
import Idealize.ShloMosaic.PureOps.Reduce

noncomputable section

namespace Cert.Columns

open Idealize.ShloMosaic Idealize.ShloMosaic.ValueIdx

variable {α : Type}

/-! ## Layout operations on columns -/

/-- Column `o` of an `[a, b]` array, cut out as a column `[a, 1]`, reads at `(r, u)` the array at `(r, o)`. -/
theorem slice_col_apply {a b : ℕ} (o : ℕ) (ho : o < b) (X : (⟨2, ![a, b]⟩ : Shape).Idx → α)
    (h : (⟨2, ![a, b]⟩ : Shape).Slices ![0, o] ⟨2, ![a, 1]⟩) (r : Fin a) (u : Fin 1) :
    extractStridedSlice ⟨2, ![a, 1]⟩ ![0, o] X h (ix2 r u) = X (ix2 r (⟨o, ho⟩ : Fin b)) :=
  slice2_axis1_apply o X h r u ⟨o, ho⟩ (by have := u.isLt; show o = o + u.val; omega)

/-- A vector of `a` entries cast to a column `[a, 1]` reads, at `(r, u)`, entry `r`: the two indices have the same
    row-major position `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column `[a, 1]` broadcast along the second axis to `[a, b]` reads, at `(r, j)`, the column's entry `r`. -/
theorem broadcastTo_a1_ab_apply {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-! ## A row's reduction along the second axis -/

/-- Row `r` of the reduced array with coordinate `k` put back on the reduced (second) axis is the index `(r, k)`. -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A kernel's minimum reduction of an `[a, b]` array along its second axis, at the extended reals, read at row `r`:
    the fold of `min` from the accumulator's value over the row's `b` entries. -/
theorem multiReduction_minimumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.minimumf.neutral φ hφ) (r : Fin a) :
    multiReduction .minimumf [1] ⟨1, ![a]⟩ src acc h hφ hacc (ix1 r)
      = (Finset.univ : Finset (Fin b)).fold min (Ideal.ofBits φ acc) (fun k => src (ix2 r k)) := by
  rw [multiReduction_minimumf_eq_fold]
  refine (h.fold_filter_drop_single _ _ src (ix1 r)).trans ?_
  exact congrArg (fun f => Finset.fold min (Ideal.ofBits φ acc) f (Finset.univ : Finset (Fin b)))
    (funext fun k => congrArg src (lift_row h r k))

/-- The same for a maximum reduction: the fold of `max` over the row. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [multiReduction_maximumf_eq_fold]
  refine (h.fold_filter_drop_single _ _ src (ix1 r)).trans ?_
  exact congrArg (fun f => Finset.fold max (Ideal.ofBits φ acc) f (Finset.univ : Finset (Fin b)))
    (funext fun k => congrArg src (lift_row h r k))

/-- A host reduce with a minimum body of an `[a, b]` array along its second axis, from the scalar constant `w`, read
    at row `r`: the same fold of `min` over the row, from the extended real `w` denotes. -/
theorem hostReduce_minimumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.minimumf x (constant (F := Ideal) (⟨0, ![]⟩ : Shape) .f32 w) h' hu (ix1 r)
      = (Finset.univ : Finset (Fin b)).fold min (Ideal.ofBits .f32 w) (fun k => x (ix2 r k)) := by
  rw [Host.reduce_eq_fold_single FloatOps.minimumf x _ h' h hu]
  exact congrArg (fun f => Finset.fold min (Ideal.ofBits .f32 w) f (Finset.univ : Finset (Fin b)))
    (funext fun k => congrArg x (lift_row h r k))

/-- The same for a maximum body: the fold of `max` over the row. -/
theorem hostReduce_maximumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.maximumf x (constant (F := Ideal) (⟨0, ![]⟩ : Shape) .f32 w) h' hu (ix1 r)
      = (Finset.univ : Finset (Fin b)).fold max (Ideal.ofBits .f32 w) (fun k => x (ix2 r k)) := by
  rw [Host.reduce_eq_fold_single FloatOps.maximumf x _ h' h hu]
  exact congrArg (fun f => Finset.fold max (Ideal.ofBits .f32 w) f (Finset.univ : Finset (Fin b)))
    (funext fun k => congrArg x (lift_row h r k))

end Cert.Columns

end
-- ==== Proof.LibRowSum.lean ====
/-
  The sum of a row of a rank-2 array, read at the row.

  A kernel's vector reduction by addition of an `[a, b]` array along its second axis keeps one value per row.
  Over the extended reals addition is exact, so the value at row `r` is the plain sum over the row's `b` entries,
  `∑ k, src (r, k)`, whatever order the hardware adds them in (`multiReduction_add_row`).
-/
import proofs.«166769_g37641093382870_cont_sun_c4_266_19_alg».proof.Proof.LibColumns

noncomputable section

namespace Cert.RowSum

open Idealize.ShloMosaic Idealize.ShloMosaic.ValueIdx

/-- A kernel's sum of an `[a, b]` array along its second axis, at the extended reals, read at row `r`: the sum of the
    row's `b` entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  exact congrArg (fun f => Finset.sum (Finset.univ : Finset (Fin b)) f)
    (funext fun k => congrArg src (Cert.Columns.lift_row h r k))

end Cert.RowSum

end
-- ==== Proof.KPay.lean ====
/-
  The kernel's payloads, read at an index, over the extended reals.

  Each payload of the two launches is a short chain of array operations on the values read before it. Over the
  extended reals a change of format and a cast of an array to its own shape are the identity, an elementwise operation
  reads its operands at the same index, a one-row array broadcast over many rows reads its one row, and a matrix product
  into a zero accumulator reads, at `(p, q)`, the sum over the contracted positions `k` of left `(p, k)` times right
  `(k, q)`. So each payload at `(p, q)` is the textbook expression: a support is a row of sums of products; a layer's
  output is the adjacency row times the support plus the bias, compared with zero; the head's last payload is the
  row-wise log-softmax of the summed shares plus the head's bias, with each row's maximum and each row's sum of
  exponentials carried through a column and broadcast back along the row.
-/
import proofs.«166769_g37641093382870_cont_sun_c4_266_19_alg».proof.Proof.Gen.KernelIdeal.Skeleton
import proofs.«166769_g37641093382870_cont_sun_c4_266_19_alg».proof.Proof.Spec
import proofs.«166769_g37641093382870_cont_sun_c4_266_19_alg».proof.Proof.LibDotRows
import proofs.«166769_g37641093382870_cont_sun_c4_266_19_alg».proof.Proof.LibColumns
import proofs.«166769_g37641093382870_cont_sun_c4_266_19_alg».proof.Proof.LibRowSum
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx Cert.Spec

/-! ## The seven matrix products -/

/-- The product into a zero accumulator of a `[10000, 128]` left operand and a `[128, 128]` right operand, read at
    `(p, q)`: the sum over the 128 contracted positions of left `(p, k)` times right `(k, q)`. -/
theorem dotA (l : FVec Ideal S10000x128 .bf16) (r : FVec Ideal S128x128 .bf16) (p : Fin 10000) (q : Fin 128) :
    matmul dot_S10000x128_S128x128_S10000x128_1_0_0_1_n_n none l r (constant S10000x128 .f32 0x00000000#32) (ix2 p q)
      = ∑ k : Fin 128, l (ix2 p k) * r (ix2 k q) := by
  refine (Ideal.matmul_constant_zero_apply _ none l r (ix2 p q)).trans ?_
  dot_rows dot_S10000x128_S128x128_S10000x128_1_0_0_1_n_n S10000x128 S128x128 128

/-- The product into a zero accumulator of a `[400, 10000]` left operand and a `[10000, 128]` right operand, read at
    `(p, q)`: the sum over the 10000 contracted positions of left `(p, k)` times right `(k, q)`. -/
theorem dotB (l : FVec Ideal S400x10000 .bf16) (r : FVec Ideal S10000x128 .bf16) (p : Fin 400) (q : Fin 128) :
    matmul dot_S400x10000_S10000x128_S400x128_1_0_0_1_n_n none l r (constant S400x128 .f32 0x00000000#32) (ix2 p q)
      = ∑ k : Fin 10000, l (ix2 p k) * r (ix2 k q) := by
  refine (Ideal.matmul_constant_zero_apply _ none l r (ix2 p q)).trans ?_
  dot_rows dot_S400x10000_S10000x128_S400x128_1_0_0_1_n_n S400x10000 S10000x128 10000

/-- The product into a zero accumulator of a `[400, 128]` left operand and a `[128, 128]` right operand, read at
    `(p, q)`: the sum over the 128 contracted positions of left `(p, k)` times right `(k, q)`. -/
theorem dotC (l : FVec Ideal S400x128 .bf16) (r : FVec Ideal S128x128 .bf16) (p : Fin 400) (q : Fin 128) :
    matmul dot_S400x128_S128x128_S400x128_1_0_0_1_n_n none l r (constant S400x128 .f32 0x00000000#32) (ix2 p q)
      = ∑ k : Fin 128, l (ix2 p k) * r (ix2 k q) := by
  refine (Ideal.matmul_constant_zero_apply _ none l r (ix2 p q)).trans ?_
  dot_rows dot_S400x128_S128x128_S400x128_1_0_0_1_n_n S400x128 S128x128 128

/-- The product into a zero accumulator of a `[400, 128]` left operand and a `[128, 16]` right operand, read at
    `(p, q)`: the sum over the 128 contracted positions of left `(p, k)` times right `(k, q)`. -/
theorem dotD (l : FVec Ideal S400x128 .bf16) (r : FVec Ideal S128x16 .bf16) (p : Fin 400) (q : Fin 16) :
    matmul dot_S400x128_S128x16_S400x16_1_0_0_1_n_n none l r (constant S400x16 .f32 0x00000000#32) (ix2 p q)
      = ∑ k : Fin 128, l (ix2 p k) * r (ix2 k q) := by
  refine (Ideal.matmul_constant_zero_apply _ none l r (ix2 p q)).trans ?_
  dot_rows dot_S400x128_S128x16_S400x16_1_0_0_1_n_n S400x128 S128x16 128

/-- The product into a zero accumulator of a `[1000, 10000]` left operand and a `[10000, 128]` right operand, read at
    `(p, q)`: the sum over the 10000 contracted positions of left `(p, k)` times right `(k, q)`. -/
theorem dotE (l : FVec Ideal S1000x10000 .bf16) (r : FVec Ideal S10000x128 .bf16) (p : Fin 1000) (q : Fin 128) :
    matmul dot_S1000x10000_S10000x128_S1000x128_1_0_0_1_n_n none l r (constant S1000x128 .f32 0x00000000#32) (ix2 p q)
      = ∑ k : Fin 10000, l (ix2 p k) * r (ix2 k q) := by
  refine (Ideal.matmul_constant_zero_apply _ none l r (ix2 p q)).trans ?_
  dot_rows dot_S1000x10000_S10000x128_S1000x128_1_0_0_1_n_n S1000x10000 S10000x128 10000

/-- The product into a zero accumulator of a `[1000, 128]` left operand and a `[128, 128]` right operand, read at
    `(p, q)`: the sum over the 128 contracted positions of left `(p, k)` times right `(k, q)`. -/
theorem dotF (l : FVec Ideal S1000x128 .bf16) (r : FVec Ideal S128x128 .bf16) (p : Fin 1000) (q : Fin 128) :
    matmul dot_S1000x128_S128x128_S1000x128_1_0_0_1_n_n none l r (constant S1000x128 .f32 0x00000000#32) (ix2 p q)
      = ∑ k : Fin 128, l (ix2 p k) * r (ix2 k q) := by
  refine (Ideal.matmul_constant_zero_apply _ none l r (ix2 p q)).trans ?_
  dot_rows dot_S1000x128_S128x128_S1000x128_1_0_0_1_n_n S1000x128 S128x128 128

/-- The product into a zero accumulator of a `[1000, 128]` left operand and a `[128, 16]` right operand, read at
    `(p, q)`: the sum over the 128 contracted positions of left `(p, k)` times right `(k, q)`. -/
theorem dotG (l : FVec Ideal S1000x128 .bf16) (r : FVec Ideal S128x16 .bf16) (p : Fin 1000) (q : Fin 16) :
    matmul dot_S1000x128_S128x16_S1000x16_1_0_0_1_n_n none l r (constant S1000x16 .f32 0x00000000#32) (ix2 p q)
      = ∑ k : Fin 128, l (ix2 p k) * r (ix2 k q) := by
  refine (Ideal.matmul_constant_zero_apply _ none l r (ix2 p q)).trans ?_
  dot_rows dot_S1000x128_S128x16_S1000x16_1_0_0_1_n_n S1000x128 S128x16 128

/-! ## Elementwise reads not already in the library -/

/-- The exponential of an array of extended reals, read at an index. -/
theorem exp_apply {s : Shape} {φ : FTy} (a : FVec Ideal s φ) (i : s.Idx) : exp a i = Ideal.exp (a i) := rfl

/-- The logarithm of an array of extended reals, read at an index. -/
theorem log_apply {s : Shape} {φ : FTy} (a : FVec Ideal s φ) (i : s.Idx) : log a i = Ideal.log (a i) := rfl

/-! ## The first launch's payloads -/

/-- The features times the first layer's weights: the first layer's support, row `a`, column `k`. -/
theorem pay0_1 (v6 : Vec Ideal S10000x128 .f32) (v8 : Vec Ideal S128x128 .bf16) (a : Fin 10000) (k : Fin 128) :
    k0_pay1 (F := Ideal) v6 v8 (ix2 a k) = ∑ e : Fin 128, v6 (ix2 a e) * v8 (ix2 e k) := by
  unfold k0_pay1
  rw [shapeCast_self, shapeCast_self]
  exact dotA _ _ a k

/-- The adjacency rows, narrowed: over the extended reals a change of format is the identity. -/
theorem pay0_2 (v6 : Vec Ideal S400x10000 .f32) (p : Fin 400) (j : Fin 10000) : k0_pay2 (F := Ideal) v6 (ix2 p j) = v6 (ix2 p j) := rfl

/-- A layer's output on 400 rows: the adjacency rows times the support, plus the bias's one row, rectified. -/
theorem pay0_3 (v6 : Vec Ideal S400x10000 .f32) (v9 : Vec Ideal S10000x128 .bf16) (v11 : Vec Ideal S1x128 .f32) (p : Fin 400) (k : Fin 128) :
    k0_pay3 (F := Ideal) v6 v9 v11 (ix2 p k) = max ((∑ a : Fin 10000, v6 (ix2 p a) * v9 (ix2 a k)) + v11 (ix2 (0 : Fin 1) k)) Cert.Spec.zero := by
  unfold k0_pay3
  rw [truncf_apply, maximumf_apply, addf_apply, broadcast_apply, dotB, shapeCast_self, broadcastTo_1b_ab_apply]
  rfl

/-- The next layer's support on those rows: the layer's output times the next layer's weights. -/
theorem pay0_4 (v6 : Vec Ideal S400x10000 .f32) (v9 : Vec Ideal S10000x128 .bf16) (v11 : Vec Ideal S1x128 .f32) (v18 : Vec Ideal S128x128 .bf16) (p : Fin 400) (k' : Fin 128) :
    k0_pay4 (F := Ideal) v6 v9 v11 v18 (ix2 p k') = ∑ k : Fin 128, k0_pay3 (F := Ideal) v6 v9 v11 (ix2 p k) * v18 (ix2 k k') := by
  unfold k0_pay4
  rw [truncf_apply, shapeCast_self]
  exact dotC _ _ p k'

/-- The layer's share of the head on those rows: the layer's output times its 128 columns of the head's weights. -/
theorem pay0_5 (v6 : Vec Ideal S400x10000 .f32) (v9 : Vec Ideal S10000x128 .bf16) (v11 : Vec Ideal S1x128 .f32) (v23 : Vec Ideal S128x16 .bf16) (p : Fin 400) (q : Fin 16) :
    k0_pay5 (F := Ideal) v6 v9 v11 v23 (ix2 p q) = ∑ k : Fin 128, k0_pay3 (F := Ideal) v6 v9 v11 (ix2 p k) * v23 (ix2 k q) := by
  unfold k0_pay5
  rw [shapeCast_self]
  exact dotD _ _ p q

/-! ## The second launch's payloads -/

/-- A layer's pre-output on 1000 rows read at `(p, k)`: the adjacency rows times the support, plus the bias's one row,
    compared with the scalar `c`. -/
theorem layer_apply (l : FVec Ideal S1000x10000 .bf16) (r : FVec Ideal S10000x128 .bf16) (b : FVec Ideal S1x128 .f32)
    (h : S1x128.Broadcasts S1000x128) (c : Ideal .f32) (p : Fin 1000) (k : Fin 128) :
    maximumf (addf (matmul dot_S1000x10000_S10000x128_S1000x128_1_0_0_1_n_n none l r (constant S1000x128 .f32 0x00000000#32))
        (broadcastTo S1000x128 b h)) (broadcast S1000x128 c) (ix2 p k)
      = max ((∑ a : Fin 10000, l (ix2 p a) * r (ix2 a k)) + b (ix2 (0 : Fin 1) k)) c := by
  rw [maximumf_apply, addf_apply, broadcast_apply, dotE, broadcastTo_1b_ab_apply]

/-- A layer's output on 1000 rows: the adjacency rows times the support, plus the bias, rectified. -/
theorem pay1_1 (v6 : Vec Ideal S1000x10000 .bf16) (v8 : Vec Ideal S10000x128 .bf16) (v11 : Vec Ideal S1x1x128 .f32) (p : Fin 1000) (k : Fin 128) :
    k1_pay1 (F := Ideal) v6 v8 v11 (ix2 p k) = max ((∑ a : Fin 10000, v6 (ix2 p a) * v8 (ix2 a k)) + v11 (ix3 (0 : Fin 1) (0 : Fin 1) k)) Cert.Spec.zero := by
  unfold k1_pay1
  rw [truncf_apply, layer_apply, shapeCast_self, shapeCast_self, shapeCast_1ab_ab_apply]
  rfl

/-- The next layer's support on those rows. -/
theorem pay1_2 (v6 : Vec Ideal S1000x10000 .bf16) (v8 : Vec Ideal S10000x128 .bf16) (v11 : Vec Ideal S1x1x128 .f32) (v18 : Vec Ideal S128x128 .bf16) (p : Fin 1000) (k' : Fin 128) :
    k1_pay2 (F := Ideal) v6 v8 v11 v18 (ix2 p k') = ∑ k : Fin 128, k1_pay1 (F := Ideal) v6 v8 v11 (ix2 p k) * v18 (ix2 k k') := by
  unfold k1_pay2
  rw [shapeCast_self, truncf_apply, shapeCast_self]
  exact dotF _ _ p k'

/-- The layer's share of the head on those rows. -/
theorem pay1_3 (v6 : Vec Ideal S1000x10000 .bf16) (v8 : Vec Ideal S10000x128 .bf16) (v11 : Vec Ideal S1x1x128 .f32) (v27 : Vec Ideal S1x128x16 .bf16) (p : Fin 1000) (q : Fin 16) :
    k1_pay3 (F := Ideal) v6 v8 v11 v27 (ix2 p q) = ∑ k : Fin 128, k1_pay1 (F := Ideal) v6 v8 v11 (ix2 p k) * v27 (ix3 (0 : Fin 1) k q) := by
  unfold k1_pay3
  rw [shapeCast_self, dotG]
  refine Finset.sum_congr rfl fun k _ => ?_
  rw [shapeCast_1ab_ab_apply]

/-- The result block with a leading unit axis put in front. -/
theorem pay1_4 (v40 : FVec Ideal S1000x16 .f32) (p : Fin 1000) (q : Fin 16) : k1_pay4 (F := Ideal) v40 (ix3 (0 : Fin 1) p q) = v40 (ix2 p q) := by
  unfold k1_pay4
  exact shapeCast_ab_1ab_apply v40 _ 0 p q

/-! ## The log-softmax of the head's logits -/

/-- A block of logits less its rows' maxima, read at `(p, q)`: the entry less the fold of `max` over row `p`. The
    row maximum is reduced to a vector, cast to a column and broadcast back along the row. -/
theorem shifted_apply (Z : FVec Ideal S1000x16 .f32) (h1 : S1000x16.Reduces [1] S1000) (h2 : S1000.ShapeCasts S1000x1)
    (h3 : S1000x1.Broadcasts S1000x16) (hφ : FKind.Formats .f32)
    (hm : (0xFF800000#32 : BitVec (FTy.bits .f32)) = FKind.maximumf.neutral .f32 hφ) (p : Fin 1000) (q : Fin 16) :
    subf Z (broadcastTo S1000x16 (shapeCast S1000x1 (multiReduction .maximumf [1] S1000 Z 0xFF800000#32 h1 hφ hm) h2) h3) (ix2 p q)
      = Z (ix2 p q) - (Finset.univ : Finset (Fin 16)).fold max ninf (fun k => Z (ix2 p k)) := by
  rw [subf_apply, Cert.Columns.broadcastTo_a1_ab_apply, Cert.Columns.shapeCast_a_a1_apply,
    Cert.Columns.multiReduction_maximumf_row]

/-- The row-wise log-softmax of a block of logits as the kernel computes it — the shifted block less the logarithm of
    the row sums of its exponentials, each row value carried through a column — read at `(p, q)`: the log-softmax of
    row `p` at `q`. -/
theorem lsm_apply (Z : FVec Ideal S1000x16 .f32) (h1 : S1000x16.Reduces [1] S1000) (h2 : S1000.ShapeCasts S1000x1)
    (h3 : S1000x1.Broadcasts S1000x16) (hφ : FKind.Formats .f32)
    (hm : (0xFF800000#32 : BitVec (FTy.bits .f32)) = FKind.maximumf.neutral .f32 hφ)
    (ha : (0x00000000#32 : BitVec (FTy.bits .f32)) = FKind.add.neutral .f32 hφ) (p : Fin 1000) (q : Fin 16) :
    subf (subf Z (broadcastTo S1000x16 (shapeCast S1000x1 (multiReduction .maximumf [1] S1000 Z 0xFF800000#32 h1 hφ hm) h2) h3))
        (broadcastTo S1000x16 (log (shapeCast S1000x1
          (multiReduction .add [1] S1000
            (exp (subf Z (broadcastTo S1000x16 (shapeCast S1000x1 (multiReduction .maximumf [1] S1000 Z 0xFF800000#32 h1 hφ hm) h2) h3)))
            0x00000000#32 h1 hφ ha) h2)) h3) (ix2 p q)
      = lsm (fun q' => Z (ix2 p q')) q := by
  rw [subf_apply, shifted_apply, Cert.Columns.broadcastTo_a1_ab_apply, log_apply, Cert.Columns.shapeCast_a_a1_apply,
    Cert.RowSum.multiReduction_add_row]
  unfold lsm
  refine congrArg (fun t => (Z (ix2 p q) - (Finset.univ : Finset (Fin 16)).fold max ninf (fun k => Z (ix2 p k))) - Ideal.log t)
    (Finset.sum_congr rfl fun k _ => ?_)
  rw [exp_apply, shifted_apply]

/-- The head on 1000 rows: the two earlier layers' shares, the last layer's share (its output times its columns of the
    head's weights) and the head's bias, summed in that order, then the row-wise log-softmax. -/
theorem pay1_5 (v6 : Vec Ideal S1000x10000 .bf16) (v8 : Vec Ideal S10000x128 .bf16) (v10 : Vec Ideal S1x1x128 .f32) (v17 : Vec Ideal S1x128x16 .bf16) (v20 v24 : Vec Ideal S1000x16 .f32) (v27 : Vec Ideal S1x16 .f32) (p : Fin 1000) (q : Fin 16) :
    k1_pay5 (F := Ideal) v6 v8 v10 v17 v20 v24 v27 (ix2 p q)
      = Cert.Spec.lsm (fun q' : Fin 16 => ((v20 (ix2 p q') + v24 (ix2 p q'))
          + ∑ k : Fin 128, (max ((∑ a : Fin 10000, v6 (ix2 p a) * v8 (ix2 a k)) + v10 (ix3 (0 : Fin 1) (0 : Fin 1) k)) Cert.Spec.zero) * v17 (ix3 (0 : Fin 1) k q'))
          + v27 (ix2 (0 : Fin 1) q')) q := by
  unfold k1_pay5
  refine (lsm_apply _ _ _ _ _ _ _ p q).trans ?_
  refine congrArg (fun z => lsm z q) (funext fun q' => ?_)
  rw [addf_apply, addf_apply, addf_apply, shapeCast_self, shapeCast_self, shapeCast_self, broadcastTo_1b_ab_apply, dotG]
  refine congrArg (fun t => ((v20 (ix2 p q') + v24 (ix2 p q')) + t) + v27 (ix2 (0 : Fin 1) q')) (Finset.sum_congr rfl fun k _ => ?_)
  rw [truncf_apply, layer_apply, shapeCast_1ab_ab_apply, shapeCast_1ab_ab_apply]
  rfl

end Cert.KernelIdeal.Pay

end
-- ==== Proof.K0Vals.lean ====
import proofs.«166769_g37641093382870_cont_sun_c4_266_19_alg».proof.Proof.KHost
import proofs.«166769_g37641093382870_cont_sun_c4_266_19_alg».proof.Proof.KPay
import Idealize.ShloMosaic.Lib.Pipeline.Value

set_option maxRecDepth 16384

noncomputable section

namespace Cert.KernelIdeal.Hnd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

open Idealize.ShloMosaic.ValueIdx Cert.Spec

open Cert.KernelIdeal.Pay

/-! # Region 0 at the extended reals: its blocks, what each point stores, and its arrays after the run

The scratch holds the first layer's support; at point `t ≥ 1` the body consumes the rows `400 (t - 1) … 400 (t - 1) + 399` of the
adjacency and stores those rows of the adjacency itself, of the second layer's support and of the head's first share. The
25 row blocks tile each output array. -/

variable (m : (ℓ : Loc nD τ sig) → Buf (Elt Ideal) ℓ) (c : Dev nD)

/-- The first layer's output, as the specification names it. -/
abbrev H1 : Fin 10000 → Fin 128 → EReal := Cert.Spec.h1 (aX m c) (aAdj m c) (aW0 m c) (ab0 m c)

/-- The windows' block indices, decided over the grid. -/
theorem idx0_facts : ∀ t : Fin cfg0.N,
    win0_0.index t (0 : Fin 2) = 0 ∧ win0_0.index t (1 : Fin 2) = 0
    ∧ win0_1.index t (0 : Fin 2) = t.val - 1 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val - 1 ∧ win0_6.index t (1 : Fin 2) = 0
    ∧ win0_7.index t (0 : Fin 2) = t.val - 1 ∧ win0_7.index t (1 : Fin 2) = 0
    ∧ win0_8.index t (0 : Fin 2) = t.val - 1 ∧ win0_8.index t (1 : Fin 2) = 0 :=
  (by decide +kernel : ∀ t : Fin grid0.N, _)

/-- The array row that row `p` of point `t`'s block is. -/
abbrev row0 (t : Fin cfg0.N) (p : Fin 400) : Fin 10000 :=
  ⟨(t.val - 1) * 400 + p.val, by have := t.isLt; have hN : cfg0.N = 26 := N_0; have := p.isLt; omega⟩

theorem iblk0_0 (t : Fin cfg0.N) (a : Fin 10000) (e : Fin 128) : iblk0 (V1 m) c 0 t (ix2 a e) = aX m c (ix2 a e) := by
  show V1 m c main_arg0 (((cfg0.win 0).blk t).view.emb (ix2 a e)) = _
  rw [V1_arg0]
  exact congrArg (aX m c) (funext fun ax => Fin.ext (by
      obtain ⟨h00, h01, h10, h11, h20, h21, h30, h31, h40, h41, h50, h51, h60, h61, h70, h71, h80, h81⟩ := idx0_facts t
      match ax with
      | ⟨0, _⟩ => show win0_0.index t (0 : Fin 2) * 10000 + 1 * (a).val = a.val; omega
      | ⟨1, _⟩ => show win0_0.index t (1 : Fin 2) * 128 + 1 * (e).val = e.val; omega))
theorem iblk0_1 (t : Fin cfg0.N) (p : Fin 400) (j : Fin 10000) : iblk0 (V1 m) c 1 t (ix2 p j) = aAdj m c (ix2 (row0 t p) j) := by
  show V1 m c main_arg1 (((cfg0.win 1).blk t).view.emb (ix2 p j)) = _
  rw [V1_arg1]
  exact congrArg (aAdj m c) (funext fun ax => Fin.ext (by
      obtain ⟨h00, h01, h10, h11, h20, h21, h30, h31, h40, h41, h50, h51, h60, h61, h70, h71, h80, h81⟩ := idx0_facts t
      match ax with
      | ⟨0, _⟩ => show win0_1.index t (0 : Fin 2) * 400 + 1 * (p).val = (t.val - 1) * 400 + p.val; omega
      | ⟨1, _⟩ => show win0_1.index t (1 : Fin 2) * 10000 + 1 * (j).val = j.val; omega))
theorem iblk0_2 (t : Fin cfg0.N) (e k : Fin 128) : iblk0 (V1 m) c 2 t (ix2 e k) = aW0 m c (ix2 e k) := by
  show V1 m c main_v0 (((cfg0.win 2).blk t).view.emb (ix2 e k)) = _
  rw [show ((cfg0.win 2).blk t).view.emb (ix2 e k) = ix2 e k from (funext fun ax => Fin.ext (by
      obtain ⟨h00, h01, h10, h11, h20, h21, h30, h31, h40, h41, h50, h51, h60, h61, h70, h71, h80, h81⟩ := idx0_facts t
      match ax with
      | ⟨0, _⟩ => show win0_2.index t (0 : Fin 2) * 128 + 1 * (e).val = e.val; omega
      | ⟨1, _⟩ => show win0_2.index t (1 : Fin 2) * 128 + 1 * (k).val = k.val; omega))]
  exact V1_v0 m c e k
theorem iblk0_3 (t : Fin cfg0.N) (u : Fin 1) (k : Fin 128) : iblk0 (V1 m) c 3 t (ix2 u k) = ab0 m c (ix1 k) := by
  show V1 m c main_v12 (((cfg0.win 3).blk t).view.emb (ix2 u k)) = _
  rw [show ((cfg0.win 3).blk t).view.emb (ix2 u k) = ix2 u k from (funext fun ax => Fin.ext (by
      obtain ⟨h00, h01, h10, h11, h20, h21, h30, h31, h40, h41, h50, h51, h60, h61, h70, h71, h80, h81⟩ := idx0_facts t
      match ax with
      | ⟨0, _⟩ => show win0_3.index t (0 : Fin 2) * 1 + 1 * (u).val = u.val; omega
      | ⟨1, _⟩ => show win0_3.index t (1 : Fin 2) * 128 + 1 * (k).val = k.val; omega))]
  exact V1_v12 m c u k
theorem iblk0_4 (t : Fin cfg0.N) (e k : Fin 128) : iblk0 (V1 m) c 4 t (ix2 e k) = aW1 m c (ix2 e k) := by
  show V1 m c main_v1 (((cfg0.win 4).blk t).view.emb (ix2 e k)) = _
  rw [show ((cfg0.win 4).blk t).view.emb (ix2 e k) = ix2 e k from (funext fun ax => Fin.ext (by
      obtain ⟨h00, h01, h10, h11, h20, h21, h30, h31, h40, h41, h50, h51, h60, h61, h70, h71, h80, h81⟩ := idx0_facts t
      match ax with
      | ⟨0, _⟩ => show win0_4.index t (0 : Fin 2) * 128 + 1 * (e).val = e.val; omega
      | ⟨1, _⟩ => show win0_4.index t (1 : Fin 2) * 128 + 1 * (k).val = k.val; omega))]
  exact V1_v1 m c e k
theorem iblk0_5 (t : Fin cfg0.N) (k : Fin 128) (q : Fin 16) :
    iblk0 (V1 m) c 5 t (ix2 k q) = aWl m c (ix2 q (⟨0 + k.val, by have := k.isLt; omega⟩ : Fin 384)) := by
  show V1 m c main_v5 (((cfg0.win 5).blk t).view.emb (ix2 k q)) = _
  rw [show ((cfg0.win 5).blk t).view.emb (ix2 k q) = ix2 k q from (funext fun ax => Fin.ext (by
      obtain ⟨h00, h01, h10, h11, h20, h21, h30, h31, h40, h41, h50, h51, h60, h61, h70, h71, h80, h81⟩ := idx0_facts t
      match ax with
      | ⟨0, _⟩ => show win0_5.index t (0 : Fin 2) * 128 + 1 * (k).val = k.val; omega
      | ⟨1, _⟩ => show win0_5.index t (1 : Fin 2) * 16 + 1 * (q).val = q.val; omega))]
  exact V1_v5 m c k q

/-- The scratch holds the first layer's support. -/
theorem S0_at (a : Fin 10000) (k : Fin 128) :
    S0 (V1 m) c (ix2 a k) = Cert.Spec.sup (fun a e => aX m c (ix2 a e)) (aW0 m c) a k := by
  unfold S0; rw [pay0_1]; unfold Cert.Spec.sup
  exact Finset.sum_congr rfl fun e _ => by rw [iblk0_0, iblk0_2]

/-- The rectified rows a point computes are the first layer's output rows of its block. -/
theorem pay3_at (t : Fin cfg0.N) (p : Fin 400) (k : Fin 128) :
    k0_pay3 (F := Ideal) (iblk0 (V1 m) c 1 t) (S0 (V1 m) c) (iblk0 (V1 m) c 3 t) (ix2 p k) = H1 m c (row0 t p) k := by
  rw [pay0_3]; unfold H1 Cert.Spec.h1 Cert.Spec.lay
  rw [iblk0_3]
  exact congrArg (fun s => max (s + ab0 m c (ix1 k)) Cert.Spec.zero) (Finset.sum_congr rfl fun a _ => by rw [iblk0_1, S0_at])

theorem out0_6_at (t : Fin cfg0.N) (p : Fin 400) (j : Fin 10000) : out0_6 (V1 m) c t (ix2 p j) = aAdj m c (ix2 (row0 t p) j) := by
  unfold out0_6; rw [pay0_2, iblk0_1]
theorem out0_7_at (t : Fin cfg0.N) (p : Fin 400) (k' : Fin 128) :
    out0_7 (V1 m) c t (ix2 p k') = Cert.Spec.sup (H1 m c) (aW1 m c) (row0 t p) k' := by
  unfold out0_7; rw [pay0_4]; unfold Cert.Spec.sup
  exact Finset.sum_congr rfl fun k _ => by rw [pay3_at, iblk0_4]
theorem out0_8_at (t : Fin cfg0.N) (p : Fin 400) (q : Fin 16) :
    out0_8 (V1 m) c t (ix2 p q) = Cert.Spec.zp (H1 m c) (aWl m c) 0 (by omega) (row0 t p) q := by
  unfold out0_8; rw [pay0_5]; unfold Cert.Spec.zp
  exact Finset.sum_congr rfl fun k _ => by rw [pay3_at, iblk0_5]

end Cert.KernelIdeal.Hnd

end
-- ==== Proof.K0Arr.lean ====
import proofs.«166769_g37641093382870_cont_sun_c4_266_19_alg».proof.Proof.K0Vals

set_option maxRecDepth 16384

noncomputable section

namespace Cert.KernelIdeal.Hnd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

open Idealize.ShloMosaic.ValueIdx Cert.Spec

open Cert.KernelIdeal.Pay

/-! # Region 0's output arrays after the run (extended reals)

Each of the 25 points after the first writes back one block of 400 rows; the blocks tile the arrays, so each array ends
holding one function of the arguments: the adjacency itself, the second layer's support, the head's first share. -/

variable (m : (ℓ : Loc nD τ sig) → Buf (Elt Ideal) ℓ) (c : Dev nD)

/-- The three output windows are written back at every point but the first. -/
theorem flush0_facts : ∀ t : Fin cfg0.N, ((cfg0.win 6).flush t = true ↔ t.val ≠ 0) ∧ ((cfg0.win 7).flush t = true ↔ t.val ≠ 0)
    ∧ ((cfg0.win 8).flush t = true ↔ t.val ≠ 0) :=
  (by decide +kernel : ∀ t : Fin grid0.N, _)

/-- What output window 6's array ends holding. -/
def G6 : Buf (Elt Ideal) ((c : Thread nD τ).loc main_v19_0) := fun i => aAdj m c i
theorem G6_at (r : Fin 10000) (j : Fin 10000) : G6 m c (ix2 r j) = aAdj m c (ix2 r j) := rfl

theorem mem_blk0_6 (t : Fin cfg0.N) (i : S10000x10000.Idx) :
    i ∈ ((cfg0.win 6).blk t).view.set ↔ ∀ a : Fin 2, win0_6.index t a * S400x10000.size a ≤ (i a).val ∧ (i a).val < win0_6.index t a * S400x10000.size a + S400x10000.size a := by
  show i ∈ ((View.whole main_v19_0).slice (win0_6.rect t)).set ↔ _
  rw [View.set_slice_whole, Rect.mem_set_unit]
  exact Iff.rfl

/-- What a point writes back is its block of that function. -/
theorem flushed0_6 (t : Fin cfg0.N) :
    (dat0 (V1 m) c).flushed 6 t = ((cfg0.win 6).blk t).view.read (Elt Ideal) (G6 m c) := by
  show (cfg0.win 6).cut (grid0.coords t) ((dat0 (V1 m) c).after 6 t) = _
  rw [after0_6]
  funext y
  obtain ⟨p, q, rfl⟩ : ∃ (p : Fin 400) (q : Fin 10000), y = ix2 p q := ⟨y 0, y 1, eq_ix2 y⟩
  show out0_6 (V1 m) c t (ix2 p q) = G6 m c (((cfg0.win 6).blk t).view.emb (ix2 p q))
  rw [out0_6_at, show ((cfg0.win 6).blk t).view.emb (ix2 p q) = ix2 (row0 t p) q from (funext fun ax => Fin.ext (by
      obtain ⟨h00, h01, h10, h11, h20, h21, h30, h31, h40, h41, h50, h51, h60, h61, h70, h71, h80, h81⟩ := idx0_facts t
      match ax with
      | ⟨0, _⟩ => show win0_6.index t (0 : Fin 2) * 400 + 1 * (p).val = (t.val - 1) * 400 + p.val; omega
      | ⟨1, _⟩ => show win0_6.index t (1 : Fin 2) * 10000 + 1 * (q).val = q.val; omega))]
  rfl

/-- The blocks written back tile the array. -/
theorem cover0_6 (i : S10000x10000.Idx) : ∃ t : Fin cfg0.N, (cfg0.win 6).flush t = true ∧ i ∈ ((cfg0.win 6).blk t).view.set := by
  have hi0 : (i 0).val < 10000 := (i 0).isLt
  have hi1 : (i 1).val < 10000 := (i 1).isLt
  have hN : cfg0.N = 26 := N_0
  refine ⟨⟨(i 0).val / 400 + 1, by omega⟩, ?_, ?_⟩
  · exact ((flush0_facts _).1).mpr (by show (i 0).val / 400 + 1 ≠ 0; omega)
  · rw [mem_blk0_6]
    obtain ⟨h00, h01, h10, h11, h20, h21, h30, h31, h40, h41, h50, h51, h60, h61, h70, h71, h80, h81⟩ := idx0_facts (⟨(i 0).val / 400 + 1, by omega⟩ : Fin cfg0.N)
    intro a
    match a with
    | ⟨0, _⟩ => show win0_6.index _ (0 : Fin 2) * 400 ≤ (i 0).val ∧ (i 0).val < win0_6.index _ (0 : Fin 2) * 400 + 400; rw [h60]; show ((i 0).val / 400 + 1 - 1) * 400 ≤ _ ∧ _ < ((i 0).val / 400 + 1 - 1) * 400 + 400; omega
    | ⟨1, _⟩ => show win0_6.index _ (1 : Fin 2) * 10000 ≤ (i 1).val ∧ (i 1).val < win0_6.index _ (1 : Fin 2) * 10000 + 10000; rw [h61]; omega

/-- THE ARRAY after the run. -/
theorem arr0_6 : (dat0 (V1 m) c).arrAt 6 cfg0.N = G6 m c :=
  (dat0 (V1 m) c).arrAt_eq_of_cover 6 (G6 m c) (fun t _ => flushed0_6 m c t) (cover0_6)
theorem V2_main_v19_0 : V2 m c main_v19_0 = G6 m c := (hF0 m c 6).symm.trans (arr0_6 m c)

/-- What output window 7's array ends holding. -/
def G7 : Buf (Elt Ideal) ((c : Thread nD τ).loc main_v19_1) := fun i => Cert.Spec.sup (H1 m c) (aW1 m c) (⟨(i 0).val, (i 0).isLt⟩ : Fin 10000) (⟨(i 1).val, (i 1).isLt⟩ : Fin 128)
theorem G7_at (r : Fin 10000) (j : Fin 128) : G7 m c (ix2 r j) = Cert.Spec.sup (H1 m c) (aW1 m c) r j := rfl

theorem mem_blk0_7 (t : Fin cfg0.N) (i : S10000x128.Idx) :
    i ∈ ((cfg0.win 7).blk t).view.set ↔ ∀ a : Fin 2, win0_7.index t a * S400x128.size a ≤ (i a).val ∧ (i a).val < win0_7.index t a * S400x128.size a + S400x128.size a := by
  show i ∈ ((View.whole main_v19_1).slice (win0_7.rect t)).set ↔ _
  rw [View.set_slice_whole, Rect.mem_set_unit]
  exact Iff.rfl

/-- What a point writes back is its block of that function. -/
theorem flushed0_7 (t : Fin cfg0.N) :
    (dat0 (V1 m) c).flushed 7 t = ((cfg0.win 7).blk t).view.read (Elt Ideal) (G7 m c) := by
  show (cfg0.win 7).cut (grid0.coords t) ((dat0 (V1 m) c).after 7 t) = _
  rw [after0_7]
  funext y
  obtain ⟨p, q, rfl⟩ : ∃ (p : Fin 400) (q : Fin 128), y = ix2 p q := ⟨y 0, y 1, eq_ix2 y⟩
  show out0_7 (V1 m) c t (ix2 p q) = G7 m c (((cfg0.win 7).blk t).view.emb (ix2 p q))
  rw [out0_7_at, show ((cfg0.win 7).blk t).view.emb (ix2 p q) = ix2 (row0 t p) q from (funext fun ax => Fin.ext (by
      obtain ⟨h00, h01, h10, h11, h20, h21, h30, h31, h40, h41, h50, h51, h60, h61, h70, h71, h80, h81⟩ := idx0_facts t
      match ax with
      | ⟨0, _⟩ => show win0_7.index t (0 : Fin 2) * 400 + 1 * (p).val = (t.val - 1) * 400 + p.val; omega
      | ⟨1, _⟩ => show win0_7.index t (1 : Fin 2) * 128 + 1 * (q).val = q.val; omega))]
  rfl

/-- The blocks written back tile the array. -/
theorem cover0_7 (i : S10000x128.Idx) : ∃ t : Fin cfg0.N, (cfg0.win 7).flush t = true ∧ i ∈ ((cfg0.win 7).blk t).view.set := by
  have hi0 : (i 0).val < 10000 := (i 0).isLt
  have hi1 : (i 1).val < 128 := (i 1).isLt
  have hN : cfg0.N = 26 := N_0
  refine ⟨⟨(i 0).val / 400 + 1, by omega⟩, ?_, ?_⟩
  · exact ((flush0_facts _).2.1).mpr (by show (i 0).val / 400 + 1 ≠ 0; omega)
  · rw [mem_blk0_7]
    obtain ⟨h00, h01, h10, h11, h20, h21, h30, h31, h40, h41, h50, h51, h60, h61, h70, h71, h80, h81⟩ := idx0_facts (⟨(i 0).val / 400 + 1, by omega⟩ : Fin cfg0.N)
    intro a
    match a with
    | ⟨0, _⟩ => show win0_7.index _ (0 : Fin 2) * 400 ≤ (i 0).val ∧ (i 0).val < win0_7.index _ (0 : Fin 2) * 400 + 400; rw [h70]; show ((i 0).val / 400 + 1 - 1) * 400 ≤ _ ∧ _ < ((i 0).val / 400 + 1 - 1) * 400 + 400; omega
    | ⟨1, _⟩ => show win0_7.index _ (1 : Fin 2) * 128 ≤ (i 1).val ∧ (i 1).val < win0_7.index _ (1 : Fin 2) * 128 + 128; rw [h71]; omega

/-- THE ARRAY after the run. -/
theorem arr0_7 : (dat0 (V1 m) c).arrAt 7 cfg0.N = G7 m c :=
  (dat0 (V1 m) c).arrAt_eq_of_cover 7 (G7 m c) (fun t _ => flushed0_7 m c t) (cover0_7)
theorem V2_main_v19_1 : V2 m c main_v19_1 = G7 m c := (hF0 m c 7).symm.trans (arr0_7 m c)

/-- What output window 8's array ends holding. -/
def G8 : Buf (Elt Ideal) ((c : Thread nD τ).loc main_v19_2) := fun i => Cert.Spec.zp (H1 m c) (aWl m c) 0 (by omega) (⟨(i 0).val, (i 0).isLt⟩ : Fin 10000) (⟨(i 1).val, (i 1).isLt⟩ : Fin 16)
theorem G8_at (r : Fin 10000) (j : Fin 16) : G8 m c (ix2 r j) = Cert.Spec.zp (H1 m c) (aWl m c) 0 (by omega) r j := rfl

theorem mem_blk0_8 (t : Fin cfg0.N) (i : S10000x16.Idx) :
    i ∈ ((cfg0.win 8).blk t).view.set ↔ ∀ a : Fin 2, win0_8.index t a * S400x16.size a ≤ (i a).val ∧ (i a).val < win0_8.index t a * S400x16.size a + S400x16.size a := by
  show i ∈ ((View.whole main_v19_2).slice (win0_8.rect t)).set ↔ _
  rw [View.set_slice_whole, Rect.mem_set_unit]
  exact Iff.rfl

/-- What a point writes back is its block of that function. -/
theorem flushed0_8 (t : Fin cfg0.N) :
    (dat0 (V1 m) c).flushed 8 t = ((cfg0.win 8).blk t).view.read (Elt Ideal) (G8 m c) := by
  show (cfg0.win 8).cut (grid0.coords t) ((dat0 (V1 m) c).after 8 t) = _
  rw [after0_8]
  funext y
  obtain ⟨p, q, rfl⟩ : ∃ (p : Fin 400) (q : Fin 16), y = ix2 p q := ⟨y 0, y 1, eq_ix2 y⟩
  show out0_8 (V1 m) c t (ix2 p q) = G8 m c (((cfg0.win 8).blk t).view.emb (ix2 p q))
  rw [out0_8_at, show ((cfg0.win 8).blk t).view.emb (ix2 p q) = ix2 (row0 t p) q from (funext fun ax => Fin.ext (by
      obtain ⟨h00, h01, h10, h11, h20, h21, h30, h31, h40, h41, h50, h51, h60, h61, h70, h71, h80, h81⟩ := idx0_facts t
      match ax with
      | ⟨0, _⟩ => show win0_8.index t (0 : Fin 2) * 400 + 1 * (p).val = (t.val - 1) * 400 + p.val; omega
      | ⟨1, _⟩ => show win0_8.index t (1 : Fin 2) * 16 + 1 * (q).val = q.val; omega))]
  rfl

/-- The blocks written back tile the array. -/
theorem cover0_8 (i : S10000x16.Idx) : ∃ t : Fin cfg0.N, (cfg0.win 8).flush t = true ∧ i ∈ ((cfg0.win 8).blk t).view.set := by
  have hi0 : (i 0).val < 10000 := (i 0).isLt
  have hi1 : (i 1).val < 16 := (i 1).isLt
  have hN : cfg0.N = 26 := N_0
  refine ⟨⟨(i 0).val / 400 + 1, by omega⟩, ?_, ?_⟩
  · exact ((flush0_facts _).2.2).mpr (by show (i 0).val / 400 + 1 ≠ 0; omega)
  · rw [mem_blk0_8]
    obtain ⟨h00, h01, h10, h11, h20, h21, h30, h31, h40, h41, h50, h51, h60, h61, h70, h71, h80, h81⟩ := idx0_facts (⟨(i 0).val / 400 + 1, by omega⟩ : Fin cfg0.N)
    intro a
    match a with
    | ⟨0, _⟩ => show win0_8.index _ (0 : Fin 2) * 400 ≤ (i 0).val ∧ (i 0).val < win0_8.index _ (0 : Fin 2) * 400 + 400; rw [h80]; show ((i 0).val / 400 + 1 - 1) * 400 ≤ _ ∧ _ < ((i 0).val / 400 + 1 - 1) * 400 + 400; omega
    | ⟨1, _⟩ => show win0_8.index _ (1 : Fin 2) * 16 ≤ (i 1).val ∧ (i 1).val < win0_8.index _ (1 : Fin 2) * 16 + 16; rw [h81]; omega

/-- THE ARRAY after the run. -/
theorem arr0_8 : (dat0 (V1 m) c).arrAt 8 cfg0.N = G8 m c :=
  (dat0 (V1 m) c).arrAt_eq_of_cover 8 (G8 m c) (fun t _ => flushed0_8 m c t) (cover0_8)
theorem V2_main_v19_2 : V2 m c main_v19_2 = G8 m c := (hF0 m c 8).symm.trans (arr0_8 m c)

/-- Every other buffer the second region reads holds what it held before the first. -/
theorem V2_of_other (b : Ref sig .tc) (hb : b ∉ Finset.univ.image (Pipeline.arrRef spec0)) : V2 m c b = V1 m c b := hrest0 m c b hb

end Cert.KernelIdeal.Hnd

end
-- ==== Proof.K1Blocks.lean ====
import proofs.«166769_g37641093382870_cont_sun_c4_266_19_alg».proof.Proof.K0Arr

set_option maxRecDepth 16384

noncomputable section

namespace Cert.KernelIdeal.Hnd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

open Idealize.ShloMosaic.ValueIdx Cert.Spec

open Cert.KernelIdeal.Pay

/-! # Region 1 at the extended reals: its blocks and its two scratch buffers

Point `t` of the grid is pass `t / 10`, row block `t % 10`: rows `1000 (t % 10) … 1000 (t % 10) + 999`. In the first pass the
body computes the second layer's output rows of its block and stores their products with the third layer's weights and
with the head's second 128 columns into the scratch buffers; after the pass the first scratch holds the third layer's
support and the second the head's second share. -/

variable (m : (ℓ : Loc nD τ sig) → Buf (Elt Ideal) ℓ) (c : Dev nD)

/-- The second layer's output, as the specification names it. -/
abbrev H2 : Fin 10000 → Fin 128 → EReal := Cert.Spec.h2 (aX m c) (aAdj m c) (aW0 m c) (ab0 m c) (aW1 m c) (ab1 m c)

/-- The windows' block indices, decided over the grid. -/
theorem idx1_facts : ∀ t : Fin cfg1.N,
    win1_0.index t (0 : Fin 2) = t.val % 10 ∧ win1_0.index t (1 : Fin 2) = 0
    ∧ win1_1.index t (0 : Fin 2) = 0 ∧ win1_1.index t (1 : Fin 2) = 0
    ∧ win1_2.index t (0 : Fin 2) = t.val % 10 ∧ win1_2.index t (1 : Fin 2) = 0
    ∧ win1_3.index t (0 : Fin 3) = t.val / 10 ∧ win1_3.index t (1 : Fin 3) = 0 ∧ win1_3.index t (2 : Fin 3) = 0
    ∧ win1_4.index t (0 : Fin 2) = 0 ∧ win1_4.index t (1 : Fin 2) = 0
    ∧ win1_5.index t (0 : Fin 3) = t.val / 10 ∧ win1_5.index t (1 : Fin 3) = 0 ∧ win1_5.index t (2 : Fin 3) = 0
    ∧ win1_6.index t (0 : Fin 2) = 0 ∧ win1_6.index t (1 : Fin 2) = 0
    ∧ win1_7.index t (0 : Fin 3) = t.val / 10 ∧ win1_7.index t (1 : Fin 3) = t.val % 10 ∧ win1_7.index t (2 : Fin 3) = 0 :=
  (by decide +kernel : ∀ t : Fin grid1.N, _)

/-- The offsets of the scratch slabs, decided over the grid. -/
theorem off1_facts : ∀ t : Fin cfg1.N,
    k1_off1 (grid1.coords t) (0 : Fin 2) = t.val % 10 * 1000 ∧ k1_off1 (grid1.coords t) (1 : Fin 2) = 0
    ∧ k1_off2 (grid1.coords t) (0 : Fin 2) = t.val % 10 * 1000 ∧ k1_off2 (grid1.coords t) (1 : Fin 2) = 0
    ∧ k1_off3 (grid1.coords t) (0 : Fin 2) = t.val % 10 * 1000 ∧ k1_off3 (grid1.coords t) (1 : Fin 2) = 0 :=
  (by decide +kernel : ∀ t : Fin grid1.N, _)

/-- The array row that row `p` of point `t`'s block is. -/
abbrev row1 (t : Fin cfg1.N) (p : Fin 1000) : Fin 10000 :=
  ⟨t.val % 10 * 1000 + p.val, by have := p.isLt; have := Nat.mod_lt t.val (by omega : 0 < 10); omega⟩

theorem notArr0 (b : Ref sig .tc) (h : b ∉ ([main_arg0, main_arg1, main_v0, main_v12, main_v1, main_v5, main_v19_0, main_v19_1, main_v19_2] : List (Ref sig .tc))) :
    b ∉ Finset.univ.image (Pipeline.arrRef spec0) := by
  intro hb
  obtain ⟨w, -, rfl⟩ := Finset.mem_image.mp hb
  revert h; fin_cases w <;> decide

theorem iblk1_0 (t : Fin cfg1.N) (p : Fin 1000) (a : Fin 10000) : iblk1 (V2 m) c 0 t (ix2 p a) = aAdj m c (ix2 (row1 t p) a) := by
  show V2 m c main_v19_0 (((cfg1.win 0).blk t).view.emb (ix2 p a)) = _
  rw [V2_main_v19_0, show ((cfg1.win 0).blk t).view.emb (ix2 p a) = ix2 (row1 t p) a from (funext fun ax => Fin.ext (by
      obtain ⟨h00, h01, h10, h11, h20, h21, h30, h31, h32, h40, h41, h50, h51, h52, h60, h61, h70, h71, h72⟩ := idx1_facts t
      match ax with
      | ⟨0, _⟩ => show win1_0.index t (0 : Fin 2) * 1000 + 1 * p.val = t.val % 10 * 1000 + p.val; omega
      | ⟨1, _⟩ => show win1_0.index t (1 : Fin 2) * 10000 + 1 * a.val = a.val; omega))]
  rfl
theorem iblk1_1 (t : Fin cfg1.N) (a : Fin 10000) (k : Fin 128) : iblk1 (V2 m) c 1 t (ix2 a k) = Cert.Spec.sup (H1 m c) (aW1 m c) a k := by
  show V2 m c main_v19_1 (((cfg1.win 1).blk t).view.emb (ix2 a k)) = _
  rw [V2_main_v19_1, show ((cfg1.win 1).blk t).view.emb (ix2 a k) = ix2 a k from (funext fun ax => Fin.ext (by
      obtain ⟨h00, h01, h10, h11, h20, h21, h30, h31, h32, h40, h41, h50, h51, h52, h60, h61, h70, h71, h72⟩ := idx1_facts t
      match ax with
      | ⟨0, _⟩ => show win1_1.index t (0 : Fin 2) * 10000 + 1 * a.val = a.val; omega
      | ⟨1, _⟩ => show win1_1.index t (1 : Fin 2) * 128 + 1 * k.val = k.val; omega))]
  rfl
theorem iblk1_2 (t : Fin cfg1.N) (p : Fin 1000) (q : Fin 16) :
    iblk1 (V2 m) c 2 t (ix2 p q) = Cert.Spec.zp (H1 m c) (aWl m c) 0 (by omega) (row1 t p) q := by
  show V2 m c main_v19_2 (((cfg1.win 2).blk t).view.emb (ix2 p q)) = _
  rw [V2_main_v19_2, show ((cfg1.win 2).blk t).view.emb (ix2 p q) = ix2 (row1 t p) q from (funext fun ax => Fin.ext (by
      obtain ⟨h00, h01, h10, h11, h20, h21, h30, h31, h32, h40, h41, h50, h51, h52, h60, h61, h70, h71, h72⟩ := idx1_facts t
      match ax with
      | ⟨0, _⟩ => show win1_2.index t (0 : Fin 2) * 1000 + 1 * p.val = t.val % 10 * 1000 + p.val; omega
      | ⟨1, _⟩ => show win1_2.index t (1 : Fin 2) * 16 + 1 * q.val = q.val; omega))]
  rfl
theorem iblk1_3_lo (t : Fin cfg1.N) (ht : t.val < 10) (k : Fin 128) : iblk1 (V2 m) c 3 t (ix3 (0 : Fin 1) (0 : Fin 1) k) = ab1 m c (ix1 k) := by
  show V2 m c main_v17 (((cfg1.win 3).blk t).view.emb (ix3 (0 : Fin 1) (0 : Fin 1) k)) = _
  rw [V2_of_other m c main_v17 (notArr0 _ (by decide)), show ((cfg1.win 3).blk t).view.emb (ix3 (0 : Fin 1) (0 : Fin 1) k) = ix3 (0 : Fin 2) (0 : Fin 1) k from (funext fun ax => Fin.ext (by
      obtain ⟨h00, h01, h10, h11, h20, h21, h30, h31, h32, h40, h41, h50, h51, h52, h60, h61, h70, h71, h72⟩ := idx1_facts t
      match ax with
      | ⟨0, _⟩ => show win1_3.index t (0 : Fin 3) * 1 + 1 * 0 = 0; omega
      | ⟨1, _⟩ => show win1_3.index t (1 : Fin 3) * 1 + 1 * 0 = 0; omega
      | ⟨2, _⟩ => show win1_3.index t (2 : Fin 3) * 128 + 1 * k.val = k.val; omega))]
  exact V1_v17_0 m c 0 k
theorem iblk1_3_hi (t : Fin cfg1.N) (ht : 10 ≤ t.val) (k : Fin 128) : iblk1 (V2 m) c 3 t (ix3 (0 : Fin 1) (0 : Fin 1) k) = ab2 m c (ix1 k) := by
  have hN : cfg1.N = 20 := N_1
  have := t.isLt
  show V2 m c main_v17 (((cfg1.win 3).blk t).view.emb (ix3 (0 : Fin 1) (0 : Fin 1) k)) = _
  rw [V2_of_other m c main_v17 (notArr0 _ (by decide)), show ((cfg1.win 3).blk t).view.emb (ix3 (0 : Fin 1) (0 : Fin 1) k) = ix3 (1 : Fin 2) (0 : Fin 1) k from (funext fun ax => Fin.ext (by
      obtain ⟨h00, h01, h10, h11, h20, h21, h30, h31, h32, h40, h41, h50, h51, h52, h60, h61, h70, h71, h72⟩ := idx1_facts t
      match ax with
      | ⟨0, _⟩ => show win1_3.index t (0 : Fin 3) * 1 + 1 * 0 = 1; omega
      | ⟨1, _⟩ => show win1_3.index t (1 : Fin 3) * 1 + 1 * 0 = 0; omega
      | ⟨2, _⟩ => show win1_3.index t (2 : Fin 3) * 128 + 1 * k.val = k.val; omega))]
  exact V1_v17_1 m c 0 k
theorem iblk1_4 (t : Fin cfg1.N) (e k : Fin 128) : iblk1 (V2 m) c 4 t (ix2 e k) = aW2 m c (ix2 e k) := by
  show V2 m c main_v2 (((cfg1.win 4).blk t).view.emb (ix2 e k)) = _
  rw [V2_of_other m c main_v2 (notArr0 _ (by decide)), show ((cfg1.win 4).blk t).view.emb (ix2 e k) = ix2 e k from (funext fun ax => Fin.ext (by
      obtain ⟨h00, h01, h10, h11, h20, h21, h30, h31, h32, h40, h41, h50, h51, h52, h60, h61, h70, h71, h72⟩ := idx1_facts t
      match ax with
      | ⟨0, _⟩ => show win1_4.index t (0 : Fin 2) * 128 + 1 * e.val = e.val; omega
      | ⟨1, _⟩ => show win1_4.index t (1 : Fin 2) * 128 + 1 * k.val = k.val; omega))]
  exact V1_v2 m c e k
theorem iblk1_5_lo (t : Fin cfg1.N) (ht : t.val < 10) (k : Fin 128) (q : Fin 16) :
    iblk1 (V2 m) c 5 t (ix3 (0 : Fin 1) k q) = aWl m c (ix2 q (⟨128 + k.val, by have := k.isLt; omega⟩ : Fin 384)) := by
  show V2 m c main_v11 (((cfg1.win 5).blk t).view.emb (ix3 (0 : Fin 1) k q)) = _
  rw [V2_of_other m c main_v11 (notArr0 _ (by decide)), show ((cfg1.win 5).blk t).view.emb (ix3 (0 : Fin 1) k q) = ix3 (0 : Fin 2) k q from (funext fun ax => Fin.ext (by
      obtain ⟨h00, h01, h10, h11, h20, h21, h30, h31, h32, h40, h41, h50, h51, h52, h60, h61, h70, h71, h72⟩ := idx1_facts t
      match ax with
      | ⟨0, _⟩ => show win1_5.index t (0 : Fin 3) * 1 + 1 * 0 = 0; omega
      | ⟨1, _⟩ => show win1_5.index t (1 : Fin 3) * 128 + 1 * k.val = k.val; omega
      | ⟨2, _⟩ => show win1_5.index t (2 : Fin 3) * 16 + 1 * q.val = q.val; omega))]
  exact V1_v11_0 m c k q
theorem iblk1_5_hi (t : Fin cfg1.N) (ht : 10 ≤ t.val) (k : Fin 128) (q : Fin 16) :
    iblk1 (V2 m) c 5 t (ix3 (0 : Fin 1) k q) = aWl m c (ix2 q (⟨256 + k.val, by have := k.isLt; omega⟩ : Fin 384)) := by
  have hN : cfg1.N = 20 := N_1
  have := t.isLt
  show V2 m c main_v11 (((cfg1.win 5).blk t).view.emb (ix3 (0 : Fin 1) k q)) = _
  rw [V2_of_other m c main_v11 (notArr0 _ (by decide)), show ((cfg1.win 5).blk t).view.emb (ix3 (0 : Fin 1) k q) = ix3 (1 : Fin 2) k q from (funext fun ax => Fin.ext (by
      obtain ⟨h00, h01, h10, h11, h20, h21, h30, h31, h32, h40, h41, h50, h51, h52, h60, h61, h70, h71, h72⟩ := idx1_facts t
      match ax with
      | ⟨0, _⟩ => show win1_5.index t (0 : Fin 3) * 1 + 1 * 0 = 1; omega
      | ⟨1, _⟩ => show win1_5.index t (1 : Fin 3) * 128 + 1 * k.val = k.val; omega
      | ⟨2, _⟩ => show win1_5.index t (2 : Fin 3) * 16 + 1 * q.val = q.val; omega))]
  exact V1_v11_1 m c k q
theorem iblk1_6 (t : Fin cfg1.N) (u : Fin 1) (q : Fin 16) : iblk1 (V2 m) c 6 t (ix2 u q) = abl m c (ix1 q) := by
  show V2 m c main_v18 (((cfg1.win 6).blk t).view.emb (ix2 u q)) = _
  rw [V2_of_other m c main_v18 (notArr0 _ (by decide)), show ((cfg1.win 6).blk t).view.emb (ix2 u q) = ix2 u q from (funext fun ax => Fin.ext (by
      obtain ⟨h00, h01, h10, h11, h20, h21, h30, h31, h32, h40, h41, h50, h51, h52, h60, h61, h70, h71, h72⟩ := idx1_facts t
      match ax with
      | ⟨0, _⟩ => show win1_6.index t (0 : Fin 2) * 1 + 1 * u.val = u.val; omega
      | ⟨1, _⟩ => show win1_6.index t (1 : Fin 2) * 16 + 1 * q.val = q.val; omega))]
  exact V1_v18 m c u q

/-- In the first pass the rectified rows a point computes are the second layer's output rows of its block. -/
theorem pay1_1_lo (t : Fin cfg1.N) (ht : t.val < 10) (p : Fin 1000) (k : Fin 128) :
    k1_pay1 (F := Ideal) (iblk1 (V2 m) c 0 t) (iblk1 (V2 m) c 1 t) (iblk1 (V2 m) c 3 t) (ix2 p k) = H2 m c (row1 t p) k := by
  rw [pay1_1]; unfold H2 Cert.Spec.h2 Cert.Spec.lay
  rw [iblk1_3_lo m c t ht]
  exact congrArg (fun s => max (s + ab1 m c (ix1 k)) Cert.Spec.zero) (Finset.sum_congr rfl fun a _ => by rw [iblk1_0, iblk1_1])

end Cert.KernelIdeal.Hnd

end
-- ==== Proof.K1Scr.lean ====
import proofs.«166769_g37641093382870_cont_sun_c4_266_19_alg».proof.Proof.K1Blocks

set_option maxRecDepth 16384

noncomputable section

namespace Cert.KernelIdeal.Hnd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

open Idealize.ShloMosaic.ValueIdx Cert.Spec

open Cert.KernelIdeal.Pay

/-! # What the two scratch buffers hold after the first pass (extended reals)

The ten slabs the first pass stores into a scratch are the ten row blocks of ONE function of the scratch's index: the
third layer's support, and the head's second share. -/

variable (m : (ℓ : Loc nD τ sig) → Buf (Elt Ideal) ℓ) (c : Dev nD)

/-- The third layer's support, over the scratch's index. -/
def GS2 : Vec Ideal S10000x128 .bf16 :=
  fun y => Cert.Spec.sup (H2 m c) (aW2 m c) (⟨(y 0).val, (y 0).isLt⟩ : Fin 10000) (⟨(y 1).val, (y 1).isLt⟩ : Fin 128)
/-- The head's second share, over the scratch's index. -/
def GZ2 : Vec Ideal S10000x16 .f32 :=
  fun y => Cert.Spec.zp (H2 m c) (aWl m c) 128 (by omega) (⟨(y 0).val, (y 0).isLt⟩ : Fin 10000) (⟨(y 1).val, (y 1).isLt⟩ : Fin 16)

/-- Slab `j` of the first scratch is block `j` of the support. -/
theorem piece10_spec (j : ℕ) (hj : j < 10) (x : (piece10 (V2 m) c j hj).1.shape.Idx) :
    (piece10 (V2 m) c j hj).2 x = GS2 m c ((piece10 (V2 m) c j hj).1.emb x) := by
  obtain ⟨p, k', rfl⟩ : ∃ (p : Fin 1000) (k' : Fin 128), x = ix2 p k' := ⟨x 0, x 1, eq_ix2 x⟩
  show k1_pay2 (F := Ideal) (iblk1 (V2 m) c 0 (tj j hj)) (iblk1 (V2 m) c 1 (tj j hj)) (iblk1 (V2 m) c 3 (tj j hj)) (iblk1 (V2 m) c 4 (tj j hj)) (ix2 p k') = _
  rw [pay1_2]
  have hemb : (piece10 (V2 m) c j hj).1.emb (ix2 p k') = ix2 (row1 (tj j hj) p) k' := funext fun ax => Fin.ext (by
    obtain ⟨o10, o11, o20, o21, o30, o31⟩ := off1_facts (tj j hj)
    match ax with
    | ⟨0, _⟩ => show k1_off1 (grid1.coords (tj j hj)) (0 : Fin 2) + 1 * p.val = (tj j hj).val % 10 * 1000 + p.val; omega
    | ⟨1, _⟩ => show k1_off1 (grid1.coords (tj j hj)) (1 : Fin 2) + 1 * k'.val = k'.val; omega)
  rw [hemb]
  show _ = Cert.Spec.sup (H2 m c) (aW2 m c) (row1 (tj j hj) p) k'
  unfold Cert.Spec.sup
  exact Finset.sum_congr rfl fun k _ => by rw [pay1_1_lo m c (tj j hj) hj, iblk1_4]

/-- Slab `j` of the second scratch is block `j` of the head's second share. -/
theorem piece11_spec (j : ℕ) (hj : j < 10) (x : (piece11 (V2 m) c j hj).1.shape.Idx) :
    (piece11 (V2 m) c j hj).2 x = GZ2 m c ((piece11 (V2 m) c j hj).1.emb x) := by
  obtain ⟨p, q, rfl⟩ : ∃ (p : Fin 1000) (q : Fin 16), x = ix2 p q := ⟨x 0, x 1, eq_ix2 x⟩
  show k1_pay3 (F := Ideal) (iblk1 (V2 m) c 0 (tj j hj)) (iblk1 (V2 m) c 1 (tj j hj)) (iblk1 (V2 m) c 3 (tj j hj)) (iblk1 (V2 m) c 5 (tj j hj)) (ix2 p q) = _
  rw [pay1_3]
  have hemb : (piece11 (V2 m) c j hj).1.emb (ix2 p q) = ix2 (row1 (tj j hj) p) q := funext fun ax => Fin.ext (by
    obtain ⟨o10, o11, o20, o21, o30, o31⟩ := off1_facts (tj j hj)
    match ax with
    | ⟨0, _⟩ => show k1_off2 (grid1.coords (tj j hj)) (0 : Fin 2) + 1 * p.val = (tj j hj).val % 10 * 1000 + p.val; omega
    | ⟨1, _⟩ => show k1_off2 (grid1.coords (tj j hj)) (1 : Fin 2) + 1 * q.val = q.val; omega)
  rw [hemb]
  show _ = Cert.Spec.zp (H2 m c) (aWl m c) 128 (by omega) (row1 (tj j hj) p) q
  unfold Cert.Spec.zp
  exact Finset.sum_congr rfl fun k _ => by rw [pay1_1_lo m c (tj j hj) hj, iblk1_5_lo m c (tj j hj) hj]

/-- After the first pass the first scratch holds the third layer's support, -/
theorem S2_eq : S2 (V2 m) c = GS2 m c := by
  unfold S2 acc10
  rw [View.read_writes_eq_canon _ _ _ (cover10 (V2 m) c)]
  funext y
  refine View.canon_apply_of_pieces (GS2 m c) _ ?_ y (cover10 (V2 m) c y)
  rw [pieces10_ten]
  intro p hp x
  simp only [List.mem_cons, List.mem_nil_iff, or_false] at hp
  rcases hp with rfl | rfl | rfl | rfl | rfl | rfl | rfl | rfl | rfl | rfl <;> exact piece10_spec m c _ _ x
/-- and the second the head's second share. -/
theorem Z2_eq : Z2 (V2 m) c = GZ2 m c := by
  unfold Z2 acc11
  rw [View.read_writes_eq_canon _ _ _ (cover11 (V2 m) c)]
  funext y
  refine View.canon_apply_of_pieces (GZ2 m c) _ ?_ y (cover11 (V2 m) c y)
  rw [pieces11_ten]
  intro p hp x
  simp only [List.mem_cons, List.mem_nil_iff, or_false] at hp
  rcases hp with rfl | rfl | rfl | rfl | rfl | rfl | rfl | rfl | rfl | rfl <;> exact piece11_spec m c _ _ x

end Cert.KernelIdeal.Hnd

end
-- ==== Proof.LibRelArr.lean ====
import Idealize.ShloMosaic.Lib.Pipeline.Value
import Idealize.ShloMosaic.Lib.Pipeline.Cells

/-!
# Relational proof data: a block of the final array, read back

For proof data that CONSTRAIN what the body leaves in a staging buffer (a relation between the contents handed over and
the contents left), the library says of an output array only what it MAY hold after the write-backs below a point: the
entry contents overwritten, in point order, at each written-back block by the moved part of SOME contents the body may
have left. When the written-back blocks are pairwise disjoint, block `t` of any such array, read back through the
window, is the moved part of some contents the body may have left at point `t`: no later write-back touches it.
-/

noncomputable section

namespace Idealize.ShloMosaic.Pipeline

open Idealize.SL Idealize.SL.RA
open TcCoe

variable {nD : Nat} {τ : Topo} {sig : RefSig} {Val : EltTy → Type}
variable {Ix : Type} [DecidableEq Ix] {Name : Type} [DecidableEq Name] {U : Type} [URA U] {Lvl : Type}
variable {Λ₀ : SL.Sem.Labels} {cfg : Cfg sig Λ₀} {c : Dev nD}

/-- DISJOINT WRITE-BACKS, READ BACK, for relational proof data: in any contents the array may hold after the
    write-backs below `n`, block `t` (`t < n`, written back) reads as the moved part of some contents the body
    may have left at `t`. -/
theorem RDat.read_blk_ArrAt_of_disjoint (rd : RDat τ Val Ix Name U Lvl cfg c) (w : Fin cfg.W)
    (hdisj : ∀ t t' : Fin cfg.N, (cfg.win w).flush t = true → (cfg.win w).flush t' = true → t ≠ t' →
      Disjoint ((cfg.win w).blk t).view.set ((cfg.win w).blk t').view.set) :
    ∀ (n : Nat) (G : Buf Val ((cfg.win w).arr.view.loc (c.tc : Thread nD τ))), rd.ArrAt w n G →
      ∀ (t : Fin cfg.N), t.val < n → (cfg.win w).flush t = true →
        ∃ X, rd.Leaves w t X ∧ ((cfg.win w).blk t).view.read Val G = (cfg.win w).cut (cfg.grid.coords t) X
  | 0, _, _, _, ht, _ => absurd ht (Nat.not_lt_zero _)
  | n + 1, G, hG, t, ht, hf => by
    by_cases hn : n < cfg.N
    swap
    · rw [rd.ArrAt_stable w (n + 1) (by omega), ← rd.ArrAt_stable w n (by omega)] at hG
      exact RDat.read_blk_ArrAt_of_disjoint rd w hdisj n G hG t (by have := t.isLt; omega) hf
    rw [show n + 1 = (⟨n, hn⟩ : Fin cfg.N).val + 1 from rfl, rd.ArrAt_succ] at hG
    by_cases hfn : (cfg.win w).flush ⟨n, hn⟩ = true
    · rw [if_pos hfn] at hG
      obtain ⟨G₀, X, hG₀, hX, rfl⟩ := hG
      by_cases htn : t.val = n
      · have e : t = ⟨n, hn⟩ := Fin.ext htn
        subst e
        exact ⟨X, hX, View.read_write_univ _ _⟩
      · obtain ⟨X', hX', hr⟩ := RDat.read_blk_ArrAt_of_disjoint rd w hdisj n G₀ hG₀ t (by omega) hf
        refine ⟨X', hX', Eq.trans ?_ hr⟩
        exact View.read_congr fun i hi => View.write_of_not_mem _ _ _
          (Finset.disjoint_left.mp (hdisj t ⟨n, hn⟩ hf hfn (fun e => htn (congrArg Fin.val e))) hi)
    · rw [if_neg hfn] at hG
      have htn : t.val ≠ n := fun e => hfn (by have : t = ⟨n, hn⟩ := Fin.ext e; exact this ▸ hf)
      exact RDat.read_blk_ArrAt_of_disjoint rd w hdisj n G hG t (by omega) hf

end Idealize.ShloMosaic.Pipeline

end
-- ==== Proof.K1Out.lean ====
import proofs.«166769_g37641093382870_cont_sun_c4_266_19_alg».proof.Proof.K1Scr
import proofs.«166769_g37641093382870_cont_sun_c4_266_19_alg».proof.Proof.LibRelArr
import Idealize.ShloMosaic.Lib.StableHlo.Run

set_option maxRecDepth 16384

noncomputable section

namespace Cert.KernelIdeal.Hnd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

open Idealize.ShloMosaic.ValueIdx Cert.Spec

open Cert.KernelIdeal.Pay

/-! # The second pass, and the result (extended reals)

In the second pass a point computes the third layer's output rows of its block from the first scratch, adds the head's
three shares and the head's bias, and stores the rows' log-softmax: its block of the specification's result. The blocks
the second pass writes back are disjoint from all others, so whatever the output array holds after the run, its second
plane is the specification's result; the host operations after the region return that plane. -/

variable (m : (ℓ : Loc nD τ sig) → Buf (Elt Ideal) ℓ) (c : Dev nD)

/-- The third layer's output, as the specification names it. -/
abbrev H3 : Fin 10000 → Fin 128 → EReal :=
  Cert.Spec.h3 (aX m c) (aAdj m c) (aW0 m c) (ab0 m c) (aW1 m c) (ab1 m c) (aW2 m c) (ab2 m c)

/-- The rectified rows of the second pass are the third layer's output rows: for any block of adjacency rows, support
    and bias that read as the adjacency's rows `row`, the third layer's support and the third bias. -/
theorem h3_row (v6 : Vec Ideal S1000x10000 .bf16) (v8 : Vec Ideal S10000x128 .bf16) (v10 : Vec Ideal S1x1x128 .f32) (p : Fin 1000) (row : Fin 10000)
    (hv6 : ∀ a : Fin 10000, v6 (ix2 p a) = aAdj m c (ix2 row a))
    (hv8 : ∀ (a : Fin 10000) (k : Fin 128), v8 (ix2 a k) = Cert.Spec.sup (H2 m c) (aW2 m c) a k)
    (hv10 : ∀ k : Fin 128, v10 (ix3 (0 : Fin 1) (0 : Fin 1) k) = ab2 m c (ix1 k)) (k : Fin 128) :
    max ((∑ a : Fin 10000, v6 (ix2 p a) * v8 (ix2 a k)) + v10 (ix3 (0 : Fin 1) (0 : Fin 1) k)) Cert.Spec.zero = H3 m c row k := by
  unfold H3 Cert.Spec.h3 Cert.Spec.lay
  rw [hv10]
  exact congrArg (fun s => max (s + ab2 m c (ix1 k)) Cert.Spec.zero) (Finset.sum_congr rfl fun a _ => by rw [hv6, hv8])

/-- In the second pass a point stores its block of the specification's result. -/
theorem out1_7_at (t : Fin cfg1.N) (ht : 10 ≤ t.val) (p : Fin 1000) (q : Fin 16) :
    out1_7 (V2 m) c t ht (ix3 (0 : Fin 1) p q) = Cert.Spec.out (aX m c) (aAdj m c) (aW0 m c) (ab0 m c) (aW1 m c) (ab1 m c) (aW2 m c) (ab2 m c) (aWl m c) (abl m c) (ix2 (row1 t p) q) := by
  unfold out1_7
  rw [pay1_4, pay1_5]
  show Cert.Spec.lsm _ q = Cert.Spec.lsm (Cert.Spec.z (aX m c) (aAdj m c) (aW0 m c) (ab0 m c) (aW1 m c) (ab1 m c) (aW2 m c) (ab2 m c) (aWl m c) (abl m c) (row1 t p)) q
  refine congrArg (fun z => Cert.Spec.lsm z q) (funext fun q' => ?_)
  unfold Cert.Spec.z
  have e1 := iblk1_2 m c t p q'
  have e2 : View.ld (Z2 (V2 m) c) (Rect.unit (s := S10000x16) (k1_off3 (grid1.coords t)) S1000x16.size (k1_off3_inb _ ((hcond1_1 t).mpr ht))) (ix2 p q')
      = Cert.Spec.zp (H2 m c) (aWl m c) 128 (by omega) (row1 t p) q' := by
    show Z2 (V2 m) c ((Rect.unit (s := S10000x16) (k1_off3 (grid1.coords t)) S1000x16.size (k1_off3_inb _ ((hcond1_1 t).mpr ht))).emb (ix2 p q')) = _
    rw [Z2_eq, show (Rect.unit (s := S10000x16) (k1_off3 (grid1.coords t)) S1000x16.size (k1_off3_inb _ ((hcond1_1 t).mpr ht))).emb (ix2 p q') = ix2 (row1 t p) q' from
      funext fun ax => Fin.ext (by
        obtain ⟨o10, o11, o20, o21, o30, o31⟩ := off1_facts t
        match ax with
        | ⟨0, _⟩ => show k1_off3 (grid1.coords t) (0 : Fin 2) + 1 * p.val = t.val % 10 * 1000 + p.val; omega
        | ⟨1, _⟩ => show k1_off3 (grid1.coords t) (1 : Fin 2) + 1 * q'.val = q'.val; omega)]
    rfl
  have e3 := fun k : Fin 128 => h3_row m c (iblk1 (V2 m) c 0 t) (S2 (V2 m) c) (iblk1 (V2 m) c 3 t) p (row1 t p)
    (fun a => iblk1_0 m c t p a) (fun a k => by rw [S2_eq]; rfl) (fun k => iblk1_3_hi m c t ht k) k
  refine congrArg₂ (· + ·) (congrArg₂ (· + ·) (congrArg₂ (· + ·) e1 e2) ?_) (iblk1_6 m c t 0 q')
  unfold Cert.Spec.zp
  exact Finset.sum_congr rfl fun k _ => congrArg₂ (· * ·) (e3 k) (iblk1_5_hi m c t ht k q')

/-- The output window's blocks are pairwise disjoint: no two points have the same block index. -/
theorem idx_inj1_7 : ∀ t t' : Fin cfg1.N, win1_7.index t = win1_7.index t' → t = t' :=
  (by decide +kernel : ∀ t t' : Fin grid1.N, win1_7.index t = win1_7.index t' → t = t')
theorem disjoint1_7 : ∀ t t' : Fin cfg1.N, (cfg1.win 7).flush t = true → (cfg1.win 7).flush t' = true → t ≠ t' →
    Disjoint ((cfg1.win 7).blk t).view.set ((cfg1.win 7).blk t').view.set :=
  fun t t' _ _ hne => (cfg1.win 7).disjoint_blk fun h => hne (idx_inj1_7 t t' h)

/-- Whatever the second region's output array holds among what its write-backs may leave, its second plane is the
    specification's result. -/
theorem plane1 (F7 : Buf (Elt Ideal) ((cfg1.win 7).arr.view.loc (c : Thread nD τ))) (h7 : (rdat1 (V2 m) c).ArrAt 7 cfg1.N F7)
    (r : Fin 10000) (q : Fin 16) : F7 (ix3 (1 : Fin 2) r q) = Cert.Spec.out (aX m c) (aAdj m c) (aW0 m c) (ab0 m c) (aW1 m c) (ab1 m c) (aW2 m c) (ab2 m c) (aWl m c) (abl m c) (ix2 r q) := by
  have hN : cfg1.N = 20 := N_1
  have hr := r.isLt
  let t : Fin cfg1.N := ⟨10 + r.val / 1000, by omega⟩
  have ht : 10 ≤ t.val := by show 10 ≤ 10 + r.val / 1000; omega
  obtain ⟨X, ⟨Y, -, hXY⟩, hread⟩ := Pipeline.RDat.read_blk_ArrAt_of_disjoint (rdat1 (V2 m) c) 7 disjoint1_7 cfg1.N F7 h7 t t.isLt (flush1_7 t)
  have hX : X = out1_7 (V2 m) c t ht := ((after1_7 (V2 m) c t Y X).mp hXY) ht
  let p : Fin 1000 := ⟨r.val % 1000, Nat.mod_lt _ (by omega)⟩
  have h2 : F7 (((cfg1.win 7).blk t).view.emb (ix3 (0 : Fin 1) p q)) = X (ix3 (0 : Fin 1) p q) := congrFun hread (ix3 (0 : Fin 1) p q)
  have hemb : ((cfg1.win 7).blk t).view.emb (ix3 (0 : Fin 1) p q) = ix3 (1 : Fin 2) r q := funext fun ax => Fin.ext (by
    obtain ⟨h00, h01, h10, h11, h20, h21, h30, h31, h32, h40, h41, h50, h51, h52, h60, h61, h70, h71, h72⟩ := idx1_facts t
    match ax with
    | ⟨0, _⟩ => show win1_7.index t (0 : Fin 3) * 1 + 1 * 0 = 1; rw [h70]; show (10 + r.val / 1000) / 10 * 1 + 1 * 0 = 1; omega
    | ⟨1, _⟩ => show win1_7.index t (1 : Fin 3) * 1000 + 1 * (r.val % 1000) = r.val; rw [h71]; show (10 + r.val / 1000) % 10 * 1000 + 1 * (r.val % 1000) = r.val; omega
    | ⟨2, _⟩ => show win1_7.index t (2 : Fin 3) * 16 + 1 * q.val = q.val; rw [h72]; omega)
  rw [hemb] at h2
  rw [h2, hX, out1_7_at m c t ht p q]
  exact congrArg (Cert.Spec.out (aX m c) (aAdj m c) (aW0 m c) (ab0 m c) (aW1 m c) (ab1 m c) (aW2 m c) (ab2 m c) (aWl m c) (abl m c)) (congrArg (fun r' : Fin 10000 => ix2 r' q) (Fin.ext (by
    show (10 + r.val / 1000) % 10 * 1000 + r.val % 1000 = r.val; omega)))

/-- THE RESULT: for any contents of the second region's arrays among those its write-backs may leave, the result buffer
    after the host operations after it holds the specification's result. -/
theorem result_eq (Fs : Arrs1 (F := Ideal) c) (hFs : Fin1 m c Fs) :
    (W4 m c Fs (Proc.devRef .tc main_v22) : A2 10000 16) = Cert.Spec.out (aX m c) (aAdj m c) (aW0 m c) (ab0 m c) (aW1 m c) (ab1 m c) (aW2 m c) (ab2 m c) (aWl m c) (abl m c) := by
  have e0 : (W4 m c Fs (Proc.devRef .tc main_v22) : S10000x16.Idx → EReal)
      = shapeCast S10000x16 (extractStridedSlice S1x10000x16 ![1, 0, 0] (W3 m c Fs (Proc.devRef .tc main_v20) : S2x10000x16.Idx → EReal) slices_S2x10000x16_S1x10000x16_1_0_0)
          shapeCasts_S1x10000x16_S10000x16 := by
    show StableHlo.after hostOps2 (W3 m c Fs) (Proc.devRef .tc main_v22) = _; after_results <;> rfl
  funext i
  obtain ⟨r, q, rfl⟩ : ∃ (r : Fin 10000) (q : Fin 16), i = ix2 r q := ⟨i 0, i 1, eq_ix2 i⟩
  rw [e0, shapeCast_1ab_ab_apply]
  rw [extractStridedSlice_apply ![1, 0, 0] _ slices_S2x10000x16_S1x10000x16_1_0_0 (ix3 (0 : Fin 1) r q) (ix3 (1 : Fin 2) r q)
    (fun ax => by match ax with | ⟨0, _⟩ => rfl | ⟨1, _⟩ => exact (Nat.zero_add _).symm | ⟨2, _⟩ => exact (Nat.zero_add _).symm)]
  rw [show (W3 m c Fs (Proc.devRef .tc main_v20) : S2x10000x16.Idx → EReal) = Fs 7 from W3_arr m c Fs 7]
  exact plane1 m c (Fs 7) (hFs 7) r q

end Cert.KernelIdeal.Hnd

end
-- ==== Proof.LibNaryThree.lean ====
/-
  A host operation of three operands named by a literal family of references, read at its own result.
-/
import Idealize.ShloMosaic.Lib.StableHlo.Run

noncomputable section

namespace Idealize.ShloMosaic.StableHlo

variable {τ : Topo} {sig : RefSig} {Val : EltTy → Type} {x a b y : Ref sig .tc}

/-- The result of an operation of THREE operands given as a literal family `![x, a, b]` (a concatenation of three
    arrays), with each operand's contents read AT ITS OWN REFERENCE: `Fin.cons (F x) (Fin.cons (F a) (Fin.cons (F b) _))`
    in place of `fun k => F (![x, a, b] k)`. Under the binder the reference `![…] k` is no literal, so nothing more can
    be said of the operands' contents; after this rewriting each operand's contents is a term of its own, which further
    rewriting of a line of operations reaches. (The library states the same for four operands.) -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo

end
-- ==== Proof.RefRun.lean ====
import proofs.«166769_g37641093382870_cont_sun_c4_266_19_alg».proof.Proof.RefReadP
import proofs.«166769_g37641093382870_cont_sun_c4_266_19_alg».proof.Proof.LibNaryThree

/-!
# The reference's run, read back

Every weakly fair execution of the reference's @main terminates with the result buffer at the last stage's function of
the argument arrays and the arguments unchanged. The run is the library's run of a list of host operations; what the
result buffer holds after them is computed one operation at a time, the three-operand concatenation read at its own
operands' buffers.
-/

noncomputable section

namespace Idealize.ShloMosaic.StableHlo

variable {τ : Topo} {sig : RefSig} {Val : EltTy → Type} {x a b y : Ref sig .tc}

/-- The three-operand result lemma in the form a simplifier pass keys on: the result reference un-indexed. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo

namespace Cert.ReferenceIdeal.HandRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- The operations of the three layers (the first 24 of @main), -/
abbrev opsA : List (HloOp τ sig (Elt F)) :=
  [ binary main_arg0 main_arg2 main_v0 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg1 main_v0 main_v1 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg3 main_v2 (broadcastInDim S1x128 ![1] bcast_S128_S1x128_1 : (⟨S128, .f32⟩ : BufTy).Contents (Elt F) → (⟨S1x128, .f32⟩ : BufTy).Contents (Elt F)),
    unary main_v2 main_v3 (broadcastInDim S10000x128 ![0, 1] bcast_S1x128_S10000x128_0_1 : (⟨S1x128, .f32⟩ : BufTy).Contents (Elt F) → (⟨S10000x128, .f32⟩ : BufTy).Contents (Elt F)),
    binary main_v1 main_v3 main_v4 (addf : (⟨S10000x128, .f32⟩ : BufTy).Contents (Elt F) → (⟨S10000x128, .f32⟩ : BufTy).Contents (Elt F) → (⟨S10000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S10000x128, .f32⟩) main_call0_v0) (broadcastInDim S10000x128 ![] bcast_S_S10000x128),
    TRef.binary (TRef.of (T := ⟨S10000x128, .f32⟩) main_v4) (TRef.of (T := ⟨S10000x128, .f32⟩) main_call0_v0) (TRef.of (T := ⟨S10000x128, .f32⟩) main_v5) maximumf,
    binary main_v5 main_arg4 main_v6 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg1 main_v6 main_v7 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg5 main_v8 (broadcastInDim S1x128 ![1] bcast_S128_S1x128_1 : (⟨S128, .f32⟩ : BufTy).Contents (Elt F) → (⟨S1x128, .f32⟩ : BufTy).Contents (Elt F)),
    unary main_v8 main_v9 (broadcastInDim S10000x128 ![0, 1] bcast_S1x128_S10000x128_0_1 : (⟨S1x128, .f32⟩ : BufTy).Contents (Elt F) → (⟨S10000x128, .f32⟩ : BufTy).Contents (Elt F)),
    binary main_v7 main_v9 main_v10 (addf : (⟨S10000x128, .f32⟩ : BufTy).Contents (Elt F) → (⟨S10000x128, .f32⟩ : BufTy).Contents (Elt F) → (⟨S10000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S10000x128, .f32⟩) main_call1_v0) (broadcastInDim S10000x128 ![] bcast_S_S10000x128),
    TRef.binary (TRef.of (T := ⟨S10000x128, .f32⟩) main_v10) (TRef.of (T := ⟨S10000x128, .f32⟩) main_call1_v0) (TRef.of (T := ⟨S10000x128, .f32⟩) main_v11) maximumf,
    binary main_v11 main_arg6 main_v12 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg1 main_v12 main_v13 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg7 main_v14 (broadcastInDim S1x128 ![1] bcast_S128_S1x128_1 : (⟨S128, .f32⟩ : BufTy).Contents (Elt F) → (⟨S1x128, .f32⟩ : BufTy).Contents (Elt F)),
    unary main_v14 main_v15 (broadcastInDim S10000x128 ![0, 1] bcast_S1x128_S10000x128_0_1 : (⟨S1x128, .f32⟩ : BufTy).Contents (Elt F) → (⟨S10000x128, .f32⟩ : BufTy).Contents (Elt F)),
    binary main_v13 main_v15 main_v16 (addf : (⟨S10000x128, .f32⟩ : BufTy).Contents (Elt F) → (⟨S10000x128, .f32⟩ : BufTy).Contents (Elt F) → (⟨S10000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S10000x128, .f32⟩) main_call2_v0) (broadcastInDim S10000x128 ![] bcast_S_S10000x128),
    TRef.binary (TRef.of (T := ⟨S10000x128, .f32⟩) main_v16) (TRef.of (T := ⟨S10000x128, .f32⟩) main_call2_v0) (TRef.of (T := ⟨S10000x128, .f32⟩) main_v17) maximumf ]
/-- the join and the head (the next 6), -/
abbrev opsB : List (HloOp τ sig (Elt F)) :=
  [ nary ![main_v5, main_v11, main_v17] main_v18 (fun u => concatenate S10000x384 1 [⟨S10000x128, u 0⟩, ⟨S10000x128, u 1⟩, ⟨S10000x128, u 2⟩] concatenates_S10000x128_S10000x128_S10000x128_S10000x384_d1),
    unary main_arg8 main_v19 ((transpose S384x16 [1, 0] · transposes_S16x384_S384x16_1_0) : (⟨S16x384, .f32⟩ : BufTy).Contents (Elt F) → (⟨S384x16, .f32⟩ : BufTy).Contents (Elt F)),
    binary main_v18 main_v19 main_v20 ((fun l r => Host.dotGeneral dot_S10000x384_S384x16_S10000x16_1_0_0_1_n_n none l r) : (⟨S10000x384, .f32⟩ : BufTy).Contents (Elt F) → (⟨S384x16, .f32⟩ : BufTy).Contents (Elt F) → (⟨S10000x16, .f32⟩ : BufTy).Contents (Elt F)),
    unary main_arg9 main_v21 (broadcastInDim S1x16 ![1] bcast_S16_S1x16_1 : (⟨S16, .f32⟩ : BufTy).Contents (Elt F) → (⟨S1x16, .f32⟩ : BufTy).Contents (Elt F)),
    unary main_v21 main_v22 (broadcastInDim S10000x16 ![0, 1] bcast_S1x16_S10000x16_0_1 : (⟨S1x16, .f32⟩ : BufTy).Contents (Elt F) → (⟨S10000x16, .f32⟩ : BufTy).Contents (Elt F)),
    binary main_v20 main_v22 main_v23 (addf : (⟨S10000x16, .f32⟩ : BufTy).Contents (Elt F) → (⟨S10000x16, .f32⟩ : BufTy).Contents (Elt F) → (⟨S10000x16, .f32⟩ : BufTy).Contents (Elt F)) ]
/-- and the log-softmax (the last 15). -/
abbrev opsC : List (HloOp τ sig (Elt F)) :=
  [ TRef.nullary (TRef.of (T := ⟨S_, .f32⟩) main_call3_cst) (constant S_ .f32 0xFF800000#32),
    TRef.binary (TRef.of (T := ⟨S10000x16, .f32⟩) main_v23) (TRef.of (T := ⟨S_, .f32⟩) main_call3_cst) (TRef.of (T := ⟨S10000, .f32⟩) main_call3_v0) (fun x v => Host.reduce FloatOps.maximumf x v reducesTo_S10000x16_S10000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S10000, .f32⟩) main_call3_v1) (broadcastInDim S10000 ![] bcast_S_S10000),
    TRef.binary (TRef.of (T := ⟨S10000, .f32⟩) main_call3_v1) (TRef.of (T := ⟨S10000, .f32⟩) main_call3_v0) (TRef.of (T := ⟨S10000, .f32⟩) main_call3_v2) maximumf,
    TRef.unary (TRef.of (T := ⟨S10000, .f32⟩) main_call3_v2) (TRef.of (T := ⟨S10000x1, .f32⟩) main_call3_v3) (broadcastInDim S10000x1 ![0] bcast_S10000_S10000x1_0),
    TRef.unary (TRef.of (T := ⟨S10000x1, .f32⟩) main_call3_v3) (TRef.of (T := ⟨S10000x16, .f32⟩) main_call3_v4) (broadcastInDim S10000x16 ![0, 1] bcast_S10000x1_S10000x16_0_1),
    TRef.binary (TRef.of (T := ⟨S10000x16, .f32⟩) main_v23) (TRef.of (T := ⟨S10000x16, .f32⟩) main_call3_v4) (TRef.of (T := ⟨S10000x16, .f32⟩) main_call3_v5) subf,
    TRef.unary (TRef.of (T := ⟨S10000x16, .f32⟩) main_call3_v5) (TRef.of (T := ⟨S10000x16, .f32⟩) main_call3_v6) Host.exp,
    TRef.nullary (TRef.of (T := ⟨S_, .f32⟩) main_call3_cst_1) (constant S_ .f32 0x00000000#32),
    TRef.binary (TRef.of (T := ⟨S10000x16, .f32⟩) main_call3_v6) (TRef.of (T := ⟨S_, .f32⟩) main_call3_cst_1) (TRef.of (T := ⟨S10000, .f32⟩) main_call3_v7) (fun x v => Host.reduceAdd x v reducesTo_S10000x16_S10000_d1 h_S_),
    TRef.unary (TRef.of (T := ⟨S10000, .f32⟩) main_call3_v7) (TRef.of (T := ⟨S10000x1, .f32⟩) main_call3_v8) (broadcastInDim S10000x1 ![0] bcast_S10000_S10000x1_0),
    TRef.unary (TRef.of (T := ⟨S10000x1, .f32⟩) main_call3_v8) (TRef.of (T := ⟨S10000x1, .f32⟩) main_call3_v9) Host.log,
    TRef.unary (TRef.of (T := ⟨S10000x1, .f32⟩) main_call3_v9) (TRef.of (T := ⟨S10000x16, .f32⟩) main_call3_v10) (broadcastInDim S10000x16 ![0, 1] bcast_S10000x1_S10000x16_0_1),
    TRef.binary (TRef.of (T := ⟨S10000x16, .f32⟩) main_call3_v5) (TRef.of (T := ⟨S10000x16, .f32⟩) main_call3_v10) (TRef.of (T := ⟨S10000x16, .f32⟩) main_v24) subf ]

set_option maxRecDepth 65536 in
theorem ops_split : (ops (F := F)) = opsA ++ (opsB ++ opsC) := rfl

set_option maxRecDepth 65536 in
set_option maxHeartbeats 4000000 in
/-- After the three layers' operations the three layers' buffers hold their stages' values, -/
theorem afterA_v5 (V : Valuation τ sig (Elt F)) :
    after (opsA (F := F)) V (Proc.devRef .tc main_v5) = val_main_v5 (V (Proc.devRef .tc main_arg0)) (V (Proc.devRef .tc main_arg1)) (V (Proc.devRef .tc main_arg2)) (V (Proc.devRef .tc main_arg3)) := by
  generalize hR : val_main_v5 (V (Proc.devRef .tc main_arg0)) (V (Proc.devRef .tc main_arg1)) (V (Proc.devRef .tc main_arg2)) (V (Proc.devRef .tc main_arg3)) = R
  simp (disch := decide) only [after_cons, after_nil,
    nullary_result', unary_result', binary_result', ternary_result', quaternary_result', reshape_result', nary3_result',
    nullary_result_ne', unary_result_ne', binary_result_ne', ternary_result_ne', quaternary_result_ne', reshape_result_ne',
    nary_result_ne']
  rw [← hR]; rfl
set_option maxRecDepth 65536 in
set_option maxHeartbeats 4000000 in
theorem afterA_v11 (V : Valuation τ sig (Elt F)) :
    after (opsA (F := F)) V (Proc.devRef .tc main_v11) = val_main_v11 (V (Proc.devRef .tc main_arg0)) (V (Proc.devRef .tc main_arg1)) (V (Proc.devRef .tc main_arg2)) (V (Proc.devRef .tc main_arg3)) (V (Proc.devRef .tc main_arg4)) (V (Proc.devRef .tc main_arg5)) := by
  generalize hR : val_main_v11 (V (Proc.devRef .tc main_arg0)) (V (Proc.devRef .tc main_arg1)) (V (Proc.devRef .tc main_arg2)) (V (Proc.devRef .tc main_arg3)) (V (Proc.devRef .tc main_arg4)) (V (Proc.devRef .tc main_arg5)) = R
  simp (disch := decide) only [after_cons, after_nil,
    nullary_result', unary_result', binary_result', ternary_result', quaternary_result', reshape_result', nary3_result',
    nullary_result_ne', unary_result_ne', binary_result_ne', ternary_result_ne', quaternary_result_ne', reshape_result_ne',
    nary_result_ne']
  rw [← hR]; rfl
set_option maxRecDepth 65536 in
set_option maxHeartbeats 4000000 in
theorem afterA_v17 (V : Valuation τ sig (Elt F)) :
    after (opsA (F := F)) V (Proc.devRef .tc main_v17) = val_main_v17 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  generalize hR : val_main_v17 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) = R
  simp (disch := decide) only [after_cons, after_nil,
    nullary_result', unary_result', binary_result', ternary_result', quaternary_result', reshape_result', nary3_result',
    nullary_result_ne', unary_result_ne', binary_result_ne', ternary_result_ne', quaternary_result_ne', reshape_result_ne',
    nary_result_ne']
  rw [← hR]; rfl
set_option maxRecDepth 65536 in
set_option maxHeartbeats 4000000 in
/-- and the head's weights and bias are untouched. -/
theorem afterA_arg8 (V : Valuation τ sig (Elt F)) : after (opsA (F := F)) V (Proc.devRef .tc main_arg8) = V (Proc.devRef .tc main_arg8) := by
  simp (disch := decide) only [after_cons, after_nil,
    nullary_result', unary_result', binary_result', ternary_result', quaternary_result', reshape_result', nary3_result',
    nullary_result_ne', unary_result_ne', binary_result_ne', ternary_result_ne', quaternary_result_ne', reshape_result_ne',
    nary_result_ne']
set_option maxRecDepth 65536 in
set_option maxHeartbeats 4000000 in
theorem afterA_arg9 (V : Valuation τ sig (Elt F)) : after (opsA (F := F)) V (Proc.devRef .tc main_arg9) = V (Proc.devRef .tc main_arg9) := by
  simp (disch := decide) only [after_cons, after_nil,
    nullary_result', unary_result', binary_result', ternary_result', quaternary_result', reshape_result', nary3_result',
    nullary_result_ne', unary_result_ne', binary_result_ne', ternary_result_ne', quaternary_result_ne', reshape_result_ne',
    nary_result_ne']

/-- The head's logits from the three layers' outputs, the head's weights and its bias. -/
def headOf (y5 y11 y17 : (⟨S10000x128, .f32⟩ : BufTy).Contents (Elt F)) (y8 : (⟨S16x384, .f32⟩ : BufTy).Contents (Elt F)) (y9 : (⟨S16, .f32⟩ : BufTy).Contents (Elt F)) : (⟨S10000x16, .f32⟩ : BufTy).Contents (Elt F) :=
  addf (Host.dotGeneral dot_S10000x384_S384x16_S10000x16_1_0_0_1_n_n none
      (concatenate S10000x384 1 [⟨S10000x128, y5⟩, ⟨S10000x128, y11⟩, ⟨S10000x128, y17⟩] concatenates_S10000x128_S10000x128_S10000x128_S10000x384_d1)
      (transpose S384x16 [1, 0] y8 transposes_S16x384_S384x16_1_0))
    (broadcastInDim S10000x16 ![0, 1] bcast_S1x16_S10000x16_0_1 (broadcastInDim S1x16 ![1] bcast_S16_S1x16_1 y9))

set_option maxRecDepth 65536 in
set_option maxHeartbeats 4000000 in
/-- After the join and the head's operations the logits' buffer holds the head's logits. -/
theorem afterB_v23 (W : Valuation τ sig (Elt F)) :
    after (opsB (F := F)) W (Proc.devRef .tc main_v23)
      = headOf (W (Proc.devRef .tc main_v5)) (W (Proc.devRef .tc main_v11)) (W (Proc.devRef .tc main_v17)) (W (Proc.devRef .tc main_arg8)) (W (Proc.devRef .tc main_arg9)) := by
  generalize hR : headOf (W (Proc.devRef .tc main_v5)) (W (Proc.devRef .tc main_v11)) (W (Proc.devRef .tc main_v17)) (W (Proc.devRef .tc main_arg8)) (W (Proc.devRef .tc main_arg9)) = R
  simp (disch := decide) only [after_cons, after_nil,
    nullary_result', unary_result', binary_result', ternary_result', quaternary_result', reshape_result', nary3_result',
    nullary_result_ne', unary_result_ne', binary_result_ne', ternary_result_ne', quaternary_result_ne', reshape_result_ne',
    nary_result_ne']
  rw [← hR]; rfl

/-- The head's logits of the stages' values are the logits' stage. -/
theorem headOf_vals (x0 : (⟨S10000x128, .f32⟩ : BufTy).Contents (Elt F)) (x1 : (⟨S10000x10000, .f32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S16x384, .f32⟩ : BufTy).Contents (Elt F)) (x9 : (⟨S16, .f32⟩ : BufTy).Contents (Elt F)) :
    headOf (val_main_v5 x0 x1 x2 x3) (val_main_v11 x0 x1 x2 x3 x4 x5) (val_main_v17 x0 x1 x2 x3 x4 x5 x6 x7) x8 x9
      = val_main_v23 x0 x1 x2 x3 x4 x5 x6 x7 x8 x9 := rfl

set_option maxRecDepth 65536 in
set_option maxHeartbeats 4000000 in
/-- What the result buffer holds after the operations: the last stage's value of the arguments. -/
theorem after_main_v24 (V : Valuation τ sig (Elt F)) :
    after (ops (F := F)) V (Proc.devRef .tc main_v24)
      = val_main_v24 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [ops_split, after_append, after_append]
  have h5 := afterA_v5 V
  have h11 := afterA_v11 V
  have h17 := afterA_v17 V
  have h8 := afterA_arg8 V
  have h9 := afterA_arg9 V
  generalize after (opsA (F := F)) V = W at h5 h11 h17 h8 h9 ⊢
  have h23 := afterB_v23 W
  rw [h5, h11, h17, h8, h9, headOf_vals] at h23
  generalize after (opsB (F := F)) W = X at h23 ⊢
  unfold val_main_v24 val_main_call3_v10 val_main_call3_v9 val_main_call3_v8 val_main_call3_v7 val_main_call3_v6 val_main_call3_v5 val_main_call3_v4 val_main_call3_v3 val_main_call3_v2 val_main_call3_v1 val_main_call3_v0 val_main_call3_cst val_main_call3_cst_0 val_main_call3_cst_1
  generalize val_main_v23 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) = z at h23 ⊢
  simp (disch := decide) only [after_cons, after_nil,
    nullary_result', unary_result', binary_result', ternary_result', quaternary_result', reshape_result', nary3_result',
    nullary_result_ne', unary_result_ne', binary_result_ne', ternary_result_ne', quaternary_result_ne', reshape_result_ne',
    nary_result_ne']
  rw [h23]
  simp only [cast_cast, cast_eq]

set_option maxRecDepth 65536 in
set_option maxHeartbeats 4000000 in
/-- THE REFERENCE'S RUN: every weakly fair execution terminates with the result at the last stage's value of the
    arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24) = val_main_v24 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v24).trans (after_main_v24 _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl)⟩)
    (run_seq scopedRefs_eq scopedSems_eq defs main (fun _ => ops) main_eq (fun _ => ops_sub) m ρ)

end Cert.ReferenceIdeal.HandRun

end
-- ==== Proof.RefIsSpec.lean ====
/-
  The reference's last stage is the specification.

  The reference computes three graph-convolution layers — each the rectified sum of the bias and of the adjacency times
  the layer's support, the support being the previous layer's output times the layer's weights —, joins the three
  layers' outputs along the columns into an array of 384 columns, multiplies it by the transposed head weights, adds the
  head's bias, and takes the row-wise log-softmax: the row's maximum (folded from `-inf`, then once more compared with
  `-inf`), the logits less that maximum, the logarithm of the sum (from `0.0`) of their exponentials, and the
  difference of the two.

  Read entry by entry, every stage is the specification's formula. Two steps are more than a change of notation:
  • the head's product over the 384 joined columns is the sum of three products over 128 columns each, one per layer
    (a finite sum over the extended reals may be split into consecutive blocks: addition there is associative and
    commutative, and nothing else is used);
  • the maximum of `-inf` and a fold of `max` that starts from `-inf` is that fold.
-/
import proofs.«166769_g37641093382870_cont_sun_c4_266_19_alg».proof.Proof.RefReadP
import proofs.«166769_g37641093382870_cont_sun_c4_266_19_alg».proof.Proof.Spec
import proofs.«166769_g37641093382870_cont_sun_c4_266_19_alg».proof.Proof.LibColumns

noncomputable section

namespace Cert.RefSpec

open Idealize.ShloMosaic Idealize.ShloMosaic.ValueIdx Cert.ReferenceIdeal Cert.ReferenceIdeal.Gen Cert.ReferenceIdeal.Read Cert.Spec

/-! ## The three layers -/

/-- The first layer's support: the input times the first layer's weights. -/
theorem v0_eq (x0 : A2 10000 128) (x2 : A2 128 128) (a : Fin 10000) (k : Fin 128) :
    val_main_v0 (F := Ideal) x0 x2 (ix2 a k) = sup (fun a e => x0 (ix2 a e)) x2 a k := by
  rw [val_main_v0_apply]
  have hl : ∀ e : Fin 128, lidx_main_v0 (ix2 a k) e = ix2 a e := fun e => funext fun d => by
    match d with | ⟨0, _⟩ => rfl | ⟨1, _⟩ => rfl
  have hr : ∀ e : Fin 128, ridx_main_v0 (ix2 a k) e = ix2 e k := fun e => funext fun d => by
    match d with | ⟨0, _⟩ => rfl | ⟨1, _⟩ => rfl
  simp only [hl, hr]
  rfl

/-- The first layer's output: the adjacency times the support, plus the bias, rectified. -/
theorem v5_eq (x0 : A2 10000 128) (x1 : A2 10000 10000) (x2 : A2 128 128) (x3 : A1 128) (r : Fin 10000) (k : Fin 128) :
    val_main_v5 (F := Ideal) x0 x1 x2 x3 (ix2 r k) = h1 x0 x1 x2 x3 r k := by
  rw [val_main_v5_apply, val_main_v4_apply, val_main_v1_apply, val_main_v3_apply, val_main_v2_apply,
    val_main_call0_v0_apply, val_main_call0_cst_apply]
  have hl : ∀ a : Fin 10000, lidx_main_v1 (ix2 r k) a = ix2 r a := fun a => funext fun d => by
    match d with | ⟨0, _⟩ => rfl | ⟨1, _⟩ => rfl
  have hr : ∀ a : Fin 10000, ridx_main_v1 (ix2 r k) a = ix2 a k := fun a => funext fun d => by
    match d with | ⟨0, _⟩ => rfl | ⟨1, _⟩ => rfl
  have hb : idx_main_v2 (idx_main_v3 (ix2 r k)) = ix1 k := funext fun d => by
    match d with | ⟨0, _⟩ => rfl
  simp only [hl, hr, hb, v0_eq, Ideal.maximumf_def, Ideal.addf_def, Ideal.ofBits_def]
  rfl

/-- Layer 2's support: the previous layer's output times this layer's weights. -/
theorem v6_eq (x0 : A2 10000 128) (x1 : A2 10000 10000) (x2 : A2 128 128) (x3 : A1 128) (x4 : A2 128 128) (a : Fin 10000) (k : Fin 128) :
    val_main_v6 (F := Ideal) x0 x1 x2 x3 x4 (ix2 a k) = sup (h1 x0 x1 x2 x3) x4 a k := by
  rw [val_main_v6_apply]
  have hl : ∀ e : Fin 128, lidx_main_v6 (ix2 a k) e = ix2 a e := fun e => funext fun d => by
    match d with | ⟨0, _⟩ => rfl | ⟨1, _⟩ => rfl
  have hr : ∀ e : Fin 128, ridx_main_v6 (ix2 a k) e = ix2 e k := fun e => funext fun d => by
    match d with | ⟨0, _⟩ => rfl | ⟨1, _⟩ => rfl
  simp only [hl, hr, v5_eq]
  rfl

/-- Layer 2's output: the adjacency times the support, plus the bias, rectified. -/
theorem v11_eq (x0 : A2 10000 128) (x1 : A2 10000 10000) (x2 : A2 128 128) (x3 : A1 128) (x4 : A2 128 128) (x5 : A1 128) (r : Fin 10000) (k : Fin 128) :
    val_main_v11 (F := Ideal) x0 x1 x2 x3 x4 x5 (ix2 r k) = h2 x0 x1 x2 x3 x4 x5 r k := by
  rw [val_main_v11_apply, val_main_v10_apply, val_main_v7_apply, val_main_v9_apply, val_main_v8_apply,
    val_main_call1_v0_apply, val_main_call1_cst_apply]
  have hl : ∀ a : Fin 10000, lidx_main_v7 (ix2 r k) a = ix2 r a := fun a => funext fun d => by
    match d with | ⟨0, _⟩ => rfl | ⟨1, _⟩ => rfl
  have hr : ∀ a : Fin 10000, ridx_main_v7 (ix2 r k) a = ix2 a k := fun a => funext fun d => by
    match d with | ⟨0, _⟩ => rfl | ⟨1, _⟩ => rfl
  have hb : idx_main_v8 (idx_main_v9 (ix2 r k)) = ix1 k := funext fun d => by
    match d with | ⟨0, _⟩ => rfl
  simp only [hl, hr, hb, v6_eq, Ideal.maximumf_def, Ideal.addf_def, Ideal.ofBits_def]
  rfl

/-- Layer 3's support: the previous layer's output times this layer's weights. -/
theorem v12_eq (x0 : A2 10000 128) (x1 : A2 10000 10000) (x2 : A2 128 128) (x3 : A1 128) (x4 : A2 128 128) (x5 : A1 128) (x6 : A2 128 128) (a : Fin 10000) (k : Fin 128) :
    val_main_v12 (F := Ideal) x0 x1 x2 x3 x4 x5 x6 (ix2 a k) = sup (h2 x0 x1 x2 x3 x4 x5) x6 a k := by
  rw [val_main_v12_apply]
  have hl : ∀ e : Fin 128, lidx_main_v12 (ix2 a k) e = ix2 a e := fun e => funext fun d => by
    match d with | ⟨0, _⟩ => rfl | ⟨1, _⟩ => rfl
  have hr : ∀ e : Fin 128, ridx_main_v12 (ix2 a k) e = ix2 e k := fun e => funext fun d => by
    match d with | ⟨0, _⟩ => rfl | ⟨1, _⟩ => rfl
  simp only [hl, hr, v11_eq]
  rfl

/-- Layer 3's output: the adjacency times the support, plus the bias, rectified. -/
theorem v17_eq (x0 : A2 10000 128) (x1 : A2 10000 10000) (x2 : A2 128 128) (x3 : A1 128) (x4 : A2 128 128) (x5 : A1 128) (x6 : A2 128 128) (x7 : A1 128) (r : Fin 10000) (k : Fin 128) :
    val_main_v17 (F := Ideal) x0 x1 x2 x3 x4 x5 x6 x7 (ix2 r k) = h3 x0 x1 x2 x3 x4 x5 x6 x7 r k := by
  rw [val_main_v17_apply, val_main_v16_apply, val_main_v13_apply, val_main_v15_apply, val_main_v14_apply,
    val_main_call2_v0_apply, val_main_call2_cst_apply]
  have hl : ∀ a : Fin 10000, lidx_main_v13 (ix2 r k) a = ix2 r a := fun a => funext fun d => by
    match d with | ⟨0, _⟩ => rfl | ⟨1, _⟩ => rfl
  have hr : ∀ a : Fin 10000, ridx_main_v13 (ix2 r k) a = ix2 a k := fun a => funext fun d => by
    match d with | ⟨0, _⟩ => rfl | ⟨1, _⟩ => rfl
  have hb : idx_main_v14 (idx_main_v15 (ix2 r k)) = ix1 k := funext fun d => by
    match d with | ⟨0, _⟩ => rfl
  simp only [hl, hr, hb, v12_eq, Ideal.maximumf_def, Ideal.addf_def, Ideal.ofBits_def]
  rfl

/-! ## The joined layers and the head's product -/

/-- A sum over 384 joined columns is the sum of the three sums over 128 columns each (the extended reals under
    addition are a commutative monoid: only the order of the terms changes). -/
theorem sum_three_blocks (f : Fin 384 → EReal) :
    ∑ c : Fin 384, f c
      = ((∑ k : Fin 128, f ⟨0 + k.val, by have := k.isLt; omega⟩)
          + ∑ k : Fin 128, f ⟨128 + k.val, by have := k.isLt; omega⟩)
        + ∑ k : Fin 128, f ⟨256 + k.val, by have := k.isLt; omega⟩ := by
  have e1 : ∑ c : Fin 384, f c
      = (∑ i : Fin 256, f ⟨i.val, by have := i.isLt; omega⟩)
        + ∑ k : Fin 128, f ⟨256 + k.val, by have := k.isLt; omega⟩ :=
    Fin.sum_univ_add (a := 256) (b := 128) f
  have e2 : (∑ i : Fin 256, f ⟨i.val, by have := i.isLt; omega⟩)
      = (∑ k : Fin 128, f ⟨k.val, by have := k.isLt; omega⟩)
        + ∑ k : Fin 128, f ⟨128 + k.val, by have := k.isLt; omega⟩ :=
    Fin.sum_univ_add (a := 128) (b := 128) (fun i : Fin (128 + 128) => f ⟨i.val, by have := i.isLt; omega⟩)
  have e3 : (∑ k : Fin 128, f ⟨k.val, by have := k.isLt; omega⟩)
      = ∑ k : Fin 128, f ⟨0 + k.val, by have := k.isLt; omega⟩ :=
    Finset.sum_congr rfl fun k _ => congrArg f (Fin.ext (Nat.zero_add _).symm)
  rw [e1, e2, e3]

section Cat

variable (A B C : A2 10000 128)
  (h : Shape.Concatenates
    ([(⟨S10000x128, A⟩ : (s : Shape) × (s.Idx → EReal)), ⟨S10000x128, B⟩, ⟨S10000x128, C⟩].map (·.1)) S10000x384 1)
  (r : Fin 10000) (k : Fin 128)

/-- Three arrays of 128 columns joined along the columns, read at a column of the first block: the first array. -/
theorem cat3_fst :
    concatenate S10000x384 1 [⟨S10000x128, A⟩, ⟨S10000x128, B⟩, ⟨S10000x128, C⟩] h
      (ix2 r (⟨0 + k.val, by have := k.isLt; omega⟩ : Fin 384)) = A (ix2 r k) :=
  concatenate_apply_piece (1 : Fin S10000x384.rank) _ h _ 0 (show 0 < 3 by omega) S10000x128 A rfl rfl 0 rfl (ix2 r k)
    (fun b hb => by match b with | ⟨0, _⟩ => rfl | ⟨1, _⟩ => exact absurd rfl hb) rfl

/-- … at a column of the second block: the second array, 128 columns to the left. -/
theorem cat3_snd :
    concatenate S10000x384 1 [⟨S10000x128, A⟩, ⟨S10000x128, B⟩, ⟨S10000x128, C⟩] h
      (ix2 r (⟨128 + k.val, by have := k.isLt; omega⟩ : Fin 384)) = B (ix2 r k) :=
  concatenate_apply_piece (1 : Fin S10000x384.rank) _ h _ 1 (show 1 < 3 by omega) S10000x128 B rfl rfl 128 rfl (ix2 r k)
    (fun b hb => by match b with | ⟨0, _⟩ => rfl | ⟨1, _⟩ => exact absurd rfl hb) rfl

/-- … at a column of the third block: the third array, 256 columns to the left. -/
theorem cat3_trd :
    concatenate S10000x384 1 [⟨S10000x128, A⟩, ⟨S10000x128, B⟩, ⟨S10000x128, C⟩] h
      (ix2 r (⟨256 + k.val, by have := k.isLt; omega⟩ : Fin 384)) = C (ix2 r k) :=
  concatenate_apply_piece (1 : Fin S10000x384.rank) _ h _ 2 (show 2 < 3 by omega) S10000x128 C rfl rfl 256 rfl (ix2 r k)
    (fun b hb => by match b with | ⟨0, _⟩ => rfl | ⟨1, _⟩ => exact absurd rfl hb) rfl

end Cat

/-- The joined array read at a column of the first block: the first layer's output. -/
theorem v18_fst (x0 : A2 10000 128) (x1 : A2 10000 10000) (x2 : A2 128 128) (x3 : A1 128) (x4 : A2 128 128) (x5 : A1 128) (x6 : A2 128 128) (x7 : A1 128) (r : Fin 10000) (k : Fin 128) :
    val_main_v18 (F := Ideal) x0 x1 x2 x3 x4 x5 x6 x7 (ix2 r (⟨0 + k.val, by have := k.isLt; omega⟩ : Fin 384))
      = h1 x0 x1 x2 x3 r k :=
  (cat3_fst _ _ _ _ r k).trans (v5_eq x0 x1 x2 x3 r k)

/-- … of the second block: the second layer's output. -/
theorem v18_snd (x0 : A2 10000 128) (x1 : A2 10000 10000) (x2 : A2 128 128) (x3 : A1 128) (x4 : A2 128 128) (x5 : A1 128) (x6 : A2 128 128) (x7 : A1 128) (r : Fin 10000) (k : Fin 128) :
    val_main_v18 (F := Ideal) x0 x1 x2 x3 x4 x5 x6 x7 (ix2 r (⟨128 + k.val, by have := k.isLt; omega⟩ : Fin 384))
      = h2 x0 x1 x2 x3 x4 x5 r k :=
  (cat3_snd _ _ _ _ r k).trans (v11_eq x0 x1 x2 x3 x4 x5 r k)

/-- … of the third block: the third layer's output. -/
theorem v18_trd (x0 : A2 10000 128) (x1 : A2 10000 10000) (x2 : A2 128 128) (x3 : A1 128) (x4 : A2 128 128) (x5 : A1 128) (x6 : A2 128 128) (x7 : A1 128) (r : Fin 10000) (k : Fin 128) :
    val_main_v18 (F := Ideal) x0 x1 x2 x3 x4 x5 x6 x7 (ix2 r (⟨256 + k.val, by have := k.isLt; omega⟩ : Fin 384))
      = h3 x0 x1 x2 x3 x4 x5 x6 x7 r k :=
  (cat3_trd _ _ _ _ r k).trans (v17_eq x0 x1 x2 x3 x4 x5 x6 x7 r k)

/-- The head's logits: the product of the joined layers with the transposed head weights over 384 columns is the sum of
    the three layers' shares over 128 columns each; then the head's bias. -/
theorem v23_eq (x0 : A2 10000 128) (x1 : A2 10000 10000) (x2 : A2 128 128) (x3 : A1 128) (x4 : A2 128 128) (x5 : A1 128) (x6 : A2 128 128) (x7 : A1 128) (x8 : A2 16 384) (x9 : A1 16) (r : Fin 10000) (q : Fin 16) :
    val_main_v23 (F := Ideal) x0 x1 x2 x3 x4 x5 x6 x7 x8 x9 (ix2 r q) = z x0 x1 x2 x3 x4 x5 x6 x7 x8 x9 r q := by
  rw [val_main_v23_apply, val_main_v20_apply, val_main_v22_apply, val_main_v21_apply]
  have hl : ∀ c : Fin 384, lidx_main_v20 (ix2 r q) c = ix2 r c := fun c => funext fun d => by
    match d with | ⟨0, _⟩ => rfl | ⟨1, _⟩ => rfl
  have hr : ∀ c : Fin 384, idx_main_v19 (ridx_main_v20 (ix2 r q) c) = ix2 q c := fun c => funext fun d => by
    match d with | ⟨0, _⟩ => rfl | ⟨1, _⟩ => rfl
  have hb : idx_main_v21 (idx_main_v22 (ix2 r q)) = ix1 q := funext fun d => by
    match d with | ⟨0, _⟩ => rfl
  simp only [val_main_v19_apply, hl, hr, hb, Ideal.addf_def]
  rw [sum_three_blocks]
  simp only [v18_fst, v18_snd, v18_trd]
  rfl

/-! ## The log-softmax -/

/-- The row maximum the reference subtracts: the fold of `max` over the row's logits, from `-inf`. The reference takes
    one more maximum against `-inf`, which changes nothing: the fold is already at least the value it starts from. -/
theorem rowmax_eq (x0 : A2 10000 128) (x1 : A2 10000 10000) (x2 : A2 128 128) (x3 : A1 128) (x4 : A2 128 128) (x5 : A1 128) (x6 : A2 128 128) (x7 : A1 128) (x8 : A2 16 384) (x9 : A1 16) (r : Fin 10000) :
    val_main_call3_v2 (F := Ideal) x0 x1 x2 x3 x4 x5 x6 x7 x8 x9 (ix1 r)
      = (Finset.univ : Finset (Fin 16)).fold max ninf (z x0 x1 x2 x3 x4 x5 x6 x7 x8 x9 r) := by
  rw [val_main_call3_v2_apply, val_main_call3_v1_apply, val_main_call3_cst_0_apply]
  have h0 : val_main_call3_v0 (F := Ideal) x0 x1 x2 x3 x4 x5 x6 x7 x8 x9 (ix1 r)
      = (Finset.univ : Finset (Fin 16)).fold max ninf
          (fun k => val_main_v23 (F := Ideal) x0 x1 x2 x3 x4 x5 x6 x7 x8 x9 (ix2 r k)) :=
    Cert.Columns.hostReduce_maximumf_row (val_main_v23 (F := Ideal) x0 x1 x2 x3 x4 x5 x6 x7 x8 x9) 0xFF800000#32
      reducesTo_S10000x16_S10000_d1 (by decide) h_S_ r
  have hz : (fun k => val_main_v23 (F := Ideal) x0 x1 x2 x3 x4 x5 x6 x7 x8 x9 (ix2 r k)) = z x0 x1 x2 x3 x4 x5 x6 x7 x8 x9 r :=
    funext fun k => v23_eq x0 x1 x2 x3 x4 x5 x6 x7 x8 x9 r k
  rw [h0, hz]
  simp only [Ideal.maximumf_def, Ideal.ofBits_def]
  exact max_eq_right ((Finset.le_fold_max _).2 (Or.inl le_rfl))

/-- A logit less its row's maximum. -/
theorem shifted_eq (x0 : A2 10000 128) (x1 : A2 10000 10000) (x2 : A2 128 128) (x3 : A1 128) (x4 : A2 128 128) (x5 : A1 128) (x6 : A2 128 128) (x7 : A1 128) (x8 : A2 16 384) (x9 : A1 16) (r : Fin 10000) (k : Fin 16) :
    val_main_call3_v5 (F := Ideal) x0 x1 x2 x3 x4 x5 x6 x7 x8 x9 (ix2 r k)
      = z x0 x1 x2 x3 x4 x5 x6 x7 x8 x9 r k - (Finset.univ : Finset (Fin 16)).fold max ninf (z x0 x1 x2 x3 x4 x5 x6 x7 x8 x9 r) := by
  rw [val_main_call3_v5_apply, val_main_call3_v4_apply, val_main_call3_v3_apply]
  have hj : idx_main_call3_v3 (idx_main_call3_v4 (ix2 r k)) = ix1 r := funext fun d => by
    match d with | ⟨0, _⟩ => rfl
  rw [hj, rowmax_eq, v23_eq]
  rfl

/-- The reference's result at a row and a column: the log-softmax of the row's logits. -/
theorem v24_eq (x0 : A2 10000 128) (x1 : A2 10000 10000) (x2 : A2 128 128) (x3 : A1 128) (x4 : A2 128 128) (x5 : A1 128) (x6 : A2 128 128) (x7 : A1 128) (x8 : A2 16 384) (x9 : A1 16) (r : Fin 10000) (q : Fin 16) :
    val_main_v24 (F := Ideal) x0 x1 x2 x3 x4 x5 x6 x7 x8 x9 (ix2 r q) = lsm (z x0 x1 x2 x3 x4 x5 x6 x7 x8 x9 r) q := by
  rw [val_main_v24_apply, val_main_call3_v10_apply, val_main_call3_v9_apply, val_main_call3_v8_apply,
    val_main_call3_v7_apply, val_main_call3_cst_1_apply]
  have hj : idx_main_call3_v8 (idx_main_call3_v10 (ix2 r q)) = ix1 r := funext fun d => by
    match d with | ⟨0, _⟩ => rfl
  have hs : ∀ k : Fin 16, idx_main_call3_v7 (ix1 r) k = ix2 r k := fun k => funext fun d => by
    match d with | ⟨0, _⟩ => rfl | ⟨1, _⟩ => rfl
  simp only [hj, hs, val_main_call3_v6_apply, shifted_eq, Ideal.subf_def, Ideal.hostUnary_exp_def,
    Ideal.hostUnary_log_def, Ideal.ofBits_def]
  rw [Ideal.ofBits_zero_f32, zero_add]
  rfl

/-- The reference's last stage is the specification. -/
theorem ref_is_spec (x0 : Cert.Spec.A2 10000 128) (x1 : Cert.Spec.A2 10000 10000) (x2 : Cert.Spec.A2 128 128) (x3 : Cert.Spec.A1 128) (x4 : Cert.Spec.A2 128 128) (x5 : Cert.Spec.A1 128) (x6 : Cert.Spec.A2 128 128) (x7 : Cert.Spec.A1 128) (x8 : Cert.Spec.A2 16 384) (x9 : Cert.Spec.A1 16) :
    Cert.ReferenceIdeal.Read.val_main_v24 (F := Idealize.ShloMosaic.Ideal) x0 x1 x2 x3 x4 x5 x6 x7 x8 x9 = Cert.Spec.out x0 x1 x2 x3 x4 x5 x6 x7 x8 x9 := by
  funext i
  rw [eq_ix2 i]
  exact v24_eq x0 x1 x2 x3 x4 x5 x6 x7 x8 x9 (i 0) (i 1)

end Cert.RefSpec

end
-- ==== Proof.lean ====
/-
  Three graph-convolution layers and a log-softmax head, as one Pallas program of two pallas_calls, against the jnp
  reference — the proof of `Cert.Claim`.

  THE FRAMES of the kernel's program (as printed, and idealized): @main is a stretch of host operations, two kernel
  regions and a second stretch. Each region's body runs, at every grid point, from what the pipeline hands it to what
  the proof data state it leaves: region 0 computes the first layer's support into a scratch at its first point and
  consumes it at the 25 later ones; region 1 fills two scratch buffers slab by slab in its first pass over ten row
  blocks and reads them whole in its second. The library's launch of a list of segments composes the stretches and the
  regions; no host operation and no region writes an argument. The same text, read at the word-level instance and at
  the extended reals, proves both frames. The reference is a list of host operations; its frame is its run.

  PRESERVES is `True`: the idealization rewrote nothing.

  THE VALUE: at the extended reals a change of float format is the identity, a matrix unit's product into a zero
  accumulator is the plain sum, and sums may be regrouped. Region 0 leaves in its output arrays the adjacency itself,
  the second layer's support `h1·W1` and the head's first share `h1·Wl[:, 0:128]ᵀ`, where `h1 = max(adj·(x·W0) + b0, 0)`;
  region 1's first pass leaves `h2·W2` and `h2·Wl[:, 128:256]ᵀ` in its scratch buffers, and its second pass writes, block
  by block, the log-softmax of `((z1 + z2) + z3) + bl` into the second plane of its output, which the host operations after
  it return. The reference joins `h1 h2 h3` side by side and multiplies by `Wlᵀ`: a sum over 384 columns that is the sum of
  its three 128-column parts. Both results are the specification's (`Cert.Spec.out`).
-/
import proofs.«166769_g37641093382870_cont_sun_c4_266_19_alg».proof.Defs
import proofs.«166769_g37641093382870_cont_sun_c4_266_19_alg».proof.Proof.Gen.Kernel
import proofs.«166769_g37641093382870_cont_sun_c4_266_19_alg».proof.Proof.Gen.KernelIdeal
import proofs.«166769_g37641093382870_cont_sun_c4_266_19_alg».proof.Proof.Gen.ReferenceIdeal
import proofs.«166769_g37641093382870_cont_sun_c4_266_19_alg».proof.Proof.Gen.Pre_finite_inputs
import proofs.«166769_g37641093382870_cont_sun_c4_266_19_alg».proof.Proof.FKernel.FrameOf
import proofs.«166769_g37641093382870_cont_sun_c4_266_19_alg».proof.Proof.FKernelIdeal.FrameOf
import proofs.«166769_g37641093382870_cont_sun_c4_266_19_alg».proof.Proof.K1Out
import proofs.«166769_g37641093382870_cont_sun_c4_266_19_alg».proof.Proof.RefRun
import proofs.«166769_g37641093382870_cont_sun_c4_266_19_alg».proof.Proof.RefIsSpec

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hnd.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hnd.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.HandRun.run (F := Ideal) m ρ)

theorem preserves : Cert.preserves_Kernel_KernelIdeal := trivial

open Cert.KernelIdeal Cert.KernelIdeal.Hnd in
/-- Both idealized programs end with the specification's result of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.out (aX m c) (aAdj m c) (aW0 m c) (ab0 m c) (aW1 m c) (ab1 m c) (aW2 m c) (ab2 m c) (aWl m c) (abl m c), ?_, ?_⟩
  · exact (θ_run Cert.KernelIdeal.defs _ _).mono (fun r h c => by
      obtain ⟨Fs, hFs, hmem⟩ := h c
      exact ⟨(hmem _ (mem_uc main_v22 (by decide))).trans (result_eq m c Fs hFs),
        (hmem _ (mem_uc main_arg0 (by decide))).trans (W4_main_arg0 m c Fs),
        (hmem _ (mem_uc main_arg1 (by decide))).trans (W4_main_arg1 m c Fs),
        (hmem _ (mem_uc main_arg2 (by decide))).trans (W4_main_arg2 m c Fs),
        (hmem _ (mem_uc main_arg3 (by decide))).trans (W4_main_arg3 m c Fs),
        (hmem _ (mem_uc main_arg4 (by decide))).trans (W4_main_arg4 m c Fs),
        (hmem _ (mem_uc main_arg5 (by decide))).trans (W4_main_arg5 m c Fs),
        (hmem _ (mem_uc main_arg6 (by decide))).trans (W4_main_arg6 m c Fs),
        (hmem _ (mem_uc main_arg7 (by decide))).trans (W4_main_arg7 m c Fs),
        (hmem _ (mem_uc main_arg8 (by decide))).trans (W4_main_arg8 m c Fs),
        (hmem _ (mem_uc main_arg9 (by decide))).trans (W4_main_arg9 m c Fs)⟩)
      (Cert.KernelIdeal.Hnd.run_main (F := Ideal) m ρ)
  · exact (θ_run Cert.ReferenceIdeal.defs _ _).mono (fun r h c => ⟨(h c).1.trans (by
        rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
        exact Cert.RefSpec.ref_is_spec _ _ _ _ _ _ _ _ _ _), (h c).2⟩)
      (Cert.ReferenceIdeal.HandRun.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
